-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 44
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_6 : Ref sig .tc := ⟨.hbm, 23, rfl⟩
abbrev main_v12 : Ref sig .tc := ⟨.hbm, 24, rfl⟩
abbrev main_v13 : Ref sig .tc := ⟨.hbm, 25, rfl⟩
abbrev main_cst_7 : Ref sig .tc := ⟨.hbm, 26, rfl⟩
abbrev main_v14 : Ref sig .tc := ⟨.hbm, 27, rfl⟩
abbrev main_cst_8 : Ref sig .tc := ⟨.hbm, 28, rfl⟩
abbrev main_v15 : Ref sig .tc := ⟨.hbm, 29, rfl⟩
abbrev main_cst_9 : Ref sig .tc := ⟨.hbm, 30, rfl⟩
abbrev main_v16 : Ref sig .tc := ⟨.hbm, 31, rfl⟩
abbrev main_cst_10 : Ref sig .tc := ⟨.hbm, 32, rfl⟩
abbrev main_v17 : Ref sig .tc := ⟨.hbm, 33, rfl⟩
abbrev main_v18 : Ref sig .tc := ⟨.hbm, 34, rfl⟩
abbrev main_cst_11 : Ref sig .tc := ⟨.hbm, 35, rfl⟩
abbrev main_v19 : Ref sig .tc := ⟨.hbm, 36, rfl⟩
abbrev main_cst_12 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_13 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1024_S1024_0 : ∀ a, (![0] : Fin 1 → Nat) a + S1024.size a ≤ S1024.size a
  h_S1024 : 0 < S1024.numel
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  bitsLt_bf16_f32 : FTy.bits .bf16 < FTy.bits .f32
  transposes_S1024x128_p1_0_S128x1024 : S1024x128.Transposes [1, 0] S128x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  shapeCasts_S1024_S1024 : S1024.ShapeCasts S1024
  reduces_S1024x1024_S1024 : S1024x1024.Reduces [1] S1024
  reducesTo_S8192_S_d0 : S8192.ReducesTo [0] S_
  h_S_ : 0 < S_.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S8192.size a
  hwx0_3 : ∀ i : grid0.Coords, EltTy.bits .f32 = 32 ∨ (Rect.block (s := S8192) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S8192.size a
  hwx0_5 : ∀ i : grid0.Coords, EltTy.bits .f32 = 32 ∨ (Rect.block (s := S8192) S1024.size (cc0_transform_5 i) (hinb0_5 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S4096 : Shape := ⟨1, ![4096]⟩
abbrev S1x4096 : Shape := ⟨2, ![1, 4096]⟩
abbrev S2x4096 : Shape := ⟨2, ![2, 4096]⟩

abbrev nBuf : Space → Nat
  | .hbm => 98
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S128x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S4096, .i32⟩
  | .hbm, ⟨27, _⟩ => ⟨S1x4096, .i32⟩
  | .hbm, ⟨28, _⟩ => ⟨S2x4096, .i32⟩
  | .hbm, ⟨29, _⟩ => ⟨S8192, .i32⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .f32⟩
  | .hbm, ⟨36, _⟩ => ⟨S8192x8192, .i32⟩
  | .hbm, ⟨37, _⟩ => ⟨S8192x8192, .i32⟩
  | .hbm, ⟨38, _⟩ => ⟨S_, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192, .f32⟩
  | .hbm, ⟨68, _⟩ => ⟨S1x8192, .f32⟩
  | .hbm, ⟨69, _⟩ => ⟨S_, .f32⟩
  | .hbm, ⟨70, _⟩ => ⟨S1x8192, .f32⟩
  | .hbm, ⟨71, _⟩ => ⟨S1x8192, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_4 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_5 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_cst_8 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_cst_10 : Ref sig .tc := ⟨.hbm, 62, rfl⟩
abbrev main_v49 : Ref sig .tc := ⟨.hbm, 63, rfl⟩
abbrev main_cst_11 : Ref sig .tc := ⟨.hbm, 64, rfl⟩
abbrev main_v50 : Ref sig .tc := ⟨.hbm, 65, rfl⟩
abbrev main_cst_12 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_cst_14 : Ref sig .tc := ⟨.hbm, 72, rfl⟩
abbrev main_v55 : Ref sig .tc := ⟨.hbm, 73, rfl⟩
abbrev main_v56 : Ref sig .tc := ⟨.hbm, 74, rfl⟩
abbrev main_cst_15 : Ref sig .tc := ⟨.hbm, 75, rfl⟩
abbrev main_v57 : Ref sig .tc := ⟨.hbm, 76, rfl⟩
abbrev main_v58 : Ref sig .tc := ⟨.hbm, 77, rfl⟩
abbrev main_cst_16 : Ref sig .tc := ⟨.hbm, 78, rfl⟩
abbrev main_v59 : Ref sig .tc := ⟨.hbm, 79, rfl⟩
abbrev main_cst_17 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_18 : Ref sig .tc := ⟨.hbm, 89, rfl⟩
abbrev main_v68 : Ref sig .tc := ⟨.hbm, 90, rfl⟩
abbrev main_cst_19 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_20 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  reducesTo_S8192x8192_S_d0_1 : S8192x8192.ReducesTo [0, 1] S_
  reducesTo_S8192x8192_S8192_d0 : S8192x8192.ReducesTo [0] S8192
  bcast_S_S1x8192 : S_.BroadcastsInDim S1x8192 (![] : Fin 0 → Fin S1x8192.rank)
  reducesTo_S8192x8192_S8192_d1 : S8192x8192.ReducesTo [1] S8192
  bcast_S_S8192x1 : S_.BroadcastsInDim S8192x1 (![] : Fin 0 → Fin S8192x1.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RunsKernel.lean ====
/-
  What the runs of the kernel's body share: the program around its one region (the region first, then the scalar
  host operations), the contents of the buffers when the region is entered, the blocks of the two input windows
  (both windows read the one argument array: window 0 the rows of the grid's first coordinate, window 1 the rows
  of the second), and the body's one branch, taken exactly at the points whose second coordinate is 0.
-/
import proofs.«138724_j84550726189308_2_alg».proof.Proof.Gen.Kernel.Launch
import proofs.«138724_j84550726189308_2_alg».proof.Proof.Gen.Kernel.Skeleton
import proofs.«138724_j84550726189308_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered, as a valuation: the launch memory (no host operation comes
    before the region). -/
abbrev V0 (c : Dev nD) : Valuation τ sig (Elt F) := StableHlo.after (List.flatten []) (fun b => m (c, b))
/-- The same read at a reference of the core. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the region continued by the scalar host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The operations after the region touch unscoped buffers of the core only. -/
theorem sfx_sub : ∀ ops ∈ ([hostOps1] : List (List (HloOp τ sig (Elt F)))), ∀ op ∈ ops,
    op.bufs ⊆ Pipeline.ucRefs τ sig := by
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not fetched the
    block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch (the accumulators are reset), from the grid coordinates. -/
abbrev cond0_0 (i : grid0.Coords) : Prop := (Scalar.cmpi .ne (Scalar.extui (Scalar.cmpi .eq (BitVec.ofNat 32 (i 1).val) 0#32)) 0#32) = 1#1
/-- It holds exactly at the points whose second coordinate is 0: every eighth point. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs at a point -/

/-- One staging buffer of an output window, through which contents are stated (the choice does not matter). -/
abbrev VO : View sig .tc .vmem S1024 .f32 := (Memref.whole cc0_stg2_0 : Memref sig .tc .vmem S1024 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)

end Cert.Kernel.Hand

end
-- ==== Proof.RunA_Kernel.lean ====
/-
  The body's run at a point whose second grid coordinate is 0: the four accumulators are reset to zero and the point's
  contribution added. On whole staging memrefs, the two input blocks at their contents and the four accumulators' buffers
  at any contents, the body runs to the end, leaves the inputs as they were, and each accumulator's buffer holds the
  stores the run found.
-/
import proofs.«138724_j84550726189308_2_alg».proof.Proof.RunsKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's buffer (last first) at a point that resets them, with the body's
    triple. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) :
    Σ' (L2 : List (View.Piece (Elt F) S1024 .f32)) (L3 : List (View.Piece (Elt F) S1024 .f32)) (L4 : List (View.Piece (Elt F) S1024 .f32)), { L5 : List (View.Piece (Elt F) S1024 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, ?_, ?_, fun E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.Kernel.Hand

end
-- ==== Proof.RunB_Kernel.lean ====
/-
  The body's run at a point whose second grid coordinate is not 0: the point's contribution is added to the four
  accumulators as the point before left them. On whole staging memrefs, the two input blocks and the four accumulators'
  buffers at their contents, the body runs to the end, leaves the inputs as they were, and each accumulator's buffer
  holds the stores the run found.
-/
import proofs.«138724_j84550726189308_2_alg».proof.Proof.RunA_Kernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's buffer (last first) at a point that adds to them, with the body's
    triple. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) :
    Σ' (L2 : List (View.Piece (Elt F) S1024 .f32)) (L3 : List (View.Piece (Elt F) S1024 .f32)) (L4 : List (View.Piece (Elt F) S1024 .f32)), { L5 : List (View.Piece (Elt F) S1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, ?_, ?_, fun E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1
    obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.Kernel.Hand

end
-- ==== Proof.FrameA_Kernel.lean ====
/-
  What the four accumulators' staging buffers hold after the body at each grid point, point by point (at a point whose
  second coordinate is 0 the body resets them and adds the point's contribution; at the others it adds to what the point
  before left), the proof data of the pipeline (the two input windows hold halves of the one argument array's share),
  and the body's obligation at a generic point.
-/
import proofs.«138724_j84550726189308_2_alg».proof.Proof.RunB_Kernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_A_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) (y : S1024.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1024.size (by sl_kernel_rfl) y

/-- What a resetting point leaves in accumulator 0's staging buffer: its stores read back. -/
def out0_A_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) : Vec F S1024 .f32 :=
  VO.read (Elt F) (VO.writes (Elt F) VO.junk (kernelRun0_A c i arg2 harg2 arg3 harg3 arg4 harg4 arg5 harg5 arg6 harg6 arg7 harg7 hc0 x0 x1).1)

theorem cover0_A_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) (y : S1024.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S1024.size (by sl_kernel_rfl) y

/-- What a resetting point leaves in accumulator 1's staging buffer: its stores read back. -/
def out0_A_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) : Vec F S1024 .f32 :=
  VO.read (Elt F) (VO.writes (Elt F) VO.junk (kernelRun0_A c i arg2 harg2 arg3 harg3 arg4 harg4 arg5 harg5 arg6 harg6 arg7 harg7 hc0 x0 x1).2.1)

theorem cover0_A_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) (y : S1024.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S1024.size (by sl_kernel_rfl) y

/-- What a resetting point leaves in accumulator 2's staging buffer: its stores read back. -/
def out0_A_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) : Vec F S1024 .f32 :=
  VO.read (Elt F) (VO.writes (Elt F) VO.junk (kernelRun0_A c i arg2 harg2 arg3 harg3 arg4 harg4 arg5 harg5 arg6 harg6 arg7 harg7 hc0 x0 x1).2.2.1)

theorem cover0_A_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) (y : S1024.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S1024.size (by sl_kernel_rfl) y

/-- What a resetting point leaves in accumulator 3's staging buffer: its stores read back. -/
def out0_A_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) : Vec F S1024 .f32 :=
  VO.read (Elt F) (VO.writes (Elt F) VO.junk (kernelRun0_A c i arg2 harg2 arg3 harg3 arg4 harg4 arg5 harg5 arg6 harg6 arg7 harg7 hc0 x0 x1).2.2.2.1)

theorem cover0_B_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) (y : S1024.Idx) :
    ∃ pc ∈ (kernelRun0_B c i arg2 harg2 arg3 harg3 arg4 harg4 arg5 harg5 arg6 harg6 arg7 harg7 hc0 x0 x1 xo2 xo3 xo4 xo5).1, y ∈ pc.1.set :=
  View.cover_of_tiledL (kernelRun0_B c i arg2 harg2 arg3 harg3 arg4 harg4 arg5 harg5 arg6 harg6 arg7 harg7 hc0 x0 x1 xo2 xo3 xo4 xo5).1 S1024.size (by sl_kernel_rfl) y

/-- What an adding point leaves in accumulator 0's staging buffer: its stores read back. -/
def out0_B_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) : Vec F S1024 .f32 :=
  VO.read (Elt F) (VO.writes (Elt F) VO.junk (kernelRun0_B c i arg2 harg2 arg3 harg3 arg4 harg4 arg5 harg5 arg6 harg6 arg7 harg7 hc0 x0 x1 xo2 xo3 xo4 xo5).1)

theorem cover0_B_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) (y : S1024.Idx) :
    ∃ pc ∈ (kernelRun0_B c i arg2 harg2 arg3 harg3 arg4 harg4 arg5 harg5 arg6 harg6 arg7 harg7 hc0 x0 x1 xo2 xo3 xo4 xo5).2.1, y ∈ pc.1.set :=
  View.cover_of_tiledL (kernelRun0_B c i arg2 harg2 arg3 harg3 arg4 harg4 arg5 harg5 arg6 harg6 arg7 harg7 hc0 x0 x1 xo2 xo3 xo4 xo5).2.1 S1024.size (by sl_kernel_rfl) y

/-- What an adding point leaves in accumulator 1's staging buffer: its stores read back. -/
def out0_B_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) : Vec F S1024 .f32 :=
  VO.read (Elt F) (VO.writes (Elt F) VO.junk (kernelRun0_B c i arg2 harg2 arg3 harg3 arg4 harg4 arg5 harg5 arg6 harg6 arg7 harg7 hc0 x0 x1 xo2 xo3 xo4 xo5).2.1)

theorem cover0_B_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) (y : S1024.Idx) :
    ∃ pc ∈ (kernelRun0_B c i arg2 harg2 arg3 harg3 arg4 harg4 arg5 harg5 arg6 harg6 arg7 harg7 hc0 x0 x1 xo2 xo3 xo4 xo5).2.2.1, y ∈ pc.1.set :=
  View.cover_of_tiledL (kernelRun0_B c i arg2 harg2 arg3 harg3 arg4 harg4 arg5 harg5 arg6 harg6 arg7 harg7 hc0 x0 x1 xo2 xo3 xo4 xo5).2.2.1 S1024.size (by sl_kernel_rfl) y

/-- What an adding point leaves in accumulator 2's staging buffer: its stores read back. -/
def out0_B_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) : Vec F S1024 .f32 :=
  VO.read (Elt F) (VO.writes (Elt F) VO.junk (kernelRun0_B c i arg2 harg2 arg3 harg3 arg4 harg4 arg5 harg5 arg6 harg6 arg7 harg7 hc0 x0 x1 xo2 xo3 xo4 xo5).2.2.1)

theorem cover0_B_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) (y : S1024.Idx) :
    ∃ pc ∈ (kernelRun0_B c i arg2 harg2 arg3 harg3 arg4 harg4 arg5 harg5 arg6 harg6 arg7 harg7 hc0 x0 x1 xo2 xo3 xo4 xo5).2.2.2.1, y ∈ pc.1.set :=
  View.cover_of_tiledL (kernelRun0_B c i arg2 harg2 arg3 harg3 arg4 harg4 arg5 harg5 arg6 harg6 arg7 harg7 hc0 x0 x1 xo2 xo3 xo4 xo5).2.2.2.1 S1024.size (by sl_kernel_rfl) y

/-- What an adding point leaves in accumulator 3's staging buffer: its stores read back. -/
def out0_B_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) : Vec F S1024 .f32 :=
  VO.read (Elt F) (VO.writes (Elt F) VO.junk (kernelRun0_B c i arg2 harg2 arg3 harg3 arg4 harg4 arg5 harg5 arg6 harg6 arg7 harg7 hc0 x0 x1 xo2 xo3 xo4 xo5).2.2.2.1)

/-- The four accumulators' contents. -/
abbrev Outs (F : FTy → Type) [FloatOps F] : Type := Vec F S1024 .f32 × Vec F S1024 .f32 × Vec F S1024 .f32 × Vec F S1024 .f32

/-- What a resetting point leaves in the four accumulators. -/
def outA (c : Dev nD) (t : Fin cfg0.N) (h0 : t.val % 8 = 0) : Outs F :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t))

/-- What an adding point leaves in the four accumulators, from what the point before left. -/
def outB (c : Dev nD) (t : Fin cfg0.N) (h0 : ¬t.val % 8 = 0) (prev : Outs F) : Outs F :=
  (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) prev.1 prev.2.1 prev.2.2.1 prev.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) prev.1 prev.2.1 prev.2.2.1 prev.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) prev.1 prev.2.1 prev.2.2.1 prev.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) prev.1 prev.2.1 prev.2.2.1 prev.2.2.2)

/-- THE ACCUMULATION: the four accumulators after the body at position `n`. -/
def outsAt0 (c : Dev nD) : (n : ℕ) → n < cfg0.N → Outs F
  | 0, hn => outA m c ⟨0, hn⟩ (Nat.zero_mod _)
  | n + 1, hn =>
    if h0 : (n + 1) % 8 = 0 then outA m c ⟨n + 1, hn⟩ h0
    else outB m c ⟨n + 1, hn⟩ h0 (outsAt0 c n (Nat.lt_of_succ_lt hn))

theorem outsAt0_A (c : Dev nD) (t : Fin cfg0.N) (h0 : t.val % 8 = 0) :
    outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data: the arrays as the region finds them; after the body each input's buffer at its block and the
    accumulators' at `outsAt0`; the two input windows each hold half of the argument array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At an adding point accumulator 0's buffer holds what the body left at the point before: it was not written back between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-- At an adding point accumulator 1's buffer holds what the body left at the point before: it was not written back between. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- At an adding point accumulator 2's buffer holds what the body left at the point before: it was not written back between. -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2.1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-- At an adding point accumulator 3's buffer holds what the body left at the point before: it was not written back between. -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The body at any point: the inputs' buffers hold their blocks; the point either resets the accumulators or adds to what
    the point before left, and the matching run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 64 := lt_of_lt_of_eq t.isLt (show cfg0.N = 64 from N_0)
  by_cases h0 : t.val % 8 = 0
  · rw [outsAt0_A m c t h0]
    unfold outA out0_A_2 out0_A_3 out0_A_4 out0_A_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 (F := F) c _ _ _ _ _ _ _ _ _ _ _ _ _ _ _ _)
    isplitl [H3]
    · unfold owns; iexists _; isplitr
      swap; · iexact H3
      ipureintro; exact View.read_writes_of_cover _ _ _ _ _ (cover0_A_3 (F := F) c _ _ _ _ _ _ _ _ _ _ _ _ _ _ _ _)
    isplitl [H4]
    · unfold owns; iexists _; isplitr
      swap; · iexact H4
      ipureintro; exact View.read_writes_of_cover _ _ _ _ _ (cover0_A_4 (F := F) c _ _ _ _ _ _ _ _ _ _ _ _ _ _ _ _)
    unfold owns; iexists _; isplitr
    swap; · iexact H5
    ipureintro; exact View.read_writes_of_cover _ _ _ _ _ (cover0_A_5 (F := F) c _ _ _ _ _ _ _ _ _ _ _ _ _ _ _ _)
  · rw [outsAt0_B m c t h0]
    simp only [before0_2_B m c t h0, before0_3_B m c t h0, before0_4_B m c t h0, before0_5_B m c t h0]
    unfold outB out0_B_2 out0_B_3 out0_B_4 out0_B_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 (F := F) c _ _ _ _ _ _ _ _ _ _ _ _ _ _ _ _ _ _ _ _)
    isplitl [H3]
    · unfold owns; iexists _; isplitr
      swap; · iexact H3
      ipureintro; exact View.read_writes_of_cover _ _ _ _ _ (cover0_B_3 (F := F) c _ _ _ _ _ _ _ _ _ _ _ _ _ _ _ _ _ _ _ _)
    isplitl [H4]
    · unfold owns; iexists _; isplitr
      swap; · iexact H4
      ipureintro; exact View.read_writes_of_cover _ _ _ _ _ (cover0_B_4 (F := F) c _ _ _ _ _ _ _ _ _ _ _ _ _ _ _ _ _ _ _ _)
    unfold owns; iexists _; isplitr
    swap; · iexact H5
    ipureintro; exact View.read_writes_of_cover _ _ _ _ _ (cover0_B_5 (F := F) c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibSharedFrame.lean ====
/-
  The frame run of a one-region program whose windows may SHARE an array (one argument handed to the kernel through
  several input windows), with host operations before and after the region.

  When the windows' arrays are pairwise distinct, each array is held whole at the full share and the run around the
  region is the library's. When two input windows read one array, each holds only a part of that array's share, and two
  things have to be said by the certificate: how the buffers behind the arrays, each whole at the full share, are dealt
  out to the windows at the region's entry (`hsplit`), and that at the region's exit the windows' holdings are again
  those buffers whole at the full share, at exit contents `Wx` (`hjoin`). Between the two the operations after the
  region run exactly as they do for distinct arrays: within all the unscoped buffers held at `Wx`, writing no array.
  The conclusion names every window's array at what the proof data computes and every bypassing buffer at what the
  later operations leave of the exit contents.
-/
import Idealize.ShloMosaic.Lib.Pipeline.FrameSuffix

noncomputable section

namespace Idealize.ShloMosaic.Pipeline.SharedFrame

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The post of the run: each window's array at what the proof data computes after the last point, and every
    unscoped buffer that is no window's array at `W`. -/
def Post (W : (c : Dev nD) → (b : Ref sig .tc) → Buf Val ((c.tc : Thread nD τ).loc b)) (r : PUnit × MemSt nD τ sig Val) : Prop :=
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = W c b

/-- The buffers behind the arrays and the bypassing buffers, all at one valuation, are every unscoped buffer held at it. -/
theorem all_held (hunscoped : ∀ w, (arrRef (cfg).spec w).isScoped = false) (c : Dev nD) (W : Valuation τ sig Val) :
    iprop((arrBufs (cfg).spec c (fun b => W (Proc.devRef .tc b)) : sProp 𝕄) ∗ unscopedRest (cfg).spec c (fun b => W (Proc.devRef .tc b)))
      = StableHlo.held (c.tc : Thread nD τ) (ucRefs τ sig) W := by
  rw [← unscopedBufs_split₀ cfgs p hunscoped c (fun b => W (Proc.devRef .tc b))]
  exact unscopedBufs_held (Ix := Unit) (Name := ℕ) (U := UR sig nD τ) (Lvl := ℕ) c W

/-- THE LINES AFTER THE REGION, for windows that may share arrays: from the region's exit — the boundary, the windows'
    holdings, which are the buffers behind the arrays whole at `Wx` (`hjoin`), and the bypassing buffers at `V`, where
    `Wx` is `V` — the lines run within the unscoped buffers, write no array, and hand back the windows' holdings and the
    bypassing buffers at what the lines leave. -/
theorem tail_shared (hunscoped : ∀ w, (arrRef (cfg).spec w).isScoped = false)
    (c : Dev nD) (V Wx : Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (AN : sProp 𝕄)
    (hjoin₁ : AN ⊢ arrBufs (cfg).spec c (fun b => Wx (Proc.devRef .tc b)))
    (hjoin₂ : (arrBufs (cfg).spec c (fun b => Wx (Proc.devRef .tc b)) : sProp 𝕄) ⊢ AN)
    (hWx : ∀ b : Ref sig .tc, (∀ w, arrRef (cfg).spec w ≠ b) → Wx (Proc.devRef .tc b) = V (Proc.devRef .tc b))
    (Q' : PUnit → sProp 𝕄) :
    iprop((iprop(AN ∗ unscopedRest (cfg).spec c (fun b => StableHlo.after opss.flatten Wx (Proc.devRef .tc b))) -∗ Q' ⟨⟩)
        ∗ boundary (c.tc : Thread nD τ) ∗ AN ∗ unscopedRest (cfg).spec c (fun b => V (Proc.devRef .tc b)))
      ⊢ wp frame (wpE 𝔻 (Variants.lift 𝒱₀) (c.tc : Thread nD τ) none) Set.univ (chain (opss.map StableHlo.seq)) Q' := by
  classical
  -- the bypassing buffers hold `Wx`, which is `V` on them
  have hrest : (unscopedRest (cfg).spec c (fun b => V (Proc.devRef .tc b)) : sProp 𝕄)
      = unscopedRest (cfg).spec c (fun b => Wx (Proc.devRef .tc b)) := by
    unfold unscopedRest
    exact bigSep_congr fun b hb => by
      dsimp only
      rw [hWx b fun w e => (Finset.mem_sdiff.mp hb).2 (Finset.mem_image.mpr ⟨w, Finset.mem_univ _, e⟩)]
  -- no line writes an array: the buffers behind the arrays hold `Wx` after the lines too
  have harr : (arrBufs (cfg).spec c (fun b => StableHlo.after opss.flatten Wx (Proc.devRef .tc b)) : sProp 𝕄)
      = arrBufs (cfg).spec c (fun b => Wx (Proc.devRef .tc b)) := by
    unfold arrBufs
    exact bigSep_congr fun b hb => by
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
  have hpre : iprop(boundary (c.tc : Thread nD τ) ∗ AN ∗ unscopedRest (cfg).spec c (fun b => V (Proc.devRef .tc b)))
      ⊢ iprop(boundary (c.tc : Thread nD τ) ∗ (StableHlo.held (c.tc : Thread nD τ) (ucRefs τ sig) Wx : sProp 𝕄)) := by
    rw [hrest, ← all_held cfgs p hunscoped c Wx]
    exact sep_mono .rfl (sep_mono hjoin₁ .rfl)
  have hpost : (StableHlo.held (c.tc : Thread nD τ) (ucRefs τ sig) (StableHlo.after opss.flatten Wx) : sProp 𝕄)
      ⊢ iprop(AN ∗ unscopedRest (cfg).spec c (fun b => StableHlo.after opss.flatten Wx (Proc.devRef .tc b))) := by
    rw [← all_held cfgs p hunscoped c (StableHlo.after opss.flatten Wx), harr]
    exact sep_mono hjoin₂ .rfl
  rw [← List.append_nil (opss.map StableHlo.seq)]
  iintro ⟨Hk, Hb⟩
  ihave Hb := hpre $$ Hb
  iapply (wp_seqs_then (fun q => Cfg.toPCfg (Val := Val) (cfgs q)) defs₀ 𝒱₀ c (ucRefs τ sig) [] opss hsub hfresh Wx) $$ Hb
  iintro Hb
  rw [chain_nil, wp_pure]
  imodintro
  iapply Hk
  icases Hb with ⟨-, H⟩
  iapply hpost
  iexact H

/-- THE FRAME RUN around the region for windows that may share arrays: as the library's run for distinct arrays
    (`θ_run_frame_around_track`), with the layout facts less the arrays' distinctness, the deal of the buffers behind
    the arrays at entry (`hsplit`) and their reassembly at exit, at the exit valuation `Wx` (`hjoin₁`, `hjoin₂`, `hWx`). -/
theorem θ_run_frame_around_shared
    (hw : WinFacts₀ (cfg).spec) (hcell : Function.Injective (cellOf (nD := nD) (τ := τ) cfgs))
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hjoin₁ : ∀ c, (dats p c).arrays ((dats p c).arrAt · (cfg).N) ⊢ (arrBufs (cfg).spec c (fun b => Wx c (Proc.devRef .tc b)) : sProp 𝕄))
    (hjoin₂ : ∀ c, (arrBufs (cfg).spec c (fun b => Wx c (Proc.devRef .tc b)) : sProp 𝕄) ⊢ (dats p c).arrays ((dats p c).arrAt · (cfg).N))
    (hWx : ∀ c (b : Ref sig .tc), (∀ w, arrRef (cfg).spec w ≠ b) → Wx c (Proc.devRef .tc b) = V₀ c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g)
      (Post cfgs dats p (fun c b => StableHlo.after opss.flatten (Wx c) (Proc.devRef .tc b))) := by
  classical
  have hcell' : Function.Injective (cellOf (nD := nD) (τ := τ) (pin (fun q => (cfgs q).toPCfg (Val := Val)) (fun q => (cfgs q).toPCfg_adm))) := hcell
  exact θ_run_region_pf_tail (fun q => (cfgs q).toPCfg (Val := Val)) (fun q => (cfgs q).toPCfg_adm) dats () hcell' p hw
    (OwnSemFacts.none (cfg).spec) (PreFacts.none _) emb₁ defs₀ 𝒱₀ m g main
    (fun _ => chain (opss.map StableHlo.seq)) hbody hne harr hstage howed
    (G := fun _ => iprop(emp)) (u₀ := initOf (cells _ hcell') (launchToks _ hcell'))
    (hu₀ := by
      iintro Hu; imodintro
      isplitl [Hu]; · iapply (show (ownU _ : sProp 𝕄) ⊢ BI.own (emb₁ (initOf (cells _ hcell') (launchToks _ hcell'))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (Wx c) (Proc.devRef .tc b)))
    (hX := fun c => by
      rw [show (unscopedRestP (Ix := Unit) (Name := ℕ) (U := UR sig nD τ) (Lvl := ℕ) ((cfg).toPCfg (Val := Val)).pre (cfg).spec c (fun b => V₀ c (Proc.devRef .tc b)) : sProp 𝕄)
        = unscopedRest (cfg).spec c (fun b => V₀ c (Proc.devRef .tc b)) from unscopedRestP_none _ _ _]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => tail_shared cfgs p defs₀ 𝒱₀ hw.arr_unscoped c (V₀ c) (Wx c) opss hsub hfresh hkeep _ (hjoin₁ c) (hjoin₂ c) (hWx c) Q')
    (QY := fun c s => ∀ b ∈ restRefs sig (cfg).spec, s.mem ((c.tc : Thread nD τ).loc b) = StableHlo.after opss.flatten (Wx c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (Wx c) (Proc.devRef .tc b)) s')
      isplitl [HU] <;> iassumption)
    (hQ := fun s h c => ⟨(h c).1, (h c).2.2⟩)

end Idealize.ShloMosaic.Pipeline.SharedFrame

end
-- ==== Proof.FrameB_Kernel.lean ====
/-
  The run of the whole program and its frame. The two input windows read the one argument array, each holding half of
  its share: at the region's entry the buffers behind the arrays, each whole, are dealt to the six windows, and at its
  exit the windows' holdings are again those five buffers whole, the argument array unchanged and each accumulator array
  at what its write-backs left.
-/
import proofs.«138724_j84550726189308_2_alg».proof.Proof.FrameA_Kernel
import proofs.«138724_j84550726189308_2_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer whole at the full share is its two halves. -/
theorem full_halves {ℓ : Loc nD τ sig} (f : Buf (Elt F) ℓ) :
    ((ℓ ↦{fullShare} f : sProp 𝕄) ⊢ iprop((ℓ ↦{fullShare.left} f) ∗ ℓ ↦{fullShare.right} f))
    ∧ (iprop((ℓ ↦{fullShare.left} f) ∗ ℓ ↦{fullShare.right} f) ⊢ (ℓ ↦{fullShare} f : sProp 𝕄)) :=
  ⟨(pointsTo_share (PosShare.mem_left_op_right fullShare)).1, (pointsTo_share (PosShare.mem_left_op_right fullShare)).2⟩

/-- The five distinct buffers behind the six windows' arrays. -/
abbrev arrList : Fin 5 → Ref sig .tc := fun | 0 => main_arg0 | 1 => main_v0_0 | 2 => main_v0_1 | 3 => main_v0_2 | 4 => main_v0_3 | ⟨_ + 5, h⟩ => absurd h (Nat.not_lt.2 (Nat.le_add_left _ _))
theorem arrList_inj : Function.Injective arrList := by decide
theorem image_arr : Finset.univ.image (Pipeline.arrRef spec0) = Finset.univ.map ⟨arrList, arrList_inj⟩ := by decide
theorem bigSep_F5 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ

/-- The windows' holdings at contents read off one valuation of the buffers, written out window by window. -/
theorem arrays_eq (c : Dev nD) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    ((dats m 0 c).arrays Fn : sProp 𝕄) = iprop(
      (((c.tc : Thread nD τ).loc main_arg0) ↦{fullShare.left} W main_arg0) ∗ (((c.tc : Thread nD τ).loc main_arg0) ↦{fullShare.right} W main_arg0)
      ∗ (((c.tc : Thread nD τ).loc main_v0_0) ↦{fullShare} W main_v0_0) ∗ (((c.tc : Thread nD τ).loc main_v0_1) ↦{fullShare} W main_v0_1)
      ∗ (((c.tc : Thread nD τ).loc main_v0_2) ↦{fullShare} W main_v0_2) ∗ (((c.tc : Thread nD τ).loc main_v0_3) ↦{fullShare} W main_v0_3)) := by
  have e : ((dats m 0 c).arrays Fn : sProp 𝕄) = bigSep Finset.univ fun w : Fin 6 =>
      ((((c.tc : Thread nD τ).loc (Pipeline.arrRef spec0 w)) ↦{(dats m 0 c).share w} W (Pipeline.arrRef spec0 w)) : sProp 𝕄) := by
    unfold Dat.arrays
    exact bigSep_congr fun w _ => by rw [(arr_whole0 w).set_eq_univ, hF w]
  rw [e, bigSep_W0]
  rfl

/-- The five buffers behind the arrays, written out. -/
theorem arrBufs_eq (c : Dev nD) (W : (b : Ref sig .tc) → Buf (Elt F) ((c.tc : Thread nD τ).loc b)) :
    (Pipeline.arrBufs spec0 c W : sProp 𝕄) = iprop(
      (((c.tc : Thread nD τ).loc main_arg0) ↦{fullShare} W main_arg0)
      ∗ (((c.tc : Thread nD τ).loc main_v0_0) ↦{fullShare} W main_v0_0) ∗ (((c.tc : Thread nD τ).loc main_v0_1) ↦{fullShare} W main_v0_1)
      ∗ (((c.tc : Thread nD τ).loc main_v0_2) ↦{fullShare} W main_v0_2) ∗ (((c.tc : Thread nD τ).loc main_v0_3) ↦{fullShare} W main_v0_3)) := by
  unfold Pipeline.arrBufs
  rw [image_arr, bigSep_map, bigSep_F5]
  rfl

/-- The buffers behind the arrays, whole, deal out to the windows' holdings … -/
theorem split_arrays (c : Dev nD) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    (Pipeline.arrBufs spec0 c W : sProp 𝕄) ⊢ (dats m 0 c).arrays Fn := by
  rw [arrays_eq m c W Fn hF, arrBufs_eq c W]
  iintro ⟨H0, H1, H2, H3, H4⟩
  ihave H0' := (full_halves (W main_arg0)).1 $$ H0
  icases H0' with ⟨Ha, Hb⟩
  isplitl [Ha]; · iexact Ha
  isplitl [Hb]; · iexact Hb
  isplitl [H1]; · iexact H1
  isplitl [H2]; · iexact H2
  isplitl [H3]; · iexact H3
  iexact H4

/-- … and the windows' holdings are those buffers whole again. -/
theorem join_arrays (c : Dev nD) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    ((dats m 0 c).arrays Fn : sProp 𝕄) ⊢ Pipeline.arrBufs spec0 c W := by
  rw [arrays_eq m c W Fn hF, arrBufs_eq c W]
  iintro ⟨Ha, Hb, H1, H2, H3, H4⟩
  isplitl [Ha Hb]
  · iapply (full_halves (W main_arg0)).2
    isplitl [Ha]; · iexact Ha
    iexact Hb
  isplitl [H1]; · iexact H1
  isplitl [H2]; · iexact H2
  isplitl [H3]; · iexact H3
  iexact H4

/-! ## The buffers' contents at the region's exit -/

/-- An input window's array is never written back: it ends as it began. -/
theorem arrAt_arg (c : Dev nD) (n : ℕ) : (dats m 0 c).arrAt 0 n = V m c main_arg0 ∧ (dats m 0 c).arrAt 1 n = V m c main_arg0 :=
  ⟨((dats m 0 c).arrAt_in 0 rfl n).trans (A_eq m c 0), ((dats m 0 c).arrAt_in 1 rfl n).trans (A_eq m c 1)⟩

/-- The exit contents of every buffer of the core: each window's array at what the proof data computes after the last
    point, every other buffer as at entry. -/
def Wx (c : Dev nD) : Valuation τ sig (Elt F) :=
  Pipeline.withArrays spec0 c (V0 m c) fun w => (dats m 0 c).arrAt w cfg0.N

theorem cast_of_heq {α β : Type} (h : α = β) (a : α) (b : β) (hab : HEq a b) : cast h a = b := by
  subst h; exact eq_of_heq hab

theorem Wx_arr (c : Dev nD) (w : Fin cfg0.W) :
    Wx m c (Proc.devRef .tc (Pipeline.arrRef spec0 w)) = (dats m 0 c).arrAt w cfg0.N := by
  unfold Wx Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  have hr : Pipeline.arrRef spec0 w' = Pipeline.arrRef spec0 w := Proc.devRef_injective _ e
  refine cast_of_heq _ _ _ ?_
  have h01 : HEq ((dats m 0 c).arrAt 0 cfg0.N) ((dats m 0 c).arrAt 1 cfg0.N) :=
    heq_of_eq (((arrAt_arg m c cfg0.N).1).trans ((arrAt_arg m c cfg0.N).2).symm)
  have hcases : ∀ a b : Fin 6, Pipeline.arrRef spec0 a = Pipeline.arrRef spec0 b → a = b ∨ (a = 0 ∧ b = 1) ∨ (a = 1 ∧ b = 0) := by decide
  rcases hcases w' w hr with rfl | ⟨rfl, rfl⟩ | ⟨rfl, rfl⟩
  · exact HEq.rfl
  · exact h01
  · exact h01.symm

theorem Wx_rest (c : Dev nD) (b : Ref sig .tc) (hb : ∀ w, Pipeline.arrRef spec0 w ≠ b) :
    Wx m c (Proc.devRef .tc b) = V0 m c (Proc.devRef .tc b) :=
  Pipeline.withArrays_of_ne spec0 c (V0 m c) _ b hb

/-- The operations after the region write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, Finset.mem_singleton] <;> exact StableHlo.devRef_ne_of_ne (by decide)

/-! ## The run and the frame -/

set_option backward.isDefEq.respectTransparency.types false in
/-- Every weakly fair execution of the program terminates, nothing faulting; each window's array ends at what the proof
    data computes, every other buffer at what the scalar host operations leave of the exit contents. -/
theorem run_main : θ_run defs (onTc (τ := τ) (main (F := F))) (s₀ m ρ)
    (Pipeline.SharedFrame.Post cfgs (dats m) 0 (fun c b => StableHlo.after ([hostOps1] : List (List (HloOp τ sig (Elt F)))).flatten (Wx m c) (Proc.devRef .tc b))) :=
  Pipeline.SharedFrame.θ_run_frame_around_shared cfgs (dats m) (0 : Fin 1) defs₀ Variants.none winFacts₀0 cellOf_inj block_pos0 arr_whole0 stage_whole0 m ρ main
    (hbody := fun c => (body_obligation m c).loose) (howed := fun _ _ => rfl) (V₀ := V0 m) (Wx := Wx m) (opss := [hostOps1])
    (hsub := sfx_sub) (hfresh := sfx_fresh) (hkeep := sfx_keeps) (hmain := hmain m Variants.none)
    (hsplit := fun c => split_arrays m c (fun b => V0 m c (Proc.devRef .tc b)) _ (fun w => A_eq m c w))
    (hjoin₁ := fun c => join_arrays m c (fun b => Wx m c (Proc.devRef .tc b)) _ (fun w => (Wx_arr m c w).symm))
    (hjoin₂ := fun c => split_arrays m c (fun b => Wx m c (Proc.devRef .tc b)) _ (fun w => (Wx_arr m c w).symm))
    (hWx := fun c b hb => Wx_rest m c b hb) (hin := fun c => .rfl) (hout := fun c => .rfl)

/-- The frame: the program runs to the end and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((arrAt_arg m c cfg0.N).1).trans (V_main_arg0 m c))) (run_main m ρ)

end Cert.Kernel.Hand

end
-- ==== Proof.RunsKernelIdeal.lean ====
/-
  What the runs of the kernel's body share: the program around its one region (the region first, then the scalar
  host operations), the contents of the buffers when the region is entered, the blocks of the two input windows
  (both windows read the one argument array: window 0 the rows of the grid's first coordinate, window 1 the rows
  of the second), and the body's one branch, taken exactly at the points whose second coordinate is 0.
-/
import proofs.«138724_j84550726189308_2_alg».proof.Proof.Gen.KernelIdeal.Launch
import proofs.«138724_j84550726189308_2_alg».proof.Proof.Gen.KernelIdeal.Skeleton
import proofs.«138724_j84550726189308_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered, as a valuation: the launch memory (no host operation comes
    before the region). -/
abbrev V0 (c : Dev nD) : Valuation τ sig (Elt F) := StableHlo.after (List.flatten []) (fun b => m (c, b))
/-- The same read at a reference of the core. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the region continued by the scalar host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The operations after the region touch unscoped buffers of the core only. -/
theorem sfx_sub : ∀ ops ∈ ([hostOps1] : List (List (HloOp τ sig (Elt F)))), ∀ op ∈ ops,
    op.bufs ⊆ Pipeline.ucRefs τ sig := by
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not fetched the
    block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch (the accumulators are reset), from the grid coordinates. -/
abbrev cond0_0 (i : grid0.Coords) : Prop := (Scalar.cmpi .ne (Scalar.extui (Scalar.cmpi .eq (BitVec.ofNat 32 (i 1).val) 0#32)) 0#32) = 1#1
/-- It holds exactly at the points whose second coordinate is 0: every eighth point. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs at a point -/

/-- One staging buffer of an output window, through which contents are stated (the choice does not matter). -/
abbrev VO : View sig .tc .vmem S1024 .f32 := (Memref.whole cc0_stg2_0 : Memref sig .tc .vmem S1024 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)

end Cert.KernelIdeal.Hand

end
-- ==== Proof.RunA_KernelIdeal.lean ====
/-
  The body's run at a point whose second grid coordinate is 0: the four accumulators are reset to zero and the point's
  contribution added. On whole staging memrefs, the two input blocks at their contents and the four accumulators' buffers
  at any contents, the body runs to the end, leaves the inputs as they were, and each accumulator's buffer holds the
  stores the run found.
-/
import proofs.«138724_j84550726189308_2_alg».proof.Proof.RunsKernelIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's buffer (last first) at a point that resets them, with the body's
    triple. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) :
    Σ' (L2 : List (View.Piece (Elt F) S1024 .f32)) (L3 : List (View.Piece (Elt F) S1024 .f32)) (L4 : List (View.Piece (Elt F) S1024 .f32)), { L5 : List (View.Piece (Elt F) S1024 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, ?_, ?_, fun E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.KernelIdeal.Hand

end
-- ==== Proof.RunB_KernelIdeal.lean ====
/-
  The body's run at a point whose second grid coordinate is not 0: the point's contribution is added to the four
  accumulators as the point before left them. On whole staging memrefs, the two input blocks and the four accumulators'
  buffers at their contents, the body runs to the end, leaves the inputs as they were, and each accumulator's buffer
  holds the stores the run found.
-/
import proofs.«138724_j84550726189308_2_alg».proof.Proof.RunA_KernelIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's buffer (last first) at a point that adds to them, with the body's
    triple. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) :
    Σ' (L2 : List (View.Piece (Elt F) S1024 .f32)) (L3 : List (View.Piece (Elt F) S1024 .f32)) (L4 : List (View.Piece (Elt F) S1024 .f32)), { L5 : List (View.Piece (Elt F) S1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, ?_, ?_, fun E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1
    obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.KernelIdeal.Hand

end
-- ==== Proof.FrameA_KernelIdeal.lean ====
/-
  What the four accumulators' staging buffers hold after the body at each grid point, point by point (at a point whose
  second coordinate is 0 the body resets them and adds the point's contribution; at the others it adds to what the point
  before left), the proof data of the pipeline (the two input windows hold halves of the one argument array's share),
  and the body's obligation at a generic point.
-/
import proofs.«138724_j84550726189308_2_alg».proof.Proof.RunB_KernelIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_A_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) (y : S1024.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1024.size (by sl_kernel_rfl) y

/-- What a resetting point leaves in accumulator 0's staging buffer: its stores read back. -/
def out0_A_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) : Vec F S1024 .f32 :=
  VO.read (Elt F) (VO.writes (Elt F) VO.junk (kernelRun0_A c i arg2 harg2 arg3 harg3 arg4 harg4 arg5 harg5 arg6 harg6 arg7 harg7 hc0 x0 x1).1)

theorem cover0_A_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) (y : S1024.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S1024.size (by sl_kernel_rfl) y

/-- What a resetting point leaves in accumulator 1's staging buffer: its stores read back. -/
def out0_A_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) : Vec F S1024 .f32 :=
  VO.read (Elt F) (VO.writes (Elt F) VO.junk (kernelRun0_A c i arg2 harg2 arg3 harg3 arg4 harg4 arg5 harg5 arg6 harg6 arg7 harg7 hc0 x0 x1).2.1)

theorem cover0_A_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) (y : S1024.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S1024.size (by sl_kernel_rfl) y

/-- What a resetting point leaves in accumulator 2's staging buffer: its stores read back. -/
def out0_A_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) : Vec F S1024 .f32 :=
  VO.read (Elt F) (VO.writes (Elt F) VO.junk (kernelRun0_A c i arg2 harg2 arg3 harg3 arg4 harg4 arg5 harg5 arg6 harg6 arg7 harg7 hc0 x0 x1).2.2.1)

theorem cover0_A_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) (y : S1024.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S1024.size (by sl_kernel_rfl) y

/-- What a resetting point leaves in accumulator 3's staging buffer: its stores read back. -/
def out0_A_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i)
    (x0 : Vec F S1024x128 .f32) (x1 : Vec F S1024x128 .f32) : Vec F S1024 .f32 :=
  VO.read (Elt F) (VO.writes (Elt F) VO.junk (kernelRun0_A c i arg2 harg2 arg3 harg3 arg4 harg4 arg5 harg5 arg6 harg6 arg7 harg7 hc0 x0 x1).2.2.2.1)

theorem cover0_B_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) (y : S1024.Idx) :
    ∃ pc ∈ (kernelRun0_B c i arg2 harg2 arg3 harg3 arg4 harg4 arg5 harg5 arg6 harg6 arg7 harg7 hc0 x0 x1 xo2 xo3 xo4 xo5).1, y ∈ pc.1.set :=
  View.cover_of_tiledL (kernelRun0_B c i arg2 harg2 arg3 harg3 arg4 harg4 arg5 harg5 arg6 harg6 arg7 harg7 hc0 x0 x1 xo2 xo3 xo4 xo5).1 S1024.size (by sl_kernel_rfl) y

/-- What an adding point leaves in accumulator 0's staging buffer: its stores read back. -/
def out0_B_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) : Vec F S1024 .f32 :=
  VO.read (Elt F) (VO.writes (Elt F) VO.junk (kernelRun0_B c i arg2 harg2 arg3 harg3 arg4 harg4 arg5 harg5 arg6 harg6 arg7 harg7 hc0 x0 x1 xo2 xo3 xo4 xo5).1)

theorem cover0_B_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) (y : S1024.Idx) :
    ∃ pc ∈ (kernelRun0_B c i arg2 harg2 arg3 harg3 arg4 harg4 arg5 harg5 arg6 harg6 arg7 harg7 hc0 x0 x1 xo2 xo3 xo4 xo5).2.1, y ∈ pc.1.set :=
  View.cover_of_tiledL (kernelRun0_B c i arg2 harg2 arg3 harg3 arg4 harg4 arg5 harg5 arg6 harg6 arg7 harg7 hc0 x0 x1 xo2 xo3 xo4 xo5).2.1 S1024.size (by sl_kernel_rfl) y

/-- What an adding point leaves in accumulator 1's staging buffer: its stores read back. -/
def out0_B_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) : Vec F S1024 .f32 :=
  VO.read (Elt F) (VO.writes (Elt F) VO.junk (kernelRun0_B c i arg2 harg2 arg3 harg3 arg4 harg4 arg5 harg5 arg6 harg6 arg7 harg7 hc0 x0 x1 xo2 xo3 xo4 xo5).2.1)

theorem cover0_B_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) (y : S1024.Idx) :
    ∃ pc ∈ (kernelRun0_B c i arg2 harg2 arg3 harg3 arg4 harg4 arg5 harg5 arg6 harg6 arg7 harg7 hc0 x0 x1 xo2 xo3 xo4 xo5).2.2.1, y ∈ pc.1.set :=
  View.cover_of_tiledL (kernelRun0_B c i arg2 harg2 arg3 harg3 arg4 harg4 arg5 harg5 arg6 harg6 arg7 harg7 hc0 x0 x1 xo2 xo3 xo4 xo5).2.2.1 S1024.size (by sl_kernel_rfl) y

/-- What an adding point leaves in accumulator 2's staging buffer: its stores read back. -/
def out0_B_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) : Vec F S1024 .f32 :=
  VO.read (Elt F) (VO.writes (Elt F) VO.junk (kernelRun0_B c i arg2 harg2 arg3 harg3 arg4 harg4 arg5 harg5 arg6 harg6 arg7 harg7 hc0 x0 x1 xo2 xo3 xo4 xo5).2.2.1)

theorem cover0_B_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) (y : S1024.Idx) :
    ∃ pc ∈ (kernelRun0_B c i arg2 harg2 arg3 harg3 arg4 harg4 arg5 harg5 arg6 harg6 arg7 harg7 hc0 x0 x1 xo2 xo3 xo4 xo5).2.2.2.1, y ∈ pc.1.set :=
  View.cover_of_tiledL (kernelRun0_B c i arg2 harg2 arg3 harg3 arg4 harg4 arg5 harg5 arg6 harg6 arg7 harg7 hc0 x0 x1 xo2 xo3 xo4 xo5).2.2.2.1 S1024.size (by sl_kernel_rfl) y

/-- What an adding point leaves in accumulator 3's staging buffer: its stores read back. -/
def out0_B_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i)
    (x0 : Vec F S1024x128 .f32) (x1 : Vec F S1024x128 .f32) (xo2 xo3 xo4 xo5 : Vec F S1024 .f32) : Vec F S1024 .f32 :=
  VO.read (Elt F) (VO.writes (Elt F) VO.junk (kernelRun0_B c i arg2 harg2 arg3 harg3 arg4 harg4 arg5 harg5 arg6 harg6 arg7 harg7 hc0 x0 x1 xo2 xo3 xo4 xo5).2.2.2.1)

/-- The four accumulators' contents. -/
abbrev Outs (F : FTy → Type) [FloatOps F] : Type := Vec F S1024 .f32 × Vec F S1024 .f32 × Vec F S1024 .f32 × Vec F S1024 .f32

/-- What a resetting point leaves in the four accumulators. -/
def outA (c : Dev nD) (t : Fin cfg0.N) (h0 : t.val % 8 = 0) : Outs F :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t))

/-- What an adding point leaves in the four accumulators, from what the point before left. -/
def outB (c : Dev nD) (t : Fin cfg0.N) (h0 : ¬t.val % 8 = 0) (prev : Outs F) : Outs F :=
  (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) prev.1 prev.2.1 prev.2.2.1 prev.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) prev.1 prev.2.1 prev.2.2.1 prev.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) prev.1 prev.2.1 prev.2.2.1 prev.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) prev.1 prev.2.1 prev.2.2.1 prev.2.2.2)

/-- THE ACCUMULATION: the four accumulators after the body at position `n`. -/
def outsAt0 (c : Dev nD) : (n : ℕ) → n < cfg0.N → Outs F
  | 0, hn => outA m c ⟨0, hn⟩ (Nat.zero_mod _)
  | n + 1, hn =>
    if h0 : (n + 1) % 8 = 0 then outA m c ⟨n + 1, hn⟩ h0
    else outB m c ⟨n + 1, hn⟩ h0 (outsAt0 c n (Nat.lt_of_succ_lt hn))

theorem outsAt0_A (c : Dev nD) (t : Fin cfg0.N) (h0 : t.val % 8 = 0) :
    outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data: the arrays as the region finds them; after the body each input's buffer at its block and the
    accumulators' at `outsAt0`; the two input windows each hold half of the argument array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At an adding point accumulator 0's buffer holds what the body left at the point before: it was not written back between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-- At an adding point accumulator 1's buffer holds what the body left at the point before: it was not written back between. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- At an adding point accumulator 2's buffer holds what the body left at the point before: it was not written back between. -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2.1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-- At an adding point accumulator 3's buffer holds what the body left at the point before: it was not written back between. -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The body at any point: the inputs' buffers hold their blocks; the point either resets the accumulators or adds to what
    the point before left, and the matching run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 64 := lt_of_lt_of_eq t.isLt (show cfg0.N = 64 from N_0)
  by_cases h0 : t.val % 8 = 0
  · rw [outsAt0_A m c t h0]
    unfold outA out0_A_2 out0_A_3 out0_A_4 out0_A_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 (F := F) c _ _ _ _ _ _ _ _ _ _ _ _ _ _ _ _)
    isplitl [H3]
    · unfold owns; iexists _; isplitr
      swap; · iexact H3
      ipureintro; exact View.read_writes_of_cover _ _ _ _ _ (cover0_A_3 (F := F) c _ _ _ _ _ _ _ _ _ _ _ _ _ _ _ _)
    isplitl [H4]
    · unfold owns; iexists _; isplitr
      swap; · iexact H4
      ipureintro; exact View.read_writes_of_cover _ _ _ _ _ (cover0_A_4 (F := F) c _ _ _ _ _ _ _ _ _ _ _ _ _ _ _ _)
    unfold owns; iexists _; isplitr
    swap; · iexact H5
    ipureintro; exact View.read_writes_of_cover _ _ _ _ _ (cover0_A_5 (F := F) c _ _ _ _ _ _ _ _ _ _ _ _ _ _ _ _)
  · rw [outsAt0_B m c t h0]
    simp only [before0_2_B m c t h0, before0_3_B m c t h0, before0_4_B m c t h0, before0_5_B m c t h0]
    unfold outB out0_B_2 out0_B_3 out0_B_4 out0_B_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 (F := F) c _ _ _ _ _ _ _ _ _ _ _ _ _ _ _ _ _ _ _ _)
    isplitl [H3]
    · unfold owns; iexists _; isplitr
      swap; · iexact H3
      ipureintro; exact View.read_writes_of_cover _ _ _ _ _ (cover0_B_3 (F := F) c _ _ _ _ _ _ _ _ _ _ _ _ _ _ _ _ _ _ _ _)
    isplitl [H4]
    · unfold owns; iexists _; isplitr
      swap; · iexact H4
      ipureintro; exact View.read_writes_of_cover _ _ _ _ _ (cover0_B_4 (F := F) c _ _ _ _ _ _ _ _ _ _ _ _ _ _ _ _ _ _ _ _)
    unfold owns; iexists _; isplitr
    swap; · iexact H5
    ipureintro; exact View.read_writes_of_cover _ _ _ _ _ (cover0_B_5 (F := F) c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameB_KernelIdeal.lean ====
/-
  The run of the whole program and its frame. The two input windows read the one argument array, each holding half of
  its share: at the region's entry the buffers behind the arrays, each whole, are dealt to the six windows, and at its
  exit the windows' holdings are again those five buffers whole, the argument array unchanged and each accumulator array
  at what its write-backs left.
-/
import proofs.«138724_j84550726189308_2_alg».proof.Proof.FrameA_KernelIdeal
import proofs.«138724_j84550726189308_2_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer whole at the full share is its two halves. -/
theorem full_halves {ℓ : Loc nD τ sig} (f : Buf (Elt F) ℓ) :
    ((ℓ ↦{fullShare} f : sProp 𝕄) ⊢ iprop((ℓ ↦{fullShare.left} f) ∗ ℓ ↦{fullShare.right} f))
    ∧ (iprop((ℓ ↦{fullShare.left} f) ∗ ℓ ↦{fullShare.right} f) ⊢ (ℓ ↦{fullShare} f : sProp 𝕄)) :=
  ⟨(pointsTo_share (PosShare.mem_left_op_right fullShare)).1, (pointsTo_share (PosShare.mem_left_op_right fullShare)).2⟩

/-- The five distinct buffers behind the six windows' arrays. -/
abbrev arrList : Fin 5 → Ref sig .tc := fun | 0 => main_arg0 | 1 => main_v0_0 | 2 => main_v0_1 | 3 => main_v0_2 | 4 => main_v0_3 | ⟨_ + 5, h⟩ => absurd h (Nat.not_lt.2 (Nat.le_add_left _ _))
theorem arrList_inj : Function.Injective arrList := by decide
theorem image_arr : Finset.univ.image (Pipeline.arrRef spec0) = Finset.univ.map ⟨arrList, arrList_inj⟩ := by decide
theorem bigSep_F5 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ

/-- The windows' holdings at contents read off one valuation of the buffers, written out window by window. -/
theorem arrays_eq (c : Dev nD) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    ((dats m 0 c).arrays Fn : sProp 𝕄) = iprop(
      (((c.tc : Thread nD τ).loc main_arg0) ↦{fullShare.left} W main_arg0) ∗ (((c.tc : Thread nD τ).loc main_arg0) ↦{fullShare.right} W main_arg0)
      ∗ (((c.tc : Thread nD τ).loc main_v0_0) ↦{fullShare} W main_v0_0) ∗ (((c.tc : Thread nD τ).loc main_v0_1) ↦{fullShare} W main_v0_1)
      ∗ (((c.tc : Thread nD τ).loc main_v0_2) ↦{fullShare} W main_v0_2) ∗ (((c.tc : Thread nD τ).loc main_v0_3) ↦{fullShare} W main_v0_3)) := by
  have e : ((dats m 0 c).arrays Fn : sProp 𝕄) = bigSep Finset.univ fun w : Fin 6 =>
      ((((c.tc : Thread nD τ).loc (Pipeline.arrRef spec0 w)) ↦{(dats m 0 c).share w} W (Pipeline.arrRef spec0 w)) : sProp 𝕄) := by
    unfold Dat.arrays
    exact bigSep_congr fun w _ => by rw [(arr_whole0 w).set_eq_univ, hF w]
  rw [e, bigSep_W0]
  rfl

/-- The five buffers behind the arrays, written out. -/
theorem arrBufs_eq (c : Dev nD) (W : (b : Ref sig .tc) → Buf (Elt F) ((c.tc : Thread nD τ).loc b)) :
    (Pipeline.arrBufs spec0 c W : sProp 𝕄) = iprop(
      (((c.tc : Thread nD τ).loc main_arg0) ↦{fullShare} W main_arg0)
      ∗ (((c.tc : Thread nD τ).loc main_v0_0) ↦{fullShare} W main_v0_0) ∗ (((c.tc : Thread nD τ).loc main_v0_1) ↦{fullShare} W main_v0_1)
      ∗ (((c.tc : Thread nD τ).loc main_v0_2) ↦{fullShare} W main_v0_2) ∗ (((c.tc : Thread nD τ).loc main_v0_3) ↦{fullShare} W main_v0_3)) := by
  unfold Pipeline.arrBufs
  rw [image_arr, bigSep_map, bigSep_F5]
  rfl

/-- The buffers behind the arrays, whole, deal out to the windows' holdings … -/
theorem split_arrays (c : Dev nD) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    (Pipeline.arrBufs spec0 c W : sProp 𝕄) ⊢ (dats m 0 c).arrays Fn := by
  rw [arrays_eq m c W Fn hF, arrBufs_eq c W]
  iintro ⟨H0, H1, H2, H3, H4⟩
  ihave H0' := (full_halves (W main_arg0)).1 $$ H0
  icases H0' with ⟨Ha, Hb⟩
  isplitl [Ha]; · iexact Ha
  isplitl [Hb]; · iexact Hb
  isplitl [H1]; · iexact H1
  isplitl [H2]; · iexact H2
  isplitl [H3]; · iexact H3
  iexact H4

/-- … and the windows' holdings are those buffers whole again. -/
theorem join_arrays (c : Dev nD) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    ((dats m 0 c).arrays Fn : sProp 𝕄) ⊢ Pipeline.arrBufs spec0 c W := by
  rw [arrays_eq m c W Fn hF, arrBufs_eq c W]
  iintro ⟨Ha, Hb, H1, H2, H3, H4⟩
  isplitl [Ha Hb]
  · iapply (full_halves (W main_arg0)).2
    isplitl [Ha]; · iexact Ha
    iexact Hb
  isplitl [H1]; · iexact H1
  isplitl [H2]; · iexact H2
  isplitl [H3]; · iexact H3
  iexact H4

/-! ## The buffers' contents at the region's exit -/

/-- An input window's array is never written back: it ends as it began. -/
theorem arrAt_arg (c : Dev nD) (n : ℕ) : (dats m 0 c).arrAt 0 n = V m c main_arg0 ∧ (dats m 0 c).arrAt 1 n = V m c main_arg0 :=
  ⟨((dats m 0 c).arrAt_in 0 rfl n).trans (A_eq m c 0), ((dats m 0 c).arrAt_in 1 rfl n).trans (A_eq m c 1)⟩

/-- The exit contents of every buffer of the core: each window's array at what the proof data computes after the last
    point, every other buffer as at entry. -/
def Wx (c : Dev nD) : Valuation τ sig (Elt F) :=
  Pipeline.withArrays spec0 c (V0 m c) fun w => (dats m 0 c).arrAt w cfg0.N

theorem cast_of_heq {α β : Type} (h : α = β) (a : α) (b : β) (hab : HEq a b) : cast h a = b := by
  subst h; exact eq_of_heq hab

theorem Wx_arr (c : Dev nD) (w : Fin cfg0.W) :
    Wx m c (Proc.devRef .tc (Pipeline.arrRef spec0 w)) = (dats m 0 c).arrAt w cfg0.N := by
  unfold Wx Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  have hr : Pipeline.arrRef spec0 w' = Pipeline.arrRef spec0 w := Proc.devRef_injective _ e
  refine cast_of_heq _ _ _ ?_
  have h01 : HEq ((dats m 0 c).arrAt 0 cfg0.N) ((dats m 0 c).arrAt 1 cfg0.N) :=
    heq_of_eq (((arrAt_arg m c cfg0.N).1).trans ((arrAt_arg m c cfg0.N).2).symm)
  have hcases : ∀ a b : Fin 6, Pipeline.arrRef spec0 a = Pipeline.arrRef spec0 b → a = b ∨ (a = 0 ∧ b = 1) ∨ (a = 1 ∧ b = 0) := by decide
  rcases hcases w' w hr with rfl | ⟨rfl, rfl⟩ | ⟨rfl, rfl⟩
  · exact HEq.rfl
  · exact h01
  · exact h01.symm

theorem Wx_rest (c : Dev nD) (b : Ref sig .tc) (hb : ∀ w, Pipeline.arrRef spec0 w ≠ b) :
    Wx m c (Proc.devRef .tc b) = V0 m c (Proc.devRef .tc b) :=
  Pipeline.withArrays_of_ne spec0 c (V0 m c) _ b hb

/-- The operations after the region write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, Finset.mem_singleton] <;> exact StableHlo.devRef_ne_of_ne (by decide)

/-! ## The run and the frame -/

set_option backward.isDefEq.respectTransparency.types false in
/-- Every weakly fair execution of the program terminates, nothing faulting; each window's array ends at what the proof
    data computes, every other buffer at what the scalar host operations leave of the exit contents. -/
theorem run_main : θ_run defs (onTc (τ := τ) (main (F := F))) (s₀ m ρ)
    (Pipeline.SharedFrame.Post cfgs (dats m) 0 (fun c b => StableHlo.after ([hostOps1] : List (List (HloOp τ sig (Elt F)))).flatten (Wx m c) (Proc.devRef .tc b))) :=
  Pipeline.SharedFrame.θ_run_frame_around_shared cfgs (dats m) (0 : Fin 1) defs₀ Variants.none winFacts₀0 cellOf_inj block_pos0 arr_whole0 stage_whole0 m ρ main
    (hbody := fun c => (body_obligation m c).loose) (howed := fun _ _ => rfl) (V₀ := V0 m) (Wx := Wx m) (opss := [hostOps1])
    (hsub := sfx_sub) (hfresh := sfx_fresh) (hkeep := sfx_keeps) (hmain := hmain m Variants.none)
    (hsplit := fun c => split_arrays m c (fun b => V0 m c (Proc.devRef .tc b)) _ (fun w => A_eq m c w))
    (hjoin₁ := fun c => join_arrays m c (fun b => Wx m c (Proc.devRef .tc b)) _ (fun w => (Wx_arr m c w).symm))
    (hjoin₂ := fun c => split_arrays m c (fun b => Wx m c (Proc.devRef .tc b)) _ (fun w => (Wx_arr m c w).symm))
    (hWx := fun c b hb => Wx_rest m c b hb) (hin := fun c => .rfl) (hout := fun c => .rfl)

/-- The frame: the program runs to the end and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((arrAt_arg m c cfg0.N).1).trans (V_main_arg0 m c))) (run_main m ρ)

end Cert.KernelIdeal.Hand

end
-- ==== Proof.HsicPieces.lean ====
/-
  What each case of the body leaves in each accumulator's staging buffer, in closed form: the accumulator's one
  covering store read back is its payload, a function of the two input blocks and of what the accumulator held
  (the zero vector just stored, at a resetting point; the contents left by the point before, at an adding point).
-/
import proofs.«138724_j84550726189308_2_alg».proof.Proof.FrameA_KernelIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- At a resetting point accumulator 0 is left at the row sums of the point's kernel block added to the zero vector. -/
theorem out0_A_2_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i) (x0 x1 : Vec F S1024x128 .f32) :
    out0_A_2 c i arg2 harg2 arg3 harg3 arg4 harg4 arg5 harg5 arg6 harg6 arg7 harg7 hc0 x0 x1 = k0_pay2 (k0_pay10 x0 x1) (k0_pay6 (F := F)) := by
  have hz1 : (![0] : Fin S1024.rank → ℕ) = fun _ => 0 := funext fun a => by fin_cases a; rfl
  have hz2 : (![0, 0] : Fin S1024x128.rank → ℕ) = fun _ => 0 := funext fun a => by fin_cases a <;> rfl
  unfold out0_A_2
  rw [View.read_writes_eq_canon _ _ _ (cover0_A_2 c i arg2 harg2 arg3 harg3 arg4 harg4 arg5 harg5 arg6 harg6 arg7 harg7 hc0 x0 x1)]
  unfold kernelRun0_A
  dsimp only
  sl_unfold_words
  rw [View.canon_cons_unit_zero (S := S1024) hz1, View.readCov_unit_zero (S := S1024) _ hz1]
  simp only [View.readAt_eq_ld, harg2.read_unread, harg3.read_unread, View.ld_unit_zero (S := S1024x128) hz2]

/-- At a resetting point accumulator 1 is left at the equal-label off-diagonal row sums of the point's kernel block added to the zero vector. -/
theorem out0_A_3_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i) (x0 x1 : Vec F S1024x128 .f32) :
    out0_A_3 c i arg2 harg2 arg3 harg3 arg4 harg4 arg5 harg5 arg6 harg6 arg7 harg7 hc0 x0 x1 = k0_pay3 (k0_pay10 x0 x1) (k0_pay11 i) (k0_pay12 i) (k0_pay13 i) (k0_pay14 i) (k0_pay7 (F := F)) := by
  have hz1 : (![0] : Fin S1024.rank → ℕ) = fun _ => 0 := funext fun a => by fin_cases a; rfl
  have hz2 : (![0, 0] : Fin S1024x128.rank → ℕ) = fun _ => 0 := funext fun a => by fin_cases a <;> rfl
  unfold out0_A_3
  rw [View.read_writes_eq_canon _ _ _ (cover0_A_3 c i arg2 harg2 arg3 harg3 arg4 harg4 arg5 harg5 arg6 harg6 arg7 harg7 hc0 x0 x1)]
  unfold kernelRun0_A
  dsimp only
  sl_unfold_words
  rw [View.canon_cons_unit_zero (S := S1024) hz1, View.readCov_unit_zero (S := S1024) _ hz1]
  simp only [View.readAt_eq_ld, harg2.read_unread, harg3.read_unread, View.ld_unit_zero (S := S1024x128) hz2]

/-- At a resetting point accumulator 2 is left at the off-diagonal row sums of the point's kernel block added to the zero vector. -/
theorem out0_A_4_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i) (x0 x1 : Vec F S1024x128 .f32) :
    out0_A_4 c i arg2 harg2 arg3 harg3 arg4 harg4 arg5 harg5 arg6 harg6 arg7 harg7 hc0 x0 x1 = k0_pay4 (k0_pay10 x0 x1) (k0_pay11 i) (k0_pay12 i) (k0_pay8 (F := F)) := by
  have hz1 : (![0] : Fin S1024.rank → ℕ) = fun _ => 0 := funext fun a => by fin_cases a; rfl
  have hz2 : (![0, 0] : Fin S1024x128.rank → ℕ) = fun _ => 0 := funext fun a => by fin_cases a <;> rfl
  unfold out0_A_4
  rw [View.read_writes_eq_canon _ _ _ (cover0_A_4 c i arg2 harg2 arg3 harg3 arg4 harg4 arg5 harg5 arg6 harg6 arg7 harg7 hc0 x0 x1)]
  unfold kernelRun0_A
  dsimp only
  sl_unfold_words
  rw [View.canon_cons_unit_zero (S := S1024) hz1, View.readCov_unit_zero (S := S1024) _ hz1]
  simp only [View.readAt_eq_ld, harg2.read_unread, harg3.read_unread, View.ld_unit_zero (S := S1024x128) hz2]

/-- At a resetting point accumulator 3 is left at the row sums of squares of the point's kernel block added to the zero vector. -/
theorem out0_A_5_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : cond0_0 i) (x0 x1 : Vec F S1024x128 .f32) :
    out0_A_5 c i arg2 harg2 arg3 harg3 arg4 harg4 arg5 harg5 arg6 harg6 arg7 harg7 hc0 x0 x1 = k0_pay5 (k0_pay10 x0 x1) (k0_pay9 (F := F)) := by
  have hz1 : (![0] : Fin S1024.rank → ℕ) = fun _ => 0 := funext fun a => by fin_cases a; rfl
  have hz2 : (![0, 0] : Fin S1024x128.rank → ℕ) = fun _ => 0 := funext fun a => by fin_cases a <;> rfl
  unfold out0_A_5
  rw [View.read_writes_eq_canon _ _ _ (cover0_A_5 c i arg2 harg2 arg3 harg3 arg4 harg4 arg5 harg5 arg6 harg6 arg7 harg7 hc0 x0 x1)]
  unfold kernelRun0_A
  dsimp only
  sl_unfold_words
  rw [View.canon_cons_unit_zero (S := S1024) hz1, View.readCov_unit_zero (S := S1024) _ hz1]
  simp only [View.readAt_eq_ld, harg2.read_unread, harg3.read_unread, View.ld_unit_zero (S := S1024x128) hz2]

/-- At an adding point accumulator 0 is left at the row sums of the point's kernel block added to what it held. -/
theorem out0_B_2_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i) (x0 x1 : Vec F S1024x128 .f32)
    (xo2 xo3 xo4 xo5 : Vec F S1024 .f32) :
    out0_B_2 c i arg2 harg2 arg3 harg3 arg4 harg4 arg5 harg5 arg6 harg6 arg7 harg7 hc0 x0 x1 xo2 xo3 xo4 xo5 = k0_pay2 (k0_pay10 x0 x1) xo2 := by
  have hz1 : (![0] : Fin S1024.rank → ℕ) = fun _ => 0 := funext fun a => by fin_cases a; rfl
  have hz2 : (![0, 0] : Fin S1024x128.rank → ℕ) = fun _ => 0 := funext fun a => by fin_cases a <;> rfl
  unfold out0_B_2
  rw [View.read_writes_eq_canon _ _ _ (cover0_B_2 c i arg2 harg2 arg3 harg3 arg4 harg4 arg5 harg5 arg6 harg6 arg7 harg7 hc0 x0 x1 xo2 xo3 xo4 xo5)]
  unfold kernelRun0_B
  dsimp only
  sl_unfold_words
  rw [View.canon_cons_unit_zero (S := S1024) hz1]
  simp only [View.readAt_eq_ld, harg2.read_unread, harg3.read_unread, harg4.read_unread, harg5.read_unread,
    harg6.read_unread, harg7.read_unread, View.ld_unit_zero (S := S1024x128) hz2, View.ld_unit_zero (S := S1024) hz1]

/-- At an adding point accumulator 1 is left at the equal-label off-diagonal row sums of the point's kernel block added to what it held. -/
theorem out0_B_3_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i) (x0 x1 : Vec F S1024x128 .f32)
    (xo2 xo3 xo4 xo5 : Vec F S1024 .f32) :
    out0_B_3 c i arg2 harg2 arg3 harg3 arg4 harg4 arg5 harg5 arg6 harg6 arg7 harg7 hc0 x0 x1 xo2 xo3 xo4 xo5 = k0_pay3 (k0_pay10 x0 x1) (k0_pay11 i) (k0_pay12 i) (k0_pay13 i) (k0_pay14 i) xo3 := by
  have hz1 : (![0] : Fin S1024.rank → ℕ) = fun _ => 0 := funext fun a => by fin_cases a; rfl
  have hz2 : (![0, 0] : Fin S1024x128.rank → ℕ) = fun _ => 0 := funext fun a => by fin_cases a <;> rfl
  unfold out0_B_3
  rw [View.read_writes_eq_canon _ _ _ (cover0_B_3 c i arg2 harg2 arg3 harg3 arg4 harg4 arg5 harg5 arg6 harg6 arg7 harg7 hc0 x0 x1 xo2 xo3 xo4 xo5)]
  unfold kernelRun0_B
  dsimp only
  sl_unfold_words
  rw [View.canon_cons_unit_zero (S := S1024) hz1]
  simp only [View.readAt_eq_ld, harg2.read_unread, harg3.read_unread, harg4.read_unread, harg5.read_unread,
    harg6.read_unread, harg7.read_unread, View.ld_unit_zero (S := S1024x128) hz2, View.ld_unit_zero (S := S1024) hz1]

/-- At an adding point accumulator 2 is left at the off-diagonal row sums of the point's kernel block added to what it held. -/
theorem out0_B_4_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i) (x0 x1 : Vec F S1024x128 .f32)
    (xo2 xo3 xo4 xo5 : Vec F S1024 .f32) :
    out0_B_4 c i arg2 harg2 arg3 harg3 arg4 harg4 arg5 harg5 arg6 harg6 arg7 harg7 hc0 x0 x1 xo2 xo3 xo4 xo5 = k0_pay4 (k0_pay10 x0 x1) (k0_pay11 i) (k0_pay12 i) xo4 := by
  have hz1 : (![0] : Fin S1024.rank → ℕ) = fun _ => 0 := funext fun a => by fin_cases a; rfl
  have hz2 : (![0, 0] : Fin S1024x128.rank → ℕ) = fun _ => 0 := funext fun a => by fin_cases a <;> rfl
  unfold out0_B_4
  rw [View.read_writes_eq_canon _ _ _ (cover0_B_4 c i arg2 harg2 arg3 harg3 arg4 harg4 arg5 harg5 arg6 harg6 arg7 harg7 hc0 x0 x1 xo2 xo3 xo4 xo5)]
  unfold kernelRun0_B
  dsimp only
  sl_unfold_words
  rw [View.canon_cons_unit_zero (S := S1024) hz1]
  simp only [View.readAt_eq_ld, harg2.read_unread, harg3.read_unread, harg4.read_unread, harg5.read_unread,
    harg6.read_unread, harg7.read_unread, View.ld_unit_zero (S := S1024x128) hz2, View.ld_unit_zero (S := S1024) hz1]

/-- At an adding point accumulator 3 is left at the row sums of squares of the point's kernel block added to what it held. -/
theorem out0_B_5_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (hc0 : ¬cond0_0 i) (x0 x1 : Vec F S1024x128 .f32)
    (xo2 xo3 xo4 xo5 : Vec F S1024 .f32) :
    out0_B_5 c i arg2 harg2 arg3 harg3 arg4 harg4 arg5 harg5 arg6 harg6 arg7 harg7 hc0 x0 x1 xo2 xo3 xo4 xo5 = k0_pay5 (k0_pay10 x0 x1) xo5 := by
  have hz1 : (![0] : Fin S1024.rank → ℕ) = fun _ => 0 := funext fun a => by fin_cases a; rfl
  have hz2 : (![0, 0] : Fin S1024x128.rank → ℕ) = fun _ => 0 := funext fun a => by fin_cases a <;> rfl
  unfold out0_B_5
  rw [View.read_writes_eq_canon _ _ _ (cover0_B_5 c i arg2 harg2 arg3 harg3 arg4 harg4 arg5 harg5 arg6 harg6 arg7 harg7 hc0 x0 x1 xo2 xo3 xo4 xo5)]
  unfold kernelRun0_B
  dsimp only
  sl_unfold_words
  rw [View.canon_cons_unit_zero (S := S1024) hz1]
  simp only [View.readAt_eq_ld, harg2.read_unread, harg3.read_unread, harg4.read_unread, harg5.read_unread,
    harg6.read_unread, harg7.read_unread, View.ld_unit_zero (S := S1024x128) hz2, View.ld_unit_zero (S := S1024) hz1]

end Cert.KernelIdeal.Hand

end
-- ==== Proof.HsicSpec.lean ====
/-
  The mathematics both programs compute, over the reals.

  From a matrix `X` of 8192 rows of 128 reals, the Gaussian kernel matrix
  `K i j = exp (-(max (|X i|² + |X j|² - 2 ⟨X i, X j⟩) 0) / 2)`.  One program keeps four row statistics of `K` (the row
  sum, the row sum over the off-diagonal entries with equal labels `i mod 4096 = j mod 4096`, the row sum over the
  off-diagonal entries, the row sum of squares) and finishes with a scalar formula in their totals (`tailR`); the other
  forms the doubly centred matrix `K i j - colmean j - rowmean i + mean` and the masked sums entry by entry (`refK`).
  For a symmetric `K` the two scalars are equal (Proof/HsicAlgebra.lean).
-/
import Idealize.ShloMosaic.PureOps.Ideal

noncomputable section

open scoped BigOperators

namespace Cert.Hsic

/-- The squared norm of row `i`. -/
def sqn (X : Fin 8192 → Fin 128 → ℝ) (i : Fin 8192) : ℝ := ∑ d, X i d * X i d

/-- The inner product of rows `i` and `j`. -/
def gram (X : Fin 8192 → Fin 128 → ℝ) (i j : Fin 8192) : ℝ := ∑ d, X i d * X j d

/-- The Gaussian kernel of rows `i` and `j` (bandwidth 1), the squared distance by the expansion
    `|x|² + |y|² - 2⟨x, y⟩` clamped at `0`. -/
def gk (X : Fin 8192 → Fin 128 → ℝ) (i j : Fin 8192) : ℝ :=
  Real.exp (-(max (sqn X i + sqn X j - 2 * gram X i j) 0) / 2)

theorem gram_comm (X : Fin 8192 → Fin 128 → ℝ) (i j : Fin 8192) : gram X i j = gram X j i := by
  unfold gram; exact Finset.sum_congr rfl fun d _ => mul_comm _ _

/-- The kernel matrix is symmetric. -/
theorem gk_symm (X : Fin 8192 → Fin 128 → ℝ) (i j : Fin 8192) : gk X i j = gk X j i := by
  unfold gk; rw [gram_comm X i j, add_comm (sqn X i)]

/-- Row `p` of the `b`-th block of 1024 consecutive rows. -/
def row (b : Fin 8) (p : Fin 1024) : Fin 8192 := ⟨1024 * b.val + p.val, by have := b.isLt; have := p.isLt; omega⟩

theorem row_val (b : Fin 8) (p : Fin 1024) : (row b p).val = 1024 * b.val + p.val := rfl

/-! ## The four row statistics of a matrix -/

/-- The sum of row `i`. -/
def rowSum (K : Fin 8192 → Fin 8192 → ℝ) (i : Fin 8192) : ℝ := ∑ j, K i j

/-- The sum of row `i` over the off-diagonal entries whose column has the row's label (`i mod 4096 = j mod 4096`). -/
def rowPos (K : Fin 8192 → Fin 8192 → ℝ) (i : Fin 8192) : ℝ :=
  ∑ j, if i.val % 4096 = j.val % 4096 then (if i.val ≠ j.val then K i j else 0) else 0

/-- The sum of row `i` over the off-diagonal entries. -/
def rowOff (K : Fin 8192 → Fin 8192 → ℝ) (i : Fin 8192) : ℝ := ∑ j, if i.val ≠ j.val then K i j else 0

/-- The sum of the squares of row `i`. -/
def rowSq (K : Fin 8192 → Fin 8192 → ℝ) (i : Fin 8192) : ℝ := ∑ j, K i j * K i j

/-! ## The two scalar formulas -/

/-- The scalar one program computes from the four vectors of row statistics `a` (sums), `b` (equal-label off-diagonal
    sums), `c` (off-diagonal sums), `d` (sums of squares); `sc` is the label weight both programs multiply by. -/
def tailR (sc : ℝ) (a b c d : Fin 8192 → ℝ) : ℝ :=
  -(sc * (((∑ i, b i) / 8192 - ((∑ i, c i) - (∑ i, b i)) / 67108864) - 1))
    + 3 * Real.sqrt (max ((((∑ i, d i) - (1 / 4096) * (∑ i, a i * a i))
        + 67108864 * (((∑ i, a i) / 67108864) * ((∑ i, a i) / 67108864)))) 0 / 67108864)

/-- The `0/1` indicator of equal labels. -/
def labEq (i j : Fin 8192) : ℝ := if i.val % 4096 = j.val % 4096 then 1 else 0

/-- The `0/1` indicator of the diagonal. -/
def diag (i j : Fin 8192) : ℝ := if i.val = j.val then 1 else 0

/-- The doubly centred entry: `K i j` less the mean of column `j`, less the mean of row `i`, plus the mean of all entries. -/
def centred (K : Fin 8192 → Fin 8192 → ℝ) (i j : Fin 8192) : ℝ :=
  ((K i j - (∑ i', K i' j) / 8192) - (∑ j', K i j') / 8192) + (∑ i', ∑ j', K i' j') / 67108864

/-- The scalar the other program computes from the matrix entry by entry. -/
def refK (sc : ℝ) (K : Fin 8192 → Fin 8192 → ℝ) : ℝ :=
  -(sc * (((∑ i, ∑ j, (K i j * labEq i j) * (1 - diag i j)) / 8192
        - (∑ i, ∑ j, (K i j * (1 - labEq i j)) * (1 - diag i j)) / 67108864) - 1))
    + 3 * Real.sqrt ((∑ i, ∑ j, centred K i j * centred K i j) / 67108864)

end Cert.Hsic

end
-- ==== Proof.HsicBlkRead.lean ====
/-
  Where the blocks of the two input windows sit in the argument array: at grid point `t` the first window's block is
  the rows `1024 * (t / 8) + p` and the second window's block the rows `1024 * (t mod 8) + q`, all 128 columns; and
  the grid's coordinates at point `t` are `t / 8` and `t mod 8`.
-/
import proofs.«138724_j84550726189308_2_alg».proof.Proof.RunsKernelIdeal
import proofs.«138724_j84550726189308_2_alg».proof.Proof.HsicSpec
import Idealize.ShloMosaic.Lib.ValueIdx

set_option maxRecDepth 16384

noncomputable section

namespace Cert.KernelIdeal.Hand

open Cert.KernelIdeal Cert.KernelIdeal.Gen Cert.Hsic
open Idealize.ShloMosaic Idealize.ShloMosaic.ValueIdx Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The first grid coordinate of point `t` is `t / 8`. -/
theorem coords_fst : ∀ t : Fin cfg0.N, ((grid0.coords t) 0).val = t.val / 8 :=
  (by decide +kernel : ∀ t : Fin grid0.N, ((grid0.coords t) 0).val = t.val / 8)

/-- The second grid coordinate of point `t` is `t mod 8`. -/
theorem coords_snd : ∀ t : Fin cfg0.N, ((grid0.coords t) 1).val = t.val % 8 :=
  (by decide +kernel : ∀ t : Fin grid0.N, ((grid0.coords t) 1).val = t.val % 8)

/-- The block indices of the first input window: `t / 8` along the rows, `0` along the columns. -/
theorem idx_win0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

/-- The block indices of the second input window: `t mod 8` along the rows, `0` along the columns. -/
theorem idx_win1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- The first window's block at point `t` is the rows of the `t / 8`-th block of 1024 rows. -/
theorem iblk0_apply (c : Dev nD) (t : Fin cfg0.N) (bi : Fin 8) (hb : bi.val = t.val / 8) (p : Fin 1024) (d : Fin 128) :
    iblk m c 0 t (ix2 p d) = V m c main_arg0 (ix2 (row bi p) d) := by
  obtain ⟨e0, e1⟩ := idx_win0 t
  show V m c main_arg0 (((cfg0.win 0).blk t).view.emb (ix2 p d)) = V m c main_arg0 (ix2 (row bi p) d)
  refine congrArg (V m c main_arg0) (funext fun a => Fin.ext ?_)
  match a with
  | ⟨0, _⟩ => show win0_0.index t (0 : Fin 2) * 1024 + 1 * p.val = 1024 * bi.val + p.val; omega
  | ⟨1, _⟩ => show win0_0.index t (1 : Fin 2) * 128 + 1 * d.val = d.val; omega

/-- The second window's block at point `t` is the rows of the `t mod 8`-th block of 1024 rows. -/
theorem iblk1_apply (c : Dev nD) (t : Fin cfg0.N) (bj : Fin 8) (hb : bj.val = t.val % 8) (q : Fin 1024) (d : Fin 128) :
    iblk m c 1 t (ix2 q d) = V m c main_arg0 (ix2 (row bj q) d) := by
  obtain ⟨e0, e1⟩ := idx_win1 t
  show V m c main_arg0 (((cfg0.win 1).blk t).view.emb (ix2 q d)) = V m c main_arg0 (ix2 (row bj q) d)
  refine congrArg (V m c main_arg0) (funext fun a => Fin.ext ?_)
  match a with
  | ⟨0, _⟩ => show win0_1.index t (0 : Fin 2) * 1024 + 1 * q.val = 1024 * bj.val + q.val; omega
  | ⟨1, _⟩ => show win0_1.index t (1 : Fin 2) * 128 + 1 * d.val = d.val; omega

end Cert.KernelIdeal.Hand

end
-- ==== Proof.HsicConsts.lean ====
/-
  The floating-point constants the two programs spell, as the extended reals their bit patterns denote.
-/
import Idealize.ShloMosaic.PureOps.Ideal

noncomputable section

namespace Cert.Hsic.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `2.0` denotes `2`. -/
theorem ofBits_two : Ideal.ofBits .f32 0x40000000#32 = ((2 : ℝ) : EReal) := by
  simp [Ideal.ofBits, Ideal.ieee, -EReal.coe_mul]; norm_num

/-- The pattern of `3.0` denotes `3`. -/
theorem ofBits_three : Ideal.ofBits .f32 0x40400000#32 = ((3 : ℝ) : EReal) := by
  simp [Ideal.ofBits, Ideal.ieee, -EReal.coe_mul]; norm_num

/-- The pattern of `-0.5` denotes `-(1/2)`. -/
theorem ofBits_neg_half : Ideal.ofBits .f32 0xBF000000#32 = ((-(1/2) : ℝ) : EReal) := by
  simp [Ideal.ofBits, Ideal.ieee, -EReal.coe_mul]; norm_num

/-- The pattern of `8192.0` denotes `8192`. -/
theorem ofBits_8192 : Ideal.ofBits .f32 0x46000000#32 = ((8192 : ℝ) : EReal) := by
  simp [Ideal.ofBits, Ideal.ieee, -EReal.coe_mul]; norm_num

/-- The pattern of `2^26` denotes `67108864`. -/
theorem ofBits_2p26 : Ideal.ofBits .f32 0x4C800000#32 = ((67108864 : ℝ) : EReal) := by
  simp [Ideal.ofBits, Ideal.ieee, -EReal.coe_mul]; norm_num

/-- The pattern of `2^-12` denotes `1/4096`. -/
theorem ofBits_inv4096 : Ideal.ofBits .f32 0x39800000#32 = ((1/4096 : ℝ) : EReal) := by
  simp [Ideal.ofBits, Ideal.ieee, -EReal.coe_mul]; norm_num

/-- The label weight: `1 + 2049 / 2^23`. -/
def labelWeight : ℝ := 8390657 / 8388608

/-- The pattern `0x3F800801` denotes the label weight. -/
theorem ofBits_labelWeight : Ideal.ofBits .f32 0x3F800801#32 = ((labelWeight : ℝ) : EReal) := by
  simp [Ideal.ofBits, Ideal.ieee, labelWeight, -EReal.coe_mul]; norm_num

end Cert.Hsic.Consts

end
-- ==== Proof.HsicBlock.lean ====
/-
  The kernel's tile of the Gaussian kernel matrix and its running row statistics, read entry by entry over the reals.

  From two blocks of 1024 rows of 128 reals the kernel forms the 1024 × 1024 tile
  exp (max (|x_p|² + |y_q|² - 2 ⟨x_p, y_q⟩) 0 * (-1/2)): the squared norms as lane sums of the squares, laid along the
  rows and along the columns of the tile, the inner products as the product of one block with the transpose of the
  other. At the ideal values each step is the operation on the reals, so for blocks of real rows the tile at (p, q)
  is the Gaussian kernel of row p of the first block and row q of the second ('gauss_block'). The running row sums and
  row sums of squares add a tile's lane sums to an accumulator ('sum_step', 'sq_step'); they start from the zero vector
  ('zero_vec'); and a sum over the rows taken block by block is the sum over all the rows ('sum_blocks').
-/
import proofs.«138724_j84550726189308_2_alg».proof.Proof.Gen.KernelIdeal.Skeleton
import proofs.«138724_j84550726189308_2_alg».proof.Proof.HsicSpec
import proofs.«138724_j84550726189308_2_alg».proof.Proof.HsicConsts
import Idealize.ShloMosaic.Lib.ValueLayout
import Idealize.ShloMosaic.PureOps.Ideal.Laws

noncomputable section

open scoped BigOperators

namespace Cert.Hsic.Pay

open Idealize.ShloMosaic Idealize.ShloMosaic.ValueIdx Cert.KernelIdeal Cert.KernelIdeal.Gen

namespace Block

/-- A finite sum of coerced reals is the coerced sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The lane sum of a block of 1024 rows of 128 at row p. -/
theorem lane_sum128 (v : FVec Ideal S1024x128 .f32) (p : Fin 1024) :
    multiReduction (F := Ideal) .add [1] S1024 v 0x00000000#32 Gen.reduces_S1024x128_S1024 (.inl rfl) rfl (ix1 p)
      = ∑ k : Fin 128, v (ix2 p k) := by
  refine (Ideal.multiReduction_add_single v 0x00000000#32 Gen.reduces_S1024x128_S1024 (.inl rfl) rfl (ix1 p)).trans ?_
  show ∑ k : Fin 128, v (Gen.reduces_S1024x128_S1024.lift (ix1 p) k) = _
  refine Finset.sum_congr rfl fun k _ => congrArg v (funext fun a => Fin.ext ?_)
  match a with
  | ⟨0, _⟩ => rfl
  | ⟨1, _⟩ => rfl

/-- The lane sum of a tile of 1024 rows of 1024 at row p. -/
theorem lane_sum1024 (v : FVec Ideal S1024x1024 .f32) (p : Fin 1024) :
    multiReduction (F := Ideal) .add [1] S1024 v 0x00000000#32 Gen.reduces_S1024x1024_S1024 (.inl rfl) rfl (ix1 p)
      = ∑ k : Fin 1024, v (ix2 p k) := by
  refine (Ideal.multiReduction_add_single v 0x00000000#32 Gen.reduces_S1024x1024_S1024 (.inl rfl) rfl (ix1 p)).trans ?_
  show ∑ k : Fin 1024, v (Gen.reduces_S1024x1024_S1024.lift (ix1 p) k) = _
  refine Finset.sum_congr rfl fun k _ => congrArg v (funext fun a => Fin.ext ?_)
  match a with
  | ⟨0, _⟩ => rfl
  | ⟨1, _⟩ => rfl

/-- A vector of 1024 entries viewed as a column reads its entry. -/
theorem column_apply {α : Type} (v : S1024.Idx → α) (p : Fin 1024) (u : Fin 1) :
    shapeCast S1024x1 v Gen.shapeCasts_S1024_S1024x1 (ix2 p u) = v (ix1 p) :=
  shapeCast_apply v Gen.shapeCasts_S1024_S1024x1 _ _ (by
    have hu : u.val = 0 := by omega
    rw [Shape.rowMajor_val_two, Shape.rowMajor_val_one]
    show p.val = p.val * 1 + u.val
    rw [hu, Nat.mul_one, Nat.add_zero])

/-- A column laid along every column of the tile. -/
theorem column_bcast_apply {α : Type} (v : S1024x1.Idx → α) (p q : Fin 1024) :
    broadcastTo S1024x1024 v Gen.broadcasts_S1024x1_S1024x1024 (ix2 p q) = v (ix2 p (0 : Fin 1)) := by
  refine broadcastTo_apply v Gen.broadcasts_S1024x1_S1024x1024 (ix2 p q) (ix2 p (0 : Fin 1)) fun ax => ?_
  match ax with
  | ⟨0, _⟩ =>
    show p.val = if (1024 : Nat) = 1 then 0 else p.val
    rw [if_neg (by decide)]
  | ⟨1, _⟩ =>
    show 0 = if (1 : Nat) = 1 then 0 else q.val
    rw [if_pos rfl]

/-- The column of 1024 entries, transposed, is a row. -/
theorem row_apply {α : Type} (v : S1024x1.Idx → α) (u : Fin 1) (q : Fin 1024) :
    transpose S1x1024 [1, 0] v Gen.transposes_S1024x1_p1_0_S1x1024 (ix2 u q) = v (ix2 q u) :=
  transpose_ix2_apply v Gen.transposes_S1024x1_p1_0_S1x1024 u q

/-- A row laid along every row of the tile. -/
theorem row_bcast_apply {α : Type} (v : S1x1024.Idx → α) (p q : Fin 1024) :
    broadcastTo S1024x1024 v Gen.broadcasts_S1x1024_S1024x1024 (ix2 p q) = v (ix2 (0 : Fin 1) q) :=
  broadcastTo_1b_ab_apply v Gen.broadcasts_S1x1024_S1024x1024 p q

/-- A block of 1024 rows of 128, transposed. -/
theorem block_transpose_apply {α : Type} (v : S1024x128.Idx → α) (k : Fin 128) (q : Fin 1024) :
    transpose S128x1024 [1, 0] v Gen.transposes_S1024x128_p1_0_S128x1024 (ix2 k q) = v (ix2 q k) :=
  transpose_ix2_apply v Gen.transposes_S1024x128_p1_0_S128x1024 k q

/-- The left operand's row coordinate is the tile's row. -/
theorem lhs_0 (i : S1024x1024.Idx) (c : dot_S1024x128_S128x1024_S1024x1024_1_0_0_1_n_n.contr.Idx) : (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- The left operand's column coordinate is the summation index. -/
theorem lhs_1 (i : S1024x1024.Idx) (c : dot_S1024x128_S128x1024_S1024x1024_1_0_0_1_n_n.contr.Idx) : (dot_S1024x128_S128x1024_S1024x1024_1_0_0_1_n_n.lhsIdx i c 1).val = (c ⟨0, by decide⟩).val :=
  dot_S1024x128_S128x1024_S1024x1024_1_0_0_1_n_n.lhsIdx_val_of_single rfl i c
/-- The right operand's row coordinate is the summation index. -/
theorem rhs_0 (i : S1024x1024.Idx) (c : dot_S1024x128_S128x1024_S1024x1024_1_0_0_1_n_n.contr.Idx) : (dot_S1024x128_S128x1024_S1024x1024_1_0_0_1_n_n.rhsIdx i c 0).val = (c ⟨0, by decide⟩).val :=
  dot_S1024x128_S128x1024_S1024x1024_1_0_0_1_n_n.rhsIdx_val_of_single rfl i c
/-- The right operand's column coordinate is the tile's column. -/
theorem rhs_1 (i : S1024x1024.Idx) (c : dot_S1024x128_S128x1024_S1024x1024_1_0_0_1_n_n.contr.Idx) : (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The matrix product of a block with a transposed block, accumulated into zero, at (p, q): the sum over the 128 columns. -/
theorem gram_tile (l : FVec Ideal S1024x128 .bf16) (r : FVec Ideal S128x1024 .bf16) (p q : Fin 1024) :
    matmul (F := Ideal) dot_S1024x128_S128x1024_S1024x1024_1_0_0_1_n_n none l r (constant (F := Ideal) S1024x1024 .f32 0x00000000#32) (ix2 p q)
      = ∑ k : Fin 128, l (ix2 p k) * r (ix2 k q) := by
  show FloatOps.matmul dot_S1024x128_S128x1024_S1024x1024_1_0_0_1_n_n none l r (constant (F := Ideal) S1024x1024 .f32 0x00000000#32) (ix2 p q) = _
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k := funext fun a => Fin.ext (by
    match a with
    | ⟨0, _⟩ => exact lhs_0 _ _
    | ⟨1, _⟩ => exact (lhs_1 _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The exponential of a tile at an index. -/
theorem exp_apply {s : Shape} {φ : FTy} (a : FVec Ideal s φ) (i : s.Idx) : exp a i = Ideal.exp (a i) := rfl

/-- The larger of two coerced reals is the coerced larger. -/
theorem coe_max (a b : ℝ) : max ((a : ℝ) : EReal) ((b : ℝ) : EReal) = ((max a b : ℝ) : EReal) :=
  (EReal.coe_strictMono.monotone.map_max).symm

/-- The squared norm of a row of a block of real rows, as the lane sum of the squares. -/
theorem sqn_block (X : Fin 8192 → Fin 128 → ℝ) (b : Fin 8) (x : Vec Ideal S1024x128 .f32)
    (h : ∀ (p : Fin 1024) (d : Fin 128), x (ix2 p d) = ((X (row b p) d : ℝ) : EReal)) (p : Fin 1024) :
    (∑ k : Fin 128, (mulf x x : FVec Ideal S1024x128 .f32) (ix2 p k)) = ((sqn X (row b p) : ℝ) : EReal) := by
  unfold sqn
  rw [← coe_sum]
  refine Finset.sum_congr rfl fun k _ => ?_
  rw [mulf_apply, h, ← EReal.coe_mul]

/-- The inner product of a row of one block with a row of another, as the sum of the products of the entries. -/
theorem gram_block (X : Fin 8192 → Fin 128 → ℝ) (bi bj : Fin 8) (x0 x1 : Vec Ideal S1024x128 .f32)
    (h0 : ∀ (p : Fin 1024) (d : Fin 128), x0 (ix2 p d) = ((X (row bi p) d : ℝ) : EReal))
    (h1 : ∀ (q : Fin 1024) (d : Fin 128), x1 (ix2 q d) = ((X (row bj q) d : ℝ) : EReal))
    (p q : Fin 1024) :
    (∑ k : Fin 128, (truncf .bf16 x0 Gen.bitsLt_bf16_f32 : FVec Ideal S1024x128 .bf16) (ix2 p k)
        * transpose S128x1024 [1, 0] (truncf .bf16 x1 Gen.bitsLt_bf16_f32 : FVec Ideal S1024x128 .bf16)
            Gen.transposes_S1024x128_p1_0_S128x1024 (ix2 k q))
      = ((gram X (row bi p) (row bj q) : ℝ) : EReal) := by
  unfold gram
  rw [← coe_sum]
  refine Finset.sum_congr rfl fun k _ => ?_
  rw [block_transpose_apply, truncf_apply, truncf_apply, h0, h1, ← EReal.coe_mul]

/-- The rows of the eight blocks are all the rows, each once. -/
def rowEquiv : Fin 8 × Fin 1024 ≃ Fin 8192 where
  toFun x := row x.1 x.2
  invFun j := (⟨j.val / 1024, by have := j.isLt; omega⟩, ⟨j.val % 1024, by omega⟩)
  left_inv x := by
    obtain ⟨b, q⟩ := x
    refine Prod.ext (Fin.ext ?_) (Fin.ext ?_)
    · show (1024 * b.val + q.val) / 1024 = b.val
      have := q.isLt; omega
    · show (1024 * b.val + q.val) % 1024 = q.val
      have := q.isLt; omega
  right_inv j := by
    refine Fin.ext ?_
    show 1024 * (j.val / 1024) + j.val % 1024 = j.val
    omega

end Block

open Block

/-- The Gaussian tile of two blocks of real rows is the Gaussian kernel of the rows. -/
theorem gauss_block (X : Fin 8192 → Fin 128 → ℝ) (bi bj : Fin 8) (x0 x1 : Vec Ideal S1024x128 .f32)
    (h0 : ∀ (p : Fin 1024) (d : Fin 128), x0 (ix2 p d) = ((X (row bi p) d : ℝ) : EReal))
    (h1 : ∀ (q : Fin 1024) (d : Fin 128), x1 (ix2 q d) = ((X (row bj q) d : ℝ) : EReal))
    (p q : Fin 1024) :
    k0_pay10 (F := Ideal) x0 x1 (ix2 p q) = ((gk X (row bi p) (row bj q) : ℝ) : EReal) := by
  unfold k0_pay10
  dsimp only
  simp only [exp_apply, mulf_apply, maximumf_apply, subf_apply, addf_apply, broadcast_apply]
  rw [column_bcast_apply, column_apply, lane_sum128, row_bcast_apply, row_apply, column_apply, lane_sum128, gram_tile]
  rw [sqn_block X bi x0 h0 p, sqn_block X bj x1 h1 q, gram_block X bi bj x0 x1 h0 h1 p q]
  simp only [Ideal.ofBits_def]
  rw [Consts.ofBits_two, Consts.ofBits_zero, Consts.ofBits_neg_half]
  rw [← EReal.coe_add, ← EReal.coe_mul, ← EReal.coe_sub, ← EReal.coe_zero, coe_max, ← EReal.coe_mul]
  show ((Real.exp _ : ℝ) : EReal) = _
  unfold gk
  exact congrArg _ (congrArg Real.exp (by ring))

/-- The zero vector. -/
theorem zero_vec (p : Fin 1024) : k0_pay6 (F := Ideal) (ix1 p) = ((0 : ℝ) : EReal) := by
  unfold k0_pay6
  rw [broadcast_apply, Ideal.ofBits_def, Consts.ofBits_zero, EReal.coe_zero]

/-- The zero vector (the second statistic's start). -/
theorem zero_vec7 (p : Fin 1024) : k0_pay7 (F := Ideal) (ix1 p) = ((0 : ℝ) : EReal) := by
  unfold k0_pay7
  rw [broadcast_apply, Ideal.ofBits_def, Consts.ofBits_zero, EReal.coe_zero]

/-- The zero vector (the third statistic's start). -/
theorem zero_vec8 (p : Fin 1024) : k0_pay8 (F := Ideal) (ix1 p) = ((0 : ℝ) : EReal) := by
  unfold k0_pay8
  rw [broadcast_apply, Ideal.ofBits_def, Consts.ofBits_zero, EReal.coe_zero]

/-- The zero vector (the fourth statistic's start). -/
theorem zero_vec9 (p : Fin 1024) : k0_pay9 (F := Ideal) (ix1 p) = ((0 : ℝ) : EReal) := by
  unfold k0_pay9
  rw [broadcast_apply, Ideal.ofBits_def, Consts.ofBits_zero, EReal.coe_zero]

/-- One step of the running row sums: the accumulator plus the lane sum of the tile. -/
theorem sum_step (G : Vec Ideal S1024x1024 .f32) (g : Fin 1024 → Fin 1024 → ℝ)
    (hG : ∀ p q, G (ix2 p q) = ((g p q : ℝ) : EReal))
    (acc : Vec Ideal S1024 .f32) (a : Fin 1024 → ℝ) (hacc : ∀ p, acc (ix1 p) = ((a p : ℝ) : EReal)) (p : Fin 1024) :
    k0_pay2 (F := Ideal) G acc (ix1 p) = ((a p + ∑ q : Fin 1024, g p q : ℝ) : EReal) := by
  unfold k0_pay2
  dsimp only
  rw [addf_apply, shapeCast_self, hacc, lane_sum1024, EReal.coe_add, ← Block.coe_sum]
  exact congrArg _ (Finset.sum_congr rfl fun q _ => hG p q)

/-- One step of the running row sums of squares: the accumulator plus the lane sum of the squared tile. -/
theorem sq_step (G : Vec Ideal S1024x1024 .f32) (g : Fin 1024 → Fin 1024 → ℝ)
    (hG : ∀ p q, G (ix2 p q) = ((g p q : ℝ) : EReal))
    (acc : Vec Ideal S1024 .f32) (a : Fin 1024 → ℝ) (hacc : ∀ p, acc (ix1 p) = ((a p : ℝ) : EReal)) (p : Fin 1024) :
    k0_pay5 (F := Ideal) G acc (ix1 p) = ((a p + ∑ q : Fin 1024, g p q * g p q : ℝ) : EReal) := by
  unfold k0_pay5
  dsimp only
  rw [addf_apply, shapeCast_self, hacc, lane_sum1024, EReal.coe_add, ← Block.coe_sum]
  refine congrArg _ (Finset.sum_congr rfl fun q _ => ?_)
  rw [mulf_apply, hG, ← EReal.coe_mul]

/-- A sum over the rows block by block is the sum over all the rows. -/
theorem sum_blocks {M : Type} [AddCommMonoid M] (f : Fin 8192 → M) :
    (∑ b : Fin 8, ∑ q : Fin 1024, f (row b q)) = ∑ j : Fin 8192, f j :=
  (Fintype.sum_prod_type' fun b q => f (row b q)).symm.trans
    (Fintype.sum_equiv rowEquiv _ _ fun _ => rfl)

end Cert.Hsic.Pay

end
-- ==== Proof.HsicMask.lean ====
/-
  The two masked row sums of one block of the kernel matrix.

  A grid point `(bi, bj)` holds the block of rows `1024 * bi + p` and columns `1024 * bj + q`.  The row and column
  numbers are formed as 32-bit words (no wrap: they are below `8192`), the labels are the numbers modulo `4096`
  (the low twelve bits), and the block's entries are kept where the row number differs from the column number, and
  moreover where the labels agree; each running sum grows by the lane sum of the kept entries.
-/
import proofs.«138724_j84550726189308_2_alg».proof.Proof.Gen.KernelIdeal.Skeleton
import proofs.«138724_j84550726189308_2_alg».proof.Proof.HsicSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx
open Cert.KernelIdeal Cert.KernelIdeal.Gen

namespace Cert.Hsic.Pay

/-! ## Reading the index vectors -/

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row numbers of the block: `1024` times the first grid coordinate plus the row, as words. -/
theorem pay11_apply (i : grid0.Coords) (p : Fin 1024) :
    k0_pay11 i (ix2 p (0 : Fin 1)) = BitVec.ofNat 32 (i 0).val * 1024#32 + BitVec.ofNat 32 p.val := by
  unfold k0_pay11
  show BitVec.ofNat 32 (i 0).val * 1024#32 + iota .tc S1024x1 32 [0] iota_S1024x1_d0_w32 (ix2 p (0 : Fin 1)) = _
  rw [iota_single_apply]

/-- The column numbers of the block: `1024` times the second grid coordinate plus the lane, as words. -/
theorem pay12_apply (i : grid0.Coords) (q : Fin 1024) :
    k0_pay12 i (ix2 (0 : Fin 1) q) = BitVec.ofNat 32 (i 1).val * 1024#32 + BitVec.ofNat 32 q.val := by
  unfold k0_pay12
  show BitVec.ofNat 32 (i 1).val * 1024#32 + iota .tc S1x1024 32 [1] iota_S1x1024_d1_w32 (ix2 (0 : Fin 1) q) = _
  rw [iota_single_apply]

/-! ## The word arithmetic -/

/-- The word of a row number: no wrap below `2 ^ 32`. -/
theorem word_toNat (b p : ℕ) (hb : b < 8) (hp : p < 1024) :
    (BitVec.ofNat 32 b * 1024#32 + BitVec.ofNat 32 p).toNat = 1024 * b + p := by
  rw [BitVec.toNat_add, BitVec.toNat_mul, BitVec.toNat_ofNat, BitVec.toNat_ofNat, BitVec.toNat_ofNat]
  omega

/-- Its low twelve bits: the row number modulo `4096`. -/
theorem word_and_toNat (b p : ℕ) (hb : b < 8) (hp : p < 1024) :
    ((BitVec.ofNat 32 b * 1024#32 + BitVec.ofNat 32 p) &&& 4095#32).toNat = (1024 * b + p) % 4096 := by
  rw [BitVec.toNat_and, word_toNat b p hb hp]
  exact Nat.and_two_pow_sub_one_eq_mod _ 12

/-- The comparison "not equal" of two words decides the inequality of their numbers. -/
theorem cmpi_ne_eq (x y : BitVec 32) : IntOp.cmpi .ne x y = if x.toNat ≠ y.toNat then 1#1 else 0#1 := by
  unfold IntOp.cmpi
  by_cases h : x = y
  · subst h; simp
  · have h' : x.toNat ≠ y.toNat := fun e => h (BitVec.eq_of_toNat_eq e)
    have hb : (x != y) = true := bne_iff_ne.mpr h
    rw [if_pos h']
    show BitVec.ofBool (x != y) = 1#1
    rw [hb]; rfl

/-- The comparison "equal" of two words decides the equality of their numbers. -/
theorem cmpi_eq_eq (x y : BitVec 32) : IntOp.cmpi .eq x y = if x.toNat = y.toNat then 1#1 else 0#1 := by
  unfold IntOp.cmpi
  by_cases h : x = y
  · subst h; simp
  · have h' : x.toNat ≠ y.toNat := fun e => h (BitVec.eq_of_toNat_eq e)
    have hb : (x == y) = false := beq_eq_false_iff_ne.mpr h
    rw [if_neg h']
    show BitVec.ofBool (x == y) = 0#1
    rw [hb]; rfl

/-! ## The lane sum -/

/-- The index over `(p)` with lane `k` inserted is `(p, k)`. -/
theorem lift_ix (h : S1024x1024.Reduces [1] S1024) (p : Fin 1024) (k : Fin 1024) :
    h.lift (ix1 p) k = ix2 p k := by
  funext c
  match c with
  | ⟨0, _⟩ => exact Fin.ext rfl
  | ⟨1, _⟩ => exact Fin.ext rfl

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  refine Finset.induction_on s (by simp) fun x t hx ih => ?_
  rw [Finset.sum_insert hx, Finset.sum_insert hx, EReal.coe_add, ih]

/-- The lane sum of a block of coerced reals is the coerced sum of each row. -/
theorem lane_sum (src : FVec Ideal S1024x1024 .f32) (f : Fin 1024 → Fin 1024 → ℝ)
    (hsrc : ∀ p q, src (ix2 p q) = ((f p q : ℝ) : EReal))
    (h : S1024x1024.Reduces [1] S1024) (hφ : FKind.Formats .f32) (hacc : (0x00000000#32 : BitVec 32) = 0x00000000#32) (p : Fin 1024) :
    multiReduction .add [1] S1024 src 0x00000000#32 h hφ hacc (ix1 p) = ((∑ q : Fin 1024, f p q : ℝ) : EReal) := by
  refine (Ideal.multiReduction_add_single src 0x00000000#32 h hφ hacc (ix1 p)).trans ?_
  rw [coe_sum]
  refine Finset.sum_congr rfl fun k _ => ?_
  rw [lift_ix h p k]
  exact hsrc p k

/-! ## The labels and the masked block -/

section
variable (i : grid0.Coords) (bi bj : Fin 8) (hi : (i 0).val = bi.val) (hj : (i 1).val = bj.val)

include hi in
/-- The rows' labels: the row numbers modulo `4096`. -/
theorem pay13_apply (p q : Fin 1024) :
    (k0_pay13 i (ix2 p q)).toNat = (row bi p).val % 4096 := by
  unfold k0_pay13
  show (broadcastTo S1024x1024 (andi (k0_pay11 i) (broadcast S1024x1 4095#32)) broadcasts_S1024x1_S1024x1024 (ix2 p q)).toNat = _
  rw [broadcastTo_a1_ab_apply]
  show ((k0_pay11 i (ix2 p (0 : Fin 1))) &&& 4095#32).toNat = _
  rw [pay11_apply, word_and_toNat _ _ (hi ▸ bi.isLt) p.isLt, hi, row_val]

include hj in
/-- The columns' labels: the column numbers modulo `4096`. -/
theorem pay14_apply (p q : Fin 1024) :
    (k0_pay14 i (ix2 p q)).toNat = (row bj q).val % 4096 := by
  unfold k0_pay14
  show (broadcastTo S1024x1024 (andi (k0_pay12 i) (broadcast S1x1024 4095#32)) broadcasts_S1x1024_S1024x1024 (ix2 p q)).toNat = _
  rw [broadcastTo_1b_ab_apply]
  show ((k0_pay12 i (ix2 (0 : Fin 1) q)) &&& 4095#32).toNat = _
  rw [pay12_apply, word_and_toNat _ _ (hj ▸ bj.isLt) q.isLt, hj, row_val]

variable (G : Vec Ideal S1024x1024 .f32) (g : Fin 1024 → Fin 1024 → ℝ) (hG : ∀ p q, G (ix2 p q) = ((g p q : ℝ) : EReal))
include hi hj hG

/-- The block with its diagonal entries (equal row and column numbers) replaced by zero. -/
theorem pay1_apply (p q : Fin 1024) :
    k0_pay1 (F := Ideal) G (k0_pay11 i) (k0_pay12 i) (ix2 p q)
      = (((if (row bi p).val ≠ (row bj q).val then g p q else 0 : ℝ)) : EReal) := by
  unfold k0_pay1
  show Scalar.select (IntOp.cmpi .ne (broadcastTo S1024x1024 (k0_pay11 i) broadcasts_S1024x1_S1024x1024 (ix2 p q))
      (broadcastTo S1024x1024 (k0_pay12 i) broadcasts_S1x1024_S1024x1024 (ix2 p q))) (G (ix2 p q)) (Ideal.ofBits .f32 0x00000000#32) = _
  rw [broadcastTo_a1_ab_apply, broadcastTo_1b_ab_apply, pay11_apply, pay12_apply, cmpi_ne_eq,
    word_toNat _ _ (hi ▸ bi.isLt) p.isLt, word_toNat _ _ (hj ▸ bj.isLt) q.isLt, hG, Ideal.ofBits_zero_f32, hi, hj, row_val, row_val]
  by_cases h : 1024 * bi.val + p.val ≠ 1024 * bj.val + q.val
  · rw [if_pos h, if_pos h, select_one]
  · rw [if_neg h, if_neg h, select_zero]; rfl

/-! ## The two running sums -/

variable (acc : Vec Ideal S1024 .f32) (a : Fin 1024 → ℝ) (hacc : ∀ p, acc (ix1 p) = ((a p : ℝ) : EReal)) (p : Fin 1024)
include hacc

/-- The running off-diagonal row sum after one more block. -/
theorem off_step :
    k0_pay4 (F := Ideal) G (k0_pay11 i) (k0_pay12 i) acc (ix1 p)
      = ((a p + ∑ q : Fin 1024, (if (row bi p).val ≠ (row bj q).val then g p q else 0) : ℝ) : EReal) := by
  unfold k0_pay4
  show shapeCast S1024 acc shapeCasts_S1024_S1024 (ix1 p)
      + multiReduction .add [1] S1024 (k0_pay1 (F := Ideal) G (k0_pay11 i) (k0_pay12 i)) 0x00000000#32
          reduces_S1024x1024_S1024 (.inl rfl) rfl (ix1 p) = _
  rw [shapeCast_self, hacc,
    lane_sum _ _ (pay1_apply i bi bj hi hj G g hG) reduces_S1024x1024_S1024 (.inl rfl) rfl p, ← EReal.coe_add]

/-- The running equal-label off-diagonal row sum after one more block. -/
theorem pos_step :
    k0_pay3 (F := Ideal) G (k0_pay11 i) (k0_pay12 i) (k0_pay13 i) (k0_pay14 i) acc (ix1 p)
      = ((a p + ∑ q : Fin 1024, (if (row bi p).val % 4096 = (row bj q).val % 4096 then (if (row bi p).val ≠ (row bj q).val then g p q else 0) else 0) : ℝ) : EReal) := by
  unfold k0_pay3
  show shapeCast S1024 acc shapeCasts_S1024_S1024 (ix1 p)
      + multiReduction .add [1] S1024
          (select (cmpi .eq (k0_pay13 i) (k0_pay14 i)) (k0_pay1 (F := Ideal) G (k0_pay11 i) (k0_pay12 i))
            (broadcast S1024x1024 (Ideal.ofBits .f32 0x00000000#32))) 0x00000000#32
          reduces_S1024x1024_S1024 (.inl rfl) rfl (ix1 p) = _
  rw [shapeCast_self, hacc,
    lane_sum _ (fun p q => if (row bi p).val % 4096 = (row bj q).val % 4096 then (if (row bi p).val ≠ (row bj q).val then g p q else 0) else 0)
      (fun p q => ?_) reduces_S1024x1024_S1024 (.inl rfl) rfl p, ← EReal.coe_add]
  show Scalar.select (IntOp.cmpi .eq (k0_pay13 i (ix2 p q)) (k0_pay14 i (ix2 p q)))
      (k0_pay1 (F := Ideal) G (k0_pay11 i) (k0_pay12 i) (ix2 p q)) (Ideal.ofBits .f32 0x00000000#32) = _
  rw [cmpi_eq_eq, pay13_apply i bi hi p q, pay14_apply i bj hj p q,
    pay1_apply i bi bj hi hj G g hG, Ideal.ofBits_zero_f32]
  by_cases h : (row bi p).val % 4096 = (row bj q).val % 4096
  · rw [if_pos h, if_pos h, select_one]
  · rw [if_neg h, if_neg h, select_zero]; rfl

end

end Cert.Hsic.Pay

end
-- ==== Proof.HsicAccum.lean ====
/-
  The four running row statistics of the kernel matrix after the body at each grid point.

  The grid point number t works on the rows of block t / 8 against the rows of block t mod 8.  Where t mod 8 = 0 the four
  accumulators are reset and take the point's contribution; elsewhere the point's contribution is added to what the
  point before left.  With the argument array real, the tile of a point is the Gaussian kernel of its rows, so after the
  body at t the accumulators hold, for each row of block t / 8, the four statistics summed over the columns of the
  blocks 0, …, t mod 8.
-/
import proofs.«138724_j84550726189308_2_alg».proof.Proof.FrameA_KernelIdeal
import proofs.«138724_j84550726189308_2_alg».proof.Proof.HsicPieces
import proofs.«138724_j84550726189308_2_alg».proof.Proof.HsicBlkRead
import proofs.«138724_j84550726189308_2_alg».proof.Proof.HsicBlock
import proofs.«138724_j84550726189308_2_alg».proof.Proof.HsicMask

set_option maxRecDepth 16384

noncomputable section

open scoped BigOperators

namespace Cert.KernelIdeal.Hand

open Cert.KernelIdeal Cert.KernelIdeal.Gen Cert.KernelIdeal.Hand Cert.Hsic
open Idealize.ShloMosaic Idealize.ShloMosaic.ValueIdx

/-! ## The accumulators at a point, as payloads of the point's two blocks -/

section Components
variable {F : FTy → Type} [FloatOps F]
variable (m : (ℓ : Loc nD τ sig) → Buf (Elt F) ℓ) (c : Dev nD) (t : Fin cfg0.N)

/-- At a resetting point the running row sums are the tile's lane sums added to the zero vector. -/
theorem outs_A_2 (h0 : t.val % 8 = 0) :
    (outsAt0 m c t.val t.isLt).1 = k0_pay2 (k0_pay10 (iblk m c 0 t) (iblk m c 1 t)) (k0_pay6 (F := F)) := by
  have e := out0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)
  rw [outsAt0_A m c t h0]
  unfold outA
  dsimp only
  exact e
/-- At a resetting point the running equal-label off-diagonal sums likewise. -/
theorem outs_A_3 (h0 : t.val % 8 = 0) :
    (outsAt0 m c t.val t.isLt).2.1 = k0_pay3 (k0_pay10 (iblk m c 0 t) (iblk m c 1 t)) (k0_pay11 (grid0.coords t))
      (k0_pay12 (grid0.coords t)) (k0_pay13 (grid0.coords t)) (k0_pay14 (grid0.coords t)) (k0_pay7 (F := F)) := by
  have e := out0_A_3_eq c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)
  rw [outsAt0_A m c t h0]
  unfold outA
  dsimp only
  exact e
/-- At a resetting point the running off-diagonal sums likewise. -/
theorem outs_A_4 (h0 : t.val % 8 = 0) :
    (outsAt0 m c t.val t.isLt).2.2.1 = k0_pay4 (k0_pay10 (iblk m c 0 t) (iblk m c 1 t)) (k0_pay11 (grid0.coords t))
      (k0_pay12 (grid0.coords t)) (k0_pay8 (F := F)) := by
  have e := out0_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)
  rw [outsAt0_A m c t h0]
  unfold outA
  dsimp only
  exact e
/-- At a resetting point the running sums of squares likewise. -/
theorem outs_A_5 (h0 : t.val % 8 = 0) :
    (outsAt0 m c t.val t.isLt).2.2.2 = k0_pay5 (k0_pay10 (iblk m c 0 t) (iblk m c 1 t)) (k0_pay9 (F := F)) := by
  have e := out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)
  rw [outsAt0_A m c t h0]
  unfold outA
  dsimp only
  exact e

/-- At an adding point the running row sums are the tile's lane sums added to what the point before left. -/
theorem outs_B_2 (h0 : ¬t.val % 8 = 0) :
    (outsAt0 m c t.val t.isLt).1 = k0_pay2 (k0_pay10 (iblk m c 0 t) (iblk m c 1 t)) (outsAt0 m c (t.val - 1) (Nat.lt_of_le_of_lt (Nat.sub_le _ _) t.isLt)).1 := by
  have e := out0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  rw [outsAt0_B m c t h0]
  unfold outB
  dsimp only
  exact e
/-- At an adding point the running equal-label off-diagonal sums likewise. -/
theorem outs_B_3 (h0 : ¬t.val % 8 = 0) :
    (outsAt0 m c t.val t.isLt).2.1 = k0_pay3 (k0_pay10 (iblk m c 0 t) (iblk m c 1 t)) (k0_pay11 (grid0.coords t))
      (k0_pay12 (grid0.coords t)) (k0_pay13 (grid0.coords t)) (k0_pay14 (grid0.coords t)) (outsAt0 m c (t.val - 1) (Nat.lt_of_le_of_lt (Nat.sub_le _ _) t.isLt)).2.1 := by
  have e := out0_B_3_eq c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  rw [outsAt0_B m c t h0]
  unfold outB
  dsimp only
  exact e
/-- At an adding point the running off-diagonal sums likewise. -/
theorem outs_B_4 (h0 : ¬t.val % 8 = 0) :
    (outsAt0 m c t.val t.isLt).2.2.1 = k0_pay4 (k0_pay10 (iblk m c 0 t) (iblk m c 1 t)) (k0_pay11 (grid0.coords t))
      (k0_pay12 (grid0.coords t)) (outsAt0 m c (t.val - 1) (Nat.lt_of_le_of_lt (Nat.sub_le _ _) t.isLt)).2.2.1 := by
  have e := out0_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  rw [outsAt0_B m c t h0]
  unfold outB
  dsimp only
  exact e
/-- At an adding point the running sums of squares likewise. -/
theorem outs_B_5 (h0 : ¬t.val % 8 = 0) :
    (outsAt0 m c t.val t.isLt).2.2.2 = k0_pay5 (k0_pay10 (iblk m c 0 t) (iblk m c 1 t)) (outsAt0 m c (t.val - 1) (Nat.lt_of_le_of_lt (Nat.sub_le _ _) t.isLt)).2.2.2 := by
  have e := out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  rw [outsAt0_B m c t h0]
  unfold outB
  dsimp only
  exact e

end Components

/-! ## Sums over the blocks up to one -/

/-- Up to the first block there is the first block only. -/
theorem sum_le_zero (S : Fin 8 → ℝ) (bj : Fin 8) (h : bj.val = 0) :
    (∑ b : Fin 8, if b.val ≤ bj.val then S b else 0) = S bj := by
  have e : ∀ b : Fin 8, (if b.val ≤ bj.val then S b else 0) = (if b = bj then S b else 0) := by
    intro b
    by_cases h3 : b = bj
    · subst h3; rw [if_pos le_rfl, if_pos rfl]
    · have h2 : ¬ b.val ≤ bj.val := fun hle => h3 (Fin.ext (by omega))
      rw [if_neg h2, if_neg h3]
  rw [Finset.sum_congr rfl fun b _ => e b, Finset.sum_ite_eq', if_pos (Finset.mem_univ _)]

/-- Up to the next block there is one block more. -/
theorem sum_le_succ (S : Fin 8 → ℝ) (bj bj' : Fin 8) (h : bj.val = bj'.val + 1) :
    (∑ b : Fin 8, if b.val ≤ bj.val then S b else 0) = (∑ b : Fin 8, if b.val ≤ bj'.val then S b else 0) + S bj := by
  have e : ∀ b : Fin 8, (if b.val ≤ bj.val then S b else 0)
      = (if b.val ≤ bj'.val then S b else 0) + (if b = bj then S b else 0) := by
    intro b
    by_cases h1 : b.val ≤ bj'.val
    · have h2 : b.val ≤ bj.val := by omega
      have h3 : b ≠ bj := fun e => by rw [e] at h1; omega
      rw [if_pos h1, if_pos h2, if_neg h3, add_zero]
    · by_cases h3 : b = bj
      · subst h3; rw [if_neg h1, if_pos le_rfl, if_pos rfl, zero_add]
      · have h2 : ¬ b.val ≤ bj.val := fun hle => h3 (Fin.ext (by omega))
        rw [if_neg h1, if_neg h2, if_neg h3, add_zero]
  rw [Finset.sum_congr rfl fun b _ => e b, Finset.sum_add_distrib, Finset.sum_ite_eq', if_pos (Finset.mem_univ _)]

/-! ## One point's contribution, over the reals -/

section AtIdeal
variable (m : (ℓ : Loc nD τ sig) → Buf (Elt Ideal) ℓ) (c : Dev nD) (X : Fin 8192 → Fin 128 → ℝ)
  (hX : ∀ i d, V m c main_arg0 (ix2 i d) = ((X i d : ℝ) : EReal))
  (t : Fin cfg0.N) (bi bj : Fin 8) (hi : bi.val = t.val / 8) (hj : bj.val = t.val % 8)
include hX hi hj

/-- The tile of a point is the Gaussian kernel of the rows of its two blocks. -/
theorem tile_value (p q : Fin 1024) :
    k0_pay10 (F := Ideal) (iblk m c 0 t) (iblk m c 1 t) (ix2 p q) = ((gk X (row bi p) (row bj q) : ℝ) : EReal) :=
  Cert.Hsic.Pay.gauss_block X bi bj (iblk m c 0 t) (iblk m c 1 t)
    (fun p d => (iblk0_apply m c t bi hi p d).trans (hX _ _))
    (fun q d => (iblk1_apply m c t bj hj q d).trans (hX _ _)) p q

theorem stepA2 (h0 : t.val % 8 = 0) (p : Fin 1024) :
    (outsAt0 m c t.val t.isLt).1 (ix1 p) = ((∑ q : Fin 1024, gk X (row bi p) (row bj q) : ℝ) : EReal) := by
  rw [outs_A_2 m c t h0]
  refine (Cert.Hsic.Pay.sum_step _ (fun p q => gk X (row bi p) (row bj q)) (tile_value m c X hX t bi bj hi hj)
    _ (fun _ => 0) (fun p => Cert.Hsic.Pay.zero_vec p) p).trans ?_
  exact congrArg _ (zero_add _)

theorem stepB2 (h0 : ¬t.val % 8 = 0) (a : Fin 1024 → ℝ)
    (hprev : ∀ p, (outsAt0 m c (t.val - 1) (Nat.lt_of_le_of_lt (Nat.sub_le _ _) t.isLt)).1 (ix1 p) = ((a p : ℝ) : EReal)) (p : Fin 1024) :
    (outsAt0 m c t.val t.isLt).1 (ix1 p) = ((a p + ∑ q : Fin 1024, gk X (row bi p) (row bj q) : ℝ) : EReal) := by
  rw [outs_B_2 m c t h0]
  exact Cert.Hsic.Pay.sum_step _ (fun p q => gk X (row bi p) (row bj q)) (tile_value m c X hX t bi bj hi hj) _ a hprev p

end AtIdeal

section AtIdeal2
variable (m : (ℓ : Loc nD τ sig) → Buf (Elt Ideal) ℓ) (c : Dev nD) (X : Fin 8192 → Fin 128 → ℝ)
  (hX : ∀ i d, V m c main_arg0 (ix2 i d) = ((X i d : ℝ) : EReal))
  (t : Fin cfg0.N) (bi bj : Fin 8) (hi : bi.val = t.val / 8) (hj : bj.val = t.val % 8)
include hX hi hj

theorem stepA3 (h0 : t.val % 8 = 0) (p : Fin 1024) :
    (outsAt0 m c t.val t.isLt).2.1 (ix1 p) = ((∑ q : Fin 1024, (if (row bi p).val % 4096 = (row bj q).val % 4096 then (if (row bi p).val ≠ (row bj q).val then gk X (row bi p) (row bj q) else 0) else 0) : ℝ) : EReal) := by
  rw [outs_A_3 m c t h0]
  refine (Cert.Hsic.Pay.pos_step (grid0.coords t) bi bj ((coords_fst t).trans hi.symm) ((coords_snd t).trans hj.symm)
    _ (fun p q => gk X (row bi p) (row bj q)) (tile_value m c X hX t bi bj hi hj) _ (fun _ => 0) (fun p => Cert.Hsic.Pay.zero_vec7 p) p).trans ?_
  exact congrArg _ (zero_add _)

theorem stepB3 (h0 : ¬t.val % 8 = 0) (a : Fin 1024 → ℝ)
    (hprev : ∀ p, (outsAt0 m c (t.val - 1) (Nat.lt_of_le_of_lt (Nat.sub_le _ _) t.isLt)).2.1 (ix1 p) = ((a p : ℝ) : EReal)) (p : Fin 1024) :
    (outsAt0 m c t.val t.isLt).2.1 (ix1 p) = ((a p + ∑ q : Fin 1024, (if (row bi p).val % 4096 = (row bj q).val % 4096 then (if (row bi p).val ≠ (row bj q).val then gk X (row bi p) (row bj q) else 0) else 0) : ℝ) : EReal) := by
  rw [outs_B_3 m c t h0]
  exact Cert.Hsic.Pay.pos_step (grid0.coords t) bi bj ((coords_fst t).trans hi.symm) ((coords_snd t).trans hj.symm)
    _ (fun p q => gk X (row bi p) (row bj q)) (tile_value m c X hX t bi bj hi hj) _ a hprev p

theorem stepA4 (h0 : t.val % 8 = 0) (p : Fin 1024) :
    (outsAt0 m c t.val t.isLt).2.2.1 (ix1 p) = ((∑ q : Fin 1024, (if (row bi p).val ≠ (row bj q).val then gk X (row bi p) (row bj q) else 0) : ℝ) : EReal) := by
  rw [outs_A_4 m c t h0]
  refine (Cert.Hsic.Pay.off_step (grid0.coords t) bi bj ((coords_fst t).trans hi.symm) ((coords_snd t).trans hj.symm)
    _ (fun p q => gk X (row bi p) (row bj q)) (tile_value m c X hX t bi bj hi hj) _ (fun _ => 0) (fun p => Cert.Hsic.Pay.zero_vec8 p) p).trans ?_
  exact congrArg _ (zero_add _)

theorem stepB4 (h0 : ¬t.val % 8 = 0) (a : Fin 1024 → ℝ)
    (hprev : ∀ p, (outsAt0 m c (t.val - 1) (Nat.lt_of_le_of_lt (Nat.sub_le _ _) t.isLt)).2.2.1 (ix1 p) = ((a p : ℝ) : EReal)) (p : Fin 1024) :
    (outsAt0 m c t.val t.isLt).2.2.1 (ix1 p) = ((a p + ∑ q : Fin 1024, (if (row bi p).val ≠ (row bj q).val then gk X (row bi p) (row bj q) else 0) : ℝ) : EReal) := by
  rw [outs_B_4 m c t h0]
  exact Cert.Hsic.Pay.off_step (grid0.coords t) bi bj ((coords_fst t).trans hi.symm) ((coords_snd t).trans hj.symm)
    _ (fun p q => gk X (row bi p) (row bj q)) (tile_value m c X hX t bi bj hi hj) _ a hprev p

theorem stepA5 (h0 : t.val % 8 = 0) (p : Fin 1024) :
    (outsAt0 m c t.val t.isLt).2.2.2 (ix1 p)
      = ((∑ q : Fin 1024, gk X (row bi p) (row bj q) * gk X (row bi p) (row bj q) : ℝ) : EReal) := by
  rw [outs_A_5 m c t h0]
  refine (Cert.Hsic.Pay.sq_step _ (fun p q => gk X (row bi p) (row bj q)) (tile_value m c X hX t bi bj hi hj)
    _ (fun _ => 0) (fun p => Cert.Hsic.Pay.zero_vec9 p) p).trans ?_
  exact congrArg _ (zero_add _)

theorem stepB5 (h0 : ¬t.val % 8 = 0) (a : Fin 1024 → ℝ)
    (hprev : ∀ p, (outsAt0 m c (t.val - 1) (Nat.lt_of_le_of_lt (Nat.sub_le _ _) t.isLt)).2.2.2 (ix1 p) = ((a p : ℝ) : EReal)) (p : Fin 1024) :
    (outsAt0 m c t.val t.isLt).2.2.2 (ix1 p)
      = ((a p + ∑ q : Fin 1024, gk X (row bi p) (row bj q) * gk X (row bi p) (row bj q) : ℝ) : EReal) := by
  rw [outs_B_5 m c t h0]
  exact Cert.Hsic.Pay.sq_step _ (fun p q => gk X (row bi p) (row bj q)) (tile_value m c X hX t bi bj hi hj) _ a hprev p

end AtIdeal2

/-! ## The accumulation over a row of grid points -/

section Accum
variable (m : (ℓ : Loc nD τ sig) → Buf (Elt Ideal) ℓ) (c : Dev nD) (X : Fin 8192 → Fin 128 → ℝ)
  (hX : ∀ i d, V m c main_arg0 (ix2 i d) = ((X i d : ℝ) : EReal))
include hX

/-- After the body at a point the four accumulators hold the four statistics of the point's rows summed over the
    column blocks up to the point's. -/
theorem accum_all : ∀ (n : ℕ) (hn : n < cfg0.N) (bi bj : Fin 8), bi.val = n / 8 → bj.val = n % 8 → ∀ p : Fin 1024,
    (outsAt0 (F := Ideal) m c n hn).1 (ix1 p)
        = ((∑ b : Fin 8, if b.val ≤ bj.val then ∑ q : Fin 1024, gk X (row bi p) (row b q) else 0 : ℝ) : EReal)
    ∧ (outsAt0 (F := Ideal) m c n hn).2.1 (ix1 p)
        = ((∑ b : Fin 8, if b.val ≤ bj.val then ∑ q : Fin 1024, (if (row bi p).val % 4096 = (row b q).val % 4096 then (if (row bi p).val ≠ (row b q).val then gk X (row bi p) (row b q) else 0) else 0) else 0 : ℝ) : EReal)
    ∧ (outsAt0 (F := Ideal) m c n hn).2.2.1 (ix1 p)
        = ((∑ b : Fin 8, if b.val ≤ bj.val then ∑ q : Fin 1024, (if (row bi p).val ≠ (row b q).val then gk X (row bi p) (row b q) else 0) else 0 : ℝ) : EReal)
    ∧ (outsAt0 (F := Ideal) m c n hn).2.2.2 (ix1 p)
        = ((∑ b : Fin 8, if b.val ≤ bj.val then ∑ q : Fin 1024, gk X (row bi p) (row b q) * gk X (row bi p) (row b q) else 0 : ℝ) : EReal) := by
  intro n
  induction n using Nat.strong_induction_on with
  | _ n ih =>
    intro hn bi bj hi hj p
    by_cases h0 : n % 8 = 0
    · have hb : bj.val = 0 := hj.trans h0
      refine ⟨?_, ?_, ?_, ?_⟩
      · rw [sum_le_zero (fun b => ∑ q : Fin 1024, gk X (row bi p) (row b q)) bj hb]
        exact stepA2 m c X hX ⟨n, hn⟩ bi bj hi hj h0 p
      · rw [sum_le_zero (fun b => ∑ q : Fin 1024, (if (row bi p).val % 4096 = (row b q).val % 4096 then (if (row bi p).val ≠ (row b q).val then gk X (row bi p) (row b q) else 0) else 0)) bj hb]
        exact stepA3 m c X hX ⟨n, hn⟩ bi bj hi hj h0 p
      · rw [sum_le_zero (fun b => ∑ q : Fin 1024, (if (row bi p).val ≠ (row b q).val then gk X (row bi p) (row b q) else 0)) bj hb]
        exact stepA4 m c X hX ⟨n, hn⟩ bi bj hi hj h0 p
      · rw [sum_le_zero (fun b => ∑ q : Fin 1024, gk X (row bi p) (row b q) * gk X (row bi p) (row b q)) bj hb]
        exact stepA5 m c X hX ⟨n, hn⟩ bi bj hi hj h0 p
    · have hb : (bj.val - 1) < 8 := by have := bj.isLt; omega
      have hs : bj.val = (⟨bj.val - 1, hb⟩ : Fin 8).val + 1 := by show bj.val = bj.val - 1 + 1; omega
      have ih' := ih (n - 1) (by omega) (Nat.lt_of_le_of_lt (Nat.sub_le _ _) hn) bi ⟨bj.val - 1, hb⟩
        (by show bi.val = (n - 1) / 8; omega) (by show bj.val - 1 = (n - 1) % 8; omega)
      refine ⟨?_, ?_, ?_, ?_⟩
      · rw [sum_le_succ (fun b => ∑ q : Fin 1024, gk X (row bi p) (row b q)) bj ⟨bj.val - 1, hb⟩ hs]
        exact stepB2 m c X hX ⟨n, hn⟩ bi bj hi hj h0 _ (fun p => (ih' p).1) p
      · rw [sum_le_succ (fun b => ∑ q : Fin 1024, (if (row bi p).val % 4096 = (row b q).val % 4096 then (if (row bi p).val ≠ (row b q).val then gk X (row bi p) (row b q) else 0) else 0)) bj ⟨bj.val - 1, hb⟩ hs]
        exact stepB3 m c X hX ⟨n, hn⟩ bi bj hi hj h0 _ (fun p => (ih' p).2.1) p
      · rw [sum_le_succ (fun b => ∑ q : Fin 1024, (if (row bi p).val ≠ (row b q).val then gk X (row bi p) (row b q) else 0)) bj ⟨bj.val - 1, hb⟩ hs]
        exact stepB4 m c X hX ⟨n, hn⟩ bi bj hi hj h0 _ (fun p => (ih' p).2.2.1) p
      · rw [sum_le_succ (fun b => ∑ q : Fin 1024, gk X (row bi p) (row b q) * gk X (row bi p) (row b q)) bj ⟨bj.val - 1, hb⟩ hs]
        exact stepB5 m c X hX ⟨n, hn⟩ bi bj hi hj h0 _ (fun p => (ih' p).2.2.2) p

variable (t : Fin cfg0.N) (bi bj : Fin 8) (hi : bi.val = t.val / 8) (hj : bj.val = t.val % 8) (p : Fin 1024)
include hi hj

/-- The running row sums after the body at a point. -/
theorem accum2 :
    (outsAt0 (F := Ideal) m c t.val t.isLt).1 (ix1 p)
      = ((∑ b : Fin 8, if b.val ≤ bj.val then ∑ q : Fin 1024, gk X (row bi p) (row b q) else 0 : ℝ) : EReal) :=
  (accum_all m c X hX t.val t.isLt bi bj hi hj p).1

/-- The running equal-label off-diagonal row sums after the body at a point. -/
theorem accum3 :
    (outsAt0 (F := Ideal) m c t.val t.isLt).2.1 (ix1 p)
      = ((∑ b : Fin 8, if b.val ≤ bj.val then ∑ q : Fin 1024, (if (row bi p).val % 4096 = (row b q).val % 4096 then (if (row bi p).val ≠ (row b q).val then gk X (row bi p) (row b q) else 0) else 0) else 0 : ℝ) : EReal) :=
  (accum_all m c X hX t.val t.isLt bi bj hi hj p).2.1

/-- The running off-diagonal row sums after the body at a point. -/
theorem accum4 :
    (outsAt0 (F := Ideal) m c t.val t.isLt).2.2.1 (ix1 p)
      = ((∑ b : Fin 8, if b.val ≤ bj.val then ∑ q : Fin 1024, (if (row bi p).val ≠ (row b q).val then gk X (row bi p) (row b q) else 0) else 0 : ℝ) : EReal) :=
  (accum_all m c X hX t.val t.isLt bi bj hi hj p).2.2.1

/-- The running row sums of squares after the body at a point. -/
theorem accum5 :
    (outsAt0 (F := Ideal) m c t.val t.isLt).2.2.2 (ix1 p)
      = ((∑ b : Fin 8, if b.val ≤ bj.val then ∑ q : Fin 1024, gk X (row bi p) (row b q) * gk X (row bi p) (row b q) else 0 : ℝ) : EReal) :=
  (accum_all m c X hX t.val t.isLt bi bj hi hj p).2.2.2

end Accum

end Cert.KernelIdeal.Hand

end
-- ==== Proof.HsicFinal.lean ====
/-
  The four result arrays of the kernel after the whole grid, row by row: the array of window 2 holds the row sums of
  the Gaussian kernel matrix, that of window 3 the row sums over the off-diagonal entries with equal labels, that of
  window 4 the row sums over the off-diagonal entries, that of window 5 the row sums of squares. Each block of 1024
  rows is written back at the last of the eight grid points that accumulate it, when the accumulator holds the sum
  over all eight column blocks, and these eight write-backs tile the array.
-/
import proofs.«138724_j84550726189308_2_alg».proof.Proof.FrameA_KernelIdeal
import proofs.«138724_j84550726189308_2_alg».proof.Proof.HsicAccum
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Hsic
open Idealize.ShloMosaic Idealize.ShloMosaic.ValueIdx Idealize.ShloMosaic.TcCoe
open Idealize.SL Idealize.SL.Sem
open Idealize.ShloMosaic.Pipeline (Dat Cfg Window)
open scoped BigOperators

variable (m : (ℓ : Loc nD τ sig) → Buf (Elt Ideal) ℓ)

/-- The block index of window 2 at point `t` is `t / 8`. -/
theorem idx_win2 : ∀ t : Fin cfg0.N, win0_2.index t (0 : Fin 1) = t.val / 8 :=
  (by decide +kernel : ∀ t : Fin grid0.N, win0_2.index t (0 : Fin 1) = t.val / 8)

/-- The array of the row sums of the kernel matrix. -/
def G2 (X : Fin 8192 → Fin 128 → ℝ) : S8192.Idx → EReal :=
  fun i => ((rowSum (gk X) ⟨(i 0).val, (i 0).isLt⟩ : ℝ) : EReal)

/-- What a point that writes window 2 back writes is its block of that array. -/
theorem flushed2_eq (c : Dev nD) (X : Fin 8192 → Fin 128 → ℝ)
    (hX : ∀ i d, V m c main_arg0 (ix2 i d) = ((X i d : ℝ) : EReal)) (t : Fin cfg0.N) (hf : (cfg0.win 2).flush t = true) :
    (dats (F := Ideal) m 0 c).flushed 2 t = ((cfg0.win 2).blk t).view.read (Elt Ideal) (G2 X) := by
  have h7 : t.val % 8 = 7 := (flush0_2 t).mp hf
  have htl : t.val < 64 := lt_of_lt_of_eq t.isLt N_0
  show (cfg0.win 2).cut (grid0.coords t) ((dats (F := Ideal) m 0 c).after 2 t) = _
  rw [after0_2]
  funext j
  obtain ⟨p, rfl⟩ : ∃ p : Fin 1024, j = ix1 p := ⟨j 0, eq_ix1 j⟩
  show (outsAt0 (F := Ideal) m c t.val t.isLt).1 (ix1 p) = G2 X (((cfg0.win 2).blk t).view.emb (ix1 p))
  rw [accum2 m c X hX t ⟨t.val / 8, by omega⟩ ⟨7, by omega⟩ rfl h7.symm p]
  unfold G2
  refine congrArg (fun x : ℝ => (x : EReal)) ?_
  have hrow : (⟨((((cfg0.win 2).blk t).view.emb (ix1 p)) 0).val, ((((cfg0.win 2).blk t).view.emb (ix1 p)) 0).isLt⟩ : Fin 8192)
      = row ⟨t.val / 8, by omega⟩ p := Fin.ext (by
    show win0_2.index t (0 : Fin 1) * 1024 + 1 * p.val = 1024 * (t.val / 8) + p.val
    rw [idx_win2 t]; omega)
  rw [hrow]
  unfold rowSum
  rw [← Pay.sum_blocks]
  exact Finset.sum_congr rfl fun b _ => if_pos (by have := b.isLt; show b.val ≤ 7; omega)

/-- After the whole grid the array of window 2 is the array of the row sums of the kernel matrix. -/
theorem final2 (c : Dev nD) (X : Fin 8192 → Fin 128 → ℝ)
    (hX : ∀ i d, V m c main_arg0 (ix2 i d) = ((X i d : ℝ) : EReal)) (r : Fin 8192) :
    (dats (F := Ideal) m 0 c).arrAt 2 cfg0.N (ix1 r) = ((rowSum (gk X) r : ℝ) : EReal) := by
  have hr : r.val < 8192 := r.isLt
  have hN : cfg0.N = 64 := N_0
  have hlt : 8 * (r.val / 1024) + 7 < cfg0.N := by rw [hN]; omega
  have hf : (cfg0.win 2).flush ⟨8 * (r.val / 1024) + 7, hlt⟩ = true :=
    (flush0_2 _).mpr (by show (8 * (r.val / 1024) + 7) % 8 = 7; omega)
  refine ((dats (F := Ideal) m 0 c).arrAt_apply_of_mem 2 (G2 X) (fun t hf => flushed2_eq m c X hX t hf) cfg0.N
    ⟨8 * (r.val / 1024) + 7, hlt⟩ (ix1 r) hlt hf ?_).trans rfl
  show ix1 r ∈ ((View.whole main_v0_0).slice (win0_2.rect ⟨8 * (r.val / 1024) + 7, hlt⟩)).set
  rw [View.set_slice_whole, Rect.mem_set_unit]
  intro a
  match a with
  | ⟨0, _⟩ =>
    show win0_2.index ⟨8 * (r.val / 1024) + 7, hlt⟩ (0 : Fin 1) * 1024 ≤ r.val
      ∧ r.val < win0_2.index ⟨8 * (r.val / 1024) + 7, hlt⟩ (0 : Fin 1) * 1024 + 1024
    rw [idx_win2 ⟨8 * (r.val / 1024) + 7, hlt⟩]
    show (8 * (r.val / 1024) + 7) / 8 * 1024 ≤ r.val ∧ r.val < (8 * (r.val / 1024) + 7) / 8 * 1024 + 1024
    omega

/-- The block index of window 3 at point `t` is `t / 8`. -/
theorem idx_win3 : ∀ t : Fin cfg0.N, win0_3.index t (0 : Fin 1) = t.val / 8 :=
  (by decide +kernel : ∀ t : Fin grid0.N, win0_3.index t (0 : Fin 1) = t.val / 8)

/-- The array of the row sums of the kernel matrix over the off-diagonal entries with equal labels. -/
def G3 (X : Fin 8192 → Fin 128 → ℝ) : S8192.Idx → EReal :=
  fun i => ((rowPos (gk X) ⟨(i 0).val, (i 0).isLt⟩ : ℝ) : EReal)

/-- What a point that writes window 3 back writes is its block of that array. -/
theorem flushed3_eq (c : Dev nD) (X : Fin 8192 → Fin 128 → ℝ)
    (hX : ∀ i d, V m c main_arg0 (ix2 i d) = ((X i d : ℝ) : EReal)) (t : Fin cfg0.N) (hf : (cfg0.win 3).flush t = true) :
    (dats (F := Ideal) m 0 c).flushed 3 t = ((cfg0.win 3).blk t).view.read (Elt Ideal) (G3 X) := by
  have h7 : t.val % 8 = 7 := (flush0_3 t).mp hf
  have htl : t.val < 64 := lt_of_lt_of_eq t.isLt N_0
  show (cfg0.win 3).cut (grid0.coords t) ((dats (F := Ideal) m 0 c).after 3 t) = _
  rw [after0_3]
  funext j
  obtain ⟨p, rfl⟩ : ∃ p : Fin 1024, j = ix1 p := ⟨j 0, eq_ix1 j⟩
  show (outsAt0 (F := Ideal) m c t.val t.isLt).2.1 (ix1 p) = G3 X (((cfg0.win 3).blk t).view.emb (ix1 p))
  rw [accum3 m c X hX t ⟨t.val / 8, by omega⟩ ⟨7, by omega⟩ rfl h7.symm p]
  unfold G3
  refine congrArg (fun x : ℝ => (x : EReal)) ?_
  have hrow : (⟨((((cfg0.win 3).blk t).view.emb (ix1 p)) 0).val, ((((cfg0.win 3).blk t).view.emb (ix1 p)) 0).isLt⟩ : Fin 8192)
      = row ⟨t.val / 8, by omega⟩ p := Fin.ext (by
    show win0_3.index t (0 : Fin 1) * 1024 + 1 * p.val = 1024 * (t.val / 8) + p.val
    rw [idx_win3 t]; omega)
  rw [hrow]
  unfold rowPos
  rw [← Pay.sum_blocks]
  exact Finset.sum_congr rfl fun b _ => if_pos (by have := b.isLt; show b.val ≤ 7; omega)

/-- After the whole grid the array of window 3 is the array of the row sums of the kernel matrix over the off-diagonal entries with equal labels. -/
theorem final3 (c : Dev nD) (X : Fin 8192 → Fin 128 → ℝ)
    (hX : ∀ i d, V m c main_arg0 (ix2 i d) = ((X i d : ℝ) : EReal)) (r : Fin 8192) :
    (dats (F := Ideal) m 0 c).arrAt 3 cfg0.N (ix1 r) = ((rowPos (gk X) r : ℝ) : EReal) := by
  have hr : r.val < 8192 := r.isLt
  have hN : cfg0.N = 64 := N_0
  have hlt : 8 * (r.val / 1024) + 7 < cfg0.N := by rw [hN]; omega
  have hf : (cfg0.win 3).flush ⟨8 * (r.val / 1024) + 7, hlt⟩ = true :=
    (flush0_3 _).mpr (by show (8 * (r.val / 1024) + 7) % 8 = 7; omega)
  refine ((dats (F := Ideal) m 0 c).arrAt_apply_of_mem 3 (G3 X) (fun t hf => flushed3_eq m c X hX t hf) cfg0.N
    ⟨8 * (r.val / 1024) + 7, hlt⟩ (ix1 r) hlt hf ?_).trans rfl
  show ix1 r ∈ ((View.whole main_v0_1).slice (win0_3.rect ⟨8 * (r.val / 1024) + 7, hlt⟩)).set
  rw [View.set_slice_whole, Rect.mem_set_unit]
  intro a
  match a with
  | ⟨0, _⟩ =>
    show win0_3.index ⟨8 * (r.val / 1024) + 7, hlt⟩ (0 : Fin 1) * 1024 ≤ r.val
      ∧ r.val < win0_3.index ⟨8 * (r.val / 1024) + 7, hlt⟩ (0 : Fin 1) * 1024 + 1024
    rw [idx_win3 ⟨8 * (r.val / 1024) + 7, hlt⟩]
    show (8 * (r.val / 1024) + 7) / 8 * 1024 ≤ r.val ∧ r.val < (8 * (r.val / 1024) + 7) / 8 * 1024 + 1024
    omega

/-- The block index of window 4 at point `t` is `t / 8`. -/
theorem idx_win4 : ∀ t : Fin cfg0.N, win0_4.index t (0 : Fin 1) = t.val / 8 :=
  (by decide +kernel : ∀ t : Fin grid0.N, win0_4.index t (0 : Fin 1) = t.val / 8)

/-- The array of the row sums of the kernel matrix over the off-diagonal entries. -/
def G4 (X : Fin 8192 → Fin 128 → ℝ) : S8192.Idx → EReal :=
  fun i => ((rowOff (gk X) ⟨(i 0).val, (i 0).isLt⟩ : ℝ) : EReal)

/-- What a point that writes window 4 back writes is its block of that array. -/
theorem flushed4_eq (c : Dev nD) (X : Fin 8192 → Fin 128 → ℝ)
    (hX : ∀ i d, V m c main_arg0 (ix2 i d) = ((X i d : ℝ) : EReal)) (t : Fin cfg0.N) (hf : (cfg0.win 4).flush t = true) :
    (dats (F := Ideal) m 0 c).flushed 4 t = ((cfg0.win 4).blk t).view.read (Elt Ideal) (G4 X) := by
  have h7 : t.val % 8 = 7 := (flush0_4 t).mp hf
  have htl : t.val < 64 := lt_of_lt_of_eq t.isLt N_0
  show (cfg0.win 4).cut (grid0.coords t) ((dats (F := Ideal) m 0 c).after 4 t) = _
  rw [after0_4]
  funext j
  obtain ⟨p, rfl⟩ : ∃ p : Fin 1024, j = ix1 p := ⟨j 0, eq_ix1 j⟩
  show (outsAt0 (F := Ideal) m c t.val t.isLt).2.2.1 (ix1 p) = G4 X (((cfg0.win 4).blk t).view.emb (ix1 p))
  rw [accum4 m c X hX t ⟨t.val / 8, by omega⟩ ⟨7, by omega⟩ rfl h7.symm p]
  unfold G4
  refine congrArg (fun x : ℝ => (x : EReal)) ?_
  have hrow : (⟨((((cfg0.win 4).blk t).view.emb (ix1 p)) 0).val, ((((cfg0.win 4).blk t).view.emb (ix1 p)) 0).isLt⟩ : Fin 8192)
      = row ⟨t.val / 8, by omega⟩ p := Fin.ext (by
    show win0_4.index t (0 : Fin 1) * 1024 + 1 * p.val = 1024 * (t.val / 8) + p.val
    rw [idx_win4 t]; omega)
  rw [hrow]
  unfold rowOff
  rw [← Pay.sum_blocks]
  exact Finset.sum_congr rfl fun b _ => if_pos (by have := b.isLt; show b.val ≤ 7; omega)

/-- After the whole grid the array of window 4 is the array of the row sums of the kernel matrix over the off-diagonal entries. -/
theorem final4 (c : Dev nD) (X : Fin 8192 → Fin 128 → ℝ)
    (hX : ∀ i d, V m c main_arg0 (ix2 i d) = ((X i d : ℝ) : EReal)) (r : Fin 8192) :
    (dats (F := Ideal) m 0 c).arrAt 4 cfg0.N (ix1 r) = ((rowOff (gk X) r : ℝ) : EReal) := by
  have hr : r.val < 8192 := r.isLt
  have hN : cfg0.N = 64 := N_0
  have hlt : 8 * (r.val / 1024) + 7 < cfg0.N := by rw [hN]; omega
  have hf : (cfg0.win 4).flush ⟨8 * (r.val / 1024) + 7, hlt⟩ = true :=
    (flush0_4 _).mpr (by show (8 * (r.val / 1024) + 7) % 8 = 7; omega)
  refine ((dats (F := Ideal) m 0 c).arrAt_apply_of_mem 4 (G4 X) (fun t hf => flushed4_eq m c X hX t hf) cfg0.N
    ⟨8 * (r.val / 1024) + 7, hlt⟩ (ix1 r) hlt hf ?_).trans rfl
  show ix1 r ∈ ((View.whole main_v0_2).slice (win0_4.rect ⟨8 * (r.val / 1024) + 7, hlt⟩)).set
  rw [View.set_slice_whole, Rect.mem_set_unit]
  intro a
  match a with
  | ⟨0, _⟩ =>
    show win0_4.index ⟨8 * (r.val / 1024) + 7, hlt⟩ (0 : Fin 1) * 1024 ≤ r.val
      ∧ r.val < win0_4.index ⟨8 * (r.val / 1024) + 7, hlt⟩ (0 : Fin 1) * 1024 + 1024
    rw [idx_win4 ⟨8 * (r.val / 1024) + 7, hlt⟩]
    show (8 * (r.val / 1024) + 7) / 8 * 1024 ≤ r.val ∧ r.val < (8 * (r.val / 1024) + 7) / 8 * 1024 + 1024
    omega

/-- The block index of window 5 at point `t` is `t / 8`. -/
theorem idx_win5 : ∀ t : Fin cfg0.N, win0_5.index t (0 : Fin 1) = t.val / 8 :=
  (by decide +kernel : ∀ t : Fin grid0.N, win0_5.index t (0 : Fin 1) = t.val / 8)

/-- The array of the row sums of squares of the kernel matrix. -/
def G5 (X : Fin 8192 → Fin 128 → ℝ) : S8192.Idx → EReal :=
  fun i => ((rowSq (gk X) ⟨(i 0).val, (i 0).isLt⟩ : ℝ) : EReal)

/-- What a point that writes window 5 back writes is its block of that array. -/
theorem flushed5_eq (c : Dev nD) (X : Fin 8192 → Fin 128 → ℝ)
    (hX : ∀ i d, V m c main_arg0 (ix2 i d) = ((X i d : ℝ) : EReal)) (t : Fin cfg0.N) (hf : (cfg0.win 5).flush t = true) :
    (dats (F := Ideal) m 0 c).flushed 5 t = ((cfg0.win 5).blk t).view.read (Elt Ideal) (G5 X) := by
  have h7 : t.val % 8 = 7 := (flush0_5 t).mp hf
  have htl : t.val < 64 := lt_of_lt_of_eq t.isLt N_0
  show (cfg0.win 5).cut (grid0.coords t) ((dats (F := Ideal) m 0 c).after 5 t) = _
  rw [after0_5]
  funext j
  obtain ⟨p, rfl⟩ : ∃ p : Fin 1024, j = ix1 p := ⟨j 0, eq_ix1 j⟩
  show (outsAt0 (F := Ideal) m c t.val t.isLt).2.2.2 (ix1 p) = G5 X (((cfg0.win 5).blk t).view.emb (ix1 p))
  rw [accum5 m c X hX t ⟨t.val / 8, by omega⟩ ⟨7, by omega⟩ rfl h7.symm p]
  unfold G5
  refine congrArg (fun x : ℝ => (x : EReal)) ?_
  have hrow : (⟨((((cfg0.win 5).blk t).view.emb (ix1 p)) 0).val, ((((cfg0.win 5).blk t).view.emb (ix1 p)) 0).isLt⟩ : Fin 8192)
      = row ⟨t.val / 8, by omega⟩ p := Fin.ext (by
    show win0_5.index t (0 : Fin 1) * 1024 + 1 * p.val = 1024 * (t.val / 8) + p.val
    rw [idx_win5 t]; omega)
  rw [hrow]
  unfold rowSq
  rw [← Pay.sum_blocks]
  exact Finset.sum_congr rfl fun b _ => if_pos (by have := b.isLt; show b.val ≤ 7; omega)

/-- After the whole grid the array of window 5 is the array of the row sums of squares of the kernel matrix. -/
theorem final5 (c : Dev nD) (X : Fin 8192 → Fin 128 → ℝ)
    (hX : ∀ i d, V m c main_arg0 (ix2 i d) = ((X i d : ℝ) : EReal)) (r : Fin 8192) :
    (dats (F := Ideal) m 0 c).arrAt 5 cfg0.N (ix1 r) = ((rowSq (gk X) r : ℝ) : EReal) := by
  have hr : r.val < 8192 := r.isLt
  have hN : cfg0.N = 64 := N_0
  have hlt : 8 * (r.val / 1024) + 7 < cfg0.N := by rw [hN]; omega
  have hf : (cfg0.win 5).flush ⟨8 * (r.val / 1024) + 7, hlt⟩ = true :=
    (flush0_5 _).mpr (by show (8 * (r.val / 1024) + 7) % 8 = 7; omega)
  refine ((dats (F := Ideal) m 0 c).arrAt_apply_of_mem 5 (G5 X) (fun t hf => flushed5_eq m c X hX t hf) cfg0.N
    ⟨8 * (r.val / 1024) + 7, hlt⟩ (ix1 r) hlt hf ?_).trans rfl
  show ix1 r ∈ ((View.whole main_v0_3).slice (win0_5.rect ⟨8 * (r.val / 1024) + 7, hlt⟩)).set
  rw [View.set_slice_whole, Rect.mem_set_unit]
  intro a
  match a with
  | ⟨0, _⟩ =>
    show win0_5.index ⟨8 * (r.val / 1024) + 7, hlt⟩ (0 : Fin 1) * 1024 ≤ r.val
      ∧ r.val < win0_5.index ⟨8 * (r.val / 1024) + 7, hlt⟩ (0 : Fin 1) * 1024 + 1024
    rw [idx_win5 ⟨8 * (r.val / 1024) + 7, hlt⟩]
    show (8 * (r.val / 1024) + 7) / 8 * 1024 ≤ r.val ∧ r.val < (8 * (r.val / 1024) + 7) / 8 * 1024 + 1024
    omega

end Cert.KernelIdeal.Hand

end
-- ==== Proof.HsicTail.lean ====
/-
  The scalar formula that ends the program, as a function of the four vectors of row statistics.

  From the vectors `a` (row sums), `b` (equal-label off-diagonal row sums), `c` (off-diagonal row sums) and `d` (row
  sums of squares) the program takes the five totals `Σ a`, `Σ b`, `Σ c`, `Σ d`, `Σ a²` and forms
  `-(w · ((Σb / 8192 - (Σc - Σb) / 2²⁶) - 1)) + 3 · √(max ((Σd - 2⁻¹² Σa²) + 2²⁶ (Σa / 2²⁶)²) 0 / 2²⁶)`.
  On vectors of coerced reals every step stays a coerced real: the divisors are non-zero constants and the square root
  is taken of a non-negative number.
-/
import proofs.«138724_j84550726189308_2_alg».proof.Proof.Gen.KernelIdeal.Launch
import proofs.«138724_j84550726189308_2_alg».proof.Proof.HsicSpec
import proofs.«138724_j84550726189308_2_alg».proof.Proof.HsicConsts
import Idealize.ShloMosaic.Lib.StableHlo.Run
import Idealize.ShloMosaic.Lib.ValueIdx
import Idealize.ShloMosaic.PureOps.Ideal.Laws

noncomputable section

open scoped BigOperators
open Idealize.ShloMosaic Idealize.ShloMosaic.ValueIdx
open Cert.KernelIdeal Cert.KernelIdeal.Gen

namespace Cert.Hsic.Tail

/-- The scalar the program forms from the four vectors of row statistics, operation by operation. -/
def tailE (a b c d : FVec Ideal S8192 .f32) : FVec Ideal S_ .f32 :=
  let z : FVec Ideal S_ .f32 := constant (F := Ideal) S_ .f32 0x00000000#32
  let k26 : FVec Ideal S_ .f32 := constant (F := Ideal) S_ .f32 0x4C800000#32
  let v1 : FVec Ideal S_ .f32 := Host.reduceAdd (F := Ideal) a z reducesTo_S8192_S_d0 h_S_
  let v2 : FVec Ideal S_ .f32 := Host.reduceAdd (F := Ideal) b z reducesTo_S8192_S_d0 h_S_
  let v3 : FVec Ideal S_ .f32 := Host.reduceAdd (F := Ideal) c z reducesTo_S8192_S_d0 h_S_
  let v4 : FVec Ideal S_ .f32 := subf v3 v2
  let v5 : FVec Ideal S_ .f32 := Host.reduceAdd (F := Ideal) d z reducesTo_S8192_S_d0 h_S_
  let v6 : FVec Ideal S_ .f32 := Host.divf (F := Ideal) v1 k26
  let v7 : FVec Ideal S8192 .f32 := mulf a a
  let v8 : FVec Ideal S_ .f32 := Host.reduceAdd (F := Ideal) v7 z reducesTo_S8192_S_d0 h_S_
  let v9 : FVec Ideal S_ .f32 := mulf (constant (F := Ideal) S_ .f32 0x39800000#32) v8
  let v10 : FVec Ideal S_ .f32 := subf v5 v9
  let v11 : FVec Ideal S_ .f32 := mulf v6 v6
  let v12 : FVec Ideal S_ .f32 := mulf k26 v11
  let v13 : FVec Ideal S_ .f32 := addf v10 v12
  let v14 : FVec Ideal S_ .f32 := maximumf v13 z
  let v15 : FVec Ideal S_ .f32 := Host.divf (F := Ideal) v14 k26
  let v16 : FVec Ideal S_ .f32 := Host.divf (F := Ideal) v2 (constant (F := Ideal) S_ .f32 0x46000000#32)
  let v17 : FVec Ideal S_ .f32 := Host.divf (F := Ideal) v4 k26
  let v18 : FVec Ideal S_ .f32 := subf v16 v17
  let v19 : FVec Ideal S_ .f32 := subf v18 (constant (F := Ideal) S_ .f32 0x3F800000#32)
  let v20 : FVec Ideal S_ .f32 := mulf (constant (F := Ideal) S_ .f32 0x3F800801#32) v19
  let v21 : FVec Ideal S_ .f32 := Host.negf (F := Ideal) v20
  let v22 : FVec Ideal S_ .f32 := Host.sqrt (F := Ideal) v15
  let v23 : FVec Ideal S_ .f32 := mulf (constant (F := Ideal) S_ .f32 0x40400000#32) v22
  addf v21 v23

/-- The contents of the result buffer after the scalar operations is that function of the four vectors' contents. -/
theorem after_tail (W : Valuation Cert.KernelIdeal.τ Cert.KernelIdeal.sig (Elt Ideal)) :
    StableHlo.after (Cert.KernelIdeal.Gen.hostOps1 (F := Ideal)) W (Proc.devRef .tc Cert.KernelIdeal.main_v24)
      = tailE (W (Proc.devRef .tc main_v0_0)) (W (Proc.devRef .tc main_v0_1)) (W (Proc.devRef .tc main_v0_2)) (W (Proc.devRef .tc main_v0_3)) := by
  open StableHlo in after_results_simp
  rfl

/-! ## Its value on vectors of reals -/

/-- A rank-1 index set is its one coordinate range … -/
def idxEquiv1 {n : ℕ} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]
  rfl

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  refine Finset.induction_on s (by simp) fun x t hx ih => ?_
  rw [Finset.sum_insert hx, Finset.sum_insert hx, EReal.coe_add, ih]

/-- The coercion of a maximum of reals is the maximum of the coercions. -/
theorem coe_max (x y : ℝ) : ((max x y : ℝ) : EReal) = max (x : EReal) (y : EReal) :=
  EReal.coe_strictMono.monotone.map_max

/-- The total of a vector of coerced reals, summed from zero, is the coerced total. -/
theorem reduce_real (x : FVec Ideal S8192 .f32) (xr : Fin 8192 → ℝ) (hx : ∀ i, x (ix1 i) = ((xr i : ℝ) : EReal)) (j : S_.Idx) :
    Host.reduceAdd (F := Ideal) x (constant (F := Ideal) S_ .f32 0x00000000#32) reducesTo_S8192_S_d0 h_S_ j
      = ((∑ i, xr i : ℝ) : EReal) := by
  simp only [Host.reduceAdd, Ideal.hostReduceAdd_def]
  rw [Ideal.hostReduceAdd_total reducesTo_S8192_S_d0 (fun b => b.elim0) x _ j]
  rw [constant_apply, Consts.ofBits_zero, zero_add, sum_idx1, coe_sum]
  exact Finset.sum_congr rfl fun i _ => hx i

/-- On vectors of coerced reals the scalar is the coerced real formula of their totals. -/
theorem tailE_real (a b c d : FVec Ideal S8192 .f32) (ar br cr dr : Fin 8192 → ℝ)
    (ha : ∀ i, a (ix1 i) = ((ar i : ℝ) : EReal)) (hb : ∀ i, b (ix1 i) = ((br i : ℝ) : EReal))
    (hc : ∀ i, c (ix1 i) = ((cr i : ℝ) : EReal)) (hd : ∀ i, d (ix1 i) = ((dr i : ℝ) : EReal)) :
    tailE a b c d = fun _ => ((tailR Consts.labelWeight ar br cr dr : ℝ) : EReal) := by
  funext j
  have h7 : ∀ i, (mulf a a : FVec Ideal S8192 .f32) (ix1 i) = ((ar i * ar i : ℝ) : EReal) := fun i => by
    show a (ix1 i) * a (ix1 i) = _
    rw [ha, ← EReal.coe_mul]
  have k26 : (67108864 : ℝ) ≠ 0 := by norm_num
  have k13 : (8192 : ℝ) ≠ 0 := by norm_num
  let R : FVec Ideal S8192 .f32 → EReal := fun x =>
    Host.reduceAdd (F := Ideal) x (constant (F := Ideal) S_ .f32 0x00000000#32) reducesTo_S8192_S_d0 h_S_ j
  have eA : R a = ((∑ i, ar i : ℝ) : EReal) := reduce_real a ar ha j
  have eB : R b = ((∑ i, br i : ℝ) : EReal) := reduce_real b br hb j
  have eC : R c = ((∑ i, cr i : ℝ) : EReal) := reduce_real c cr hc j
  have eD : R d = ((∑ i, dr i : ℝ) : EReal) := reduce_real d dr hd j
  have eA2 : R (mulf a a) = ((∑ i, ar i * ar i : ℝ) : EReal) := reduce_real _ _ h7 j
  show -(Ideal.ofBits .f32 0x3F800801#32
        * ((Ideal.div (R b) (Ideal.ofBits .f32 0x46000000#32) - Ideal.div (R c - R b) (Ideal.ofBits .f32 0x4C800000#32))
            - Ideal.ofBits .f32 0x3F800000#32))
      + Ideal.ofBits .f32 0x40400000#32
        * Ideal.sqrt (Ideal.div
            (max ((R d - Ideal.ofBits .f32 0x39800000#32 * R (mulf a a))
                + Ideal.ofBits .f32 0x4C800000#32
                  * (Ideal.div (R a) (Ideal.ofBits .f32 0x4C800000#32) * Ideal.div (R a) (Ideal.ofBits .f32 0x4C800000#32)))
              (Ideal.ofBits .f32 0x00000000#32))
            (Ideal.ofBits .f32 0x4C800000#32)) = _
  rw [eA, eB, eC, eD, eA2, Consts.ofBits_labelWeight, Consts.ofBits_8192, Consts.ofBits_2p26, Consts.ofBits_one,
    Consts.ofBits_three, Consts.ofBits_inv4096, Consts.ofBits_zero, ← EReal.coe_zero]
  simp only [Ideal.div_coe k13, Ideal.div_coe k26, ← EReal.coe_mul, ← EReal.coe_sub, ← EReal.coe_add, ← coe_max]
  rw [Ideal.sqrt_coe, if_neg (not_lt.mpr (mul_nonneg (le_max_right _ _) (by norm_num))), ← EReal.coe_mul, ← EReal.coe_neg, ← EReal.coe_add]
  unfold tailR
  simp only [mul_one_div]

end Cert.Hsic.Tail

end
-- ==== Proof.HsicAlgebra.lean ====
/-
  The two scalar formulas agree on a symmetric matrix.

  The masked sums agree entry by entry.  For the centred sum of squares: with `r i` the sum of row `i` (also the sum
  of column `i`, by symmetry), `T` the sum of all entries and `n` the number of rows,
  `∑ i j, (K i j - r j / n - r i / n + T / n²)² = ∑ i j, K i j² - (2 / n) ∑ i, r i² + T² / n²`;
  the left side is a sum of squares, so the clamp at `0` of the right side is the right side itself.
-/
import proofs.«138724_j84550726189308_2_alg».proof.Proof.HsicSpec

noncomputable section

open scoped BigOperators

namespace Cert.Hsic

/-- The sum of the squares of the doubly centred entries of a square matrix whose row sums and column sums are both
    `r`, in terms of the sum of squares of the entries, the sum of squares of `r` and the total `T`. -/
theorem centring_sum {ι : Type} [Fintype ι] (K : ι → ι → ℝ) (r : ι → ℝ) (T n : ℝ)
    (hn : (Fintype.card ι : ℝ) = n) (hn0 : n ≠ 0)
    (hr : ∀ i, ∑ j, K i j = r i) (hc : ∀ j, ∑ i, K i j = r j) (hT : ∑ i, r i = T) :
    ∑ i, ∑ j, (((K i j - r j / n) - r i / n) + T / (n * n)) * (((K i j - r j / n) - r i / n) + T / (n * n))
      = (∑ i, ∑ j, K i j * K i j) - (2 / n) * (∑ i, r i * r i) + T * T / (n * n) := by
  have key : ∀ i j, (((K i j - r j / n) - r i / n) + T / (n * n)) * (((K i j - r j / n) - r i / n) + T / (n * n))
      = K i j * K i j + (-2 / n) * (K i j * r j) + (-2 / n) * (K i j * r i) + (2 * T / (n * n)) * K i j
        + (1 / (n * n)) * (r j * r j) + (1 / (n * n)) * (r i * r i) + (2 / (n * n)) * (r i * r j)
        + (-2 * T / (n * n * n)) * r j + (-2 * T / (n * n * n)) * r i + T * T / (n * n * n * n) := by
    intro i j; field_simp; ring
  have h1 : ∑ i, ∑ j, K i j * r j = ∑ i, r i * r i := by
    rw [Finset.sum_comm]; refine Finset.sum_congr rfl fun j _ => ?_; rw [← Finset.sum_mul, hc]
  have h2 : ∑ i, ∑ j, K i j * r i = ∑ i, r i * r i := by
    refine Finset.sum_congr rfl fun i _ => ?_; rw [← Finset.sum_mul, hr]
  have h3 : ∑ i, ∑ j, K i j = T := by simp only [hr, hT]
  have h4 : ∑ _i : ι, ∑ j, r j * r j = n * ∑ i, r i * r i := by
    rw [Finset.sum_const, Finset.card_univ, nsmul_eq_mul, hn]
  have h5 : ∑ i, ∑ _j : ι, r i * r i = n * ∑ i, r i * r i := by
    simp only [Finset.sum_const, Finset.card_univ, nsmul_eq_mul, hn, Finset.mul_sum]
  have h6 : ∑ i, ∑ j, r i * r j = T * T := by rw [← hT, Finset.sum_mul_sum]
  have h7 : ∑ _i : ι, ∑ j, r j = n * T := by
    rw [Finset.sum_const, Finset.card_univ, nsmul_eq_mul, hn, hT]
  have h8 : ∑ i, ∑ _j : ι, r i = n * T := by
    simp only [Finset.sum_const, Finset.card_univ, nsmul_eq_mul, hn, ← Finset.mul_sum, hT]
  have h9 : ∑ _i : ι, ∑ _j : ι, T * T / (n * n * n * n) = n * (n * (T * T / (n * n * n * n))) := by
    simp only [Finset.sum_const, Finset.card_univ, nsmul_eq_mul, hn]
  calc ∑ i, ∑ j, (((K i j - r j / n) - r i / n) + T / (n * n)) * (((K i j - r j / n) - r i / n) + T / (n * n))
      = (∑ i, ∑ j, K i j * K i j) + (-2 / n) * (∑ i, ∑ j, K i j * r j) + (-2 / n) * (∑ i, ∑ j, K i j * r i)
        + (2 * T / (n * n)) * (∑ i, ∑ j, K i j)
        + (1 / (n * n)) * (∑ _i : ι, ∑ j, r j * r j) + (1 / (n * n)) * (∑ i, ∑ _j : ι, r i * r i)
        + (2 / (n * n)) * (∑ i, ∑ j, r i * r j)
        + (-2 * T / (n * n * n)) * (∑ _i : ι, ∑ j, r j) + (-2 * T / (n * n * n)) * (∑ i, ∑ _j : ι, r i)
        + ∑ _i : ι, ∑ _j : ι, T * T / (n * n * n * n) := by
        simp only [key, Finset.sum_add_distrib, Finset.mul_sum]
    _ = (∑ i, ∑ j, K i j * K i j) - (2 / n) * (∑ i, r i * r i) + T * T / (n * n) := by
        rw [h1, h2, h3, h4, h5, h6, h7, h8, h9]; field_simp; ring

/-- The equal-label off-diagonal entries, as a product of indicators. -/
theorem pos_entry (K : Fin 8192 → Fin 8192 → ℝ) (i j : Fin 8192) :
    (K i j * labEq i j) * (1 - diag i j)
      = if i.val % 4096 = j.val % 4096 then (if i.val ≠ j.val then K i j else 0) else 0 := by
  unfold labEq diag; split_ifs <;> simp_all

/-- The unequal-label off-diagonal entries: the off-diagonal entries less the equal-label ones. -/
theorem neg_entry (K : Fin 8192 → Fin 8192 → ℝ) (i j : Fin 8192) :
    (K i j * (1 - labEq i j)) * (1 - diag i j)
      = (if i.val ≠ j.val then K i j else 0)
        - (if i.val % 4096 = j.val % 4096 then (if i.val ≠ j.val then K i j else 0) else 0) := by
  unfold labEq diag; split_ifs <;> simp_all

theorem pos_sum (K : Fin 8192 → Fin 8192 → ℝ) :
    ∑ i, ∑ j, (K i j * labEq i j) * (1 - diag i j) = ∑ i, rowPos K i := by
  unfold rowPos; simp only [pos_entry]

theorem neg_sum (K : Fin 8192 → Fin 8192 → ℝ) :
    ∑ i, ∑ j, (K i j * (1 - labEq i j)) * (1 - diag i j) = (∑ i, rowOff K i) - (∑ i, rowPos K i) := by
  unfold rowOff rowPos; simp only [neg_entry, Finset.sum_sub_distrib]

/-- The centred sum of squares of a symmetric matrix in terms of the row statistics. -/
theorem centred_sum (K : Fin 8192 → Fin 8192 → ℝ) (hK : ∀ i j, K i j = K j i) :
    ∑ i, ∑ j, centred K i j * centred K i j
      = ((∑ i, rowSq K i) - (1 / 4096) * (∑ i, rowSum K i * rowSum K i))
        + 67108864 * (((∑ i, rowSum K i) / 67108864) * ((∑ i, rowSum K i) / 67108864)) := by
  have hc : ∀ j, ∑ i, K i j = rowSum K j := by
    intro j; unfold rowSum; exact Finset.sum_congr rfl fun i _ => hK i j
  have hT : ∑ i', ∑ j', K i' j' = ∑ i, rowSum K i := rfl
  have hcen : ∀ i j, centred K i j
      = ((K i j - rowSum K j / 8192) - rowSum K i / 8192) + (∑ i, rowSum K i) / (8192 * 8192) := by
    intro i j; unfold centred; rw [hc j, hT]; norm_num [rowSum]
  have h := centring_sum K (rowSum K) (∑ i, rowSum K i) 8192 (by simp) (by norm_num) (fun _ => rfl) hc rfl
  simp only [hcen]
  rw [h]
  unfold rowSq
  ring

/-- On a symmetric matrix the scalar computed from the four row statistics is the scalar computed entry by entry. -/
theorem tail_eq_ref (sc : ℝ) (K : Fin 8192 → Fin 8192 → ℝ) (hK : ∀ i j, K i j = K j i) :
    tailR sc (rowSum K) (rowPos K) (rowOff K) (rowSq K) = refK sc K := by
  have hnn : (0 : ℝ) ≤ ((∑ i, rowSq K i) - (1 / 4096) * (∑ i, rowSum K i * rowSum K i))
        + 67108864 * (((∑ i, rowSum K i) / 67108864) * ((∑ i, rowSum K i) / 67108864)) := by
    rw [← centred_sum K hK]
    exact Finset.sum_nonneg fun i _ => Finset.sum_nonneg fun j _ => mul_self_nonneg _
  unfold tailR refK
  rw [pos_sum, neg_sum, centred_sum K hK, max_eq_left hnn]

end Cert.Hsic

end
-- ==== Proof.KernelValue.lean ====
/-
  The value of the idealized kernel's program: when the argument array's entries are the reals `X`, the four accumulator
  arrays end holding the four row statistics of the Gaussian kernel matrix of `X`, and the scalar host operations after
  the region turn them into the scalar the reference computes entry by entry (the two are equal for a symmetric matrix).
-/
import proofs.«138724_j84550726189308_2_alg».proof.Proof.FrameB_KernelIdeal
import proofs.«138724_j84550726189308_2_alg».proof.Proof.HsicFinal
import proofs.«138724_j84550726189308_2_alg».proof.Proof.HsicTail
import proofs.«138724_j84550726189308_2_alg».proof.Proof.HsicAlgebra

noncomputable section

namespace Cert.KernelIdeal.Hand

open Cert.KernelIdeal Cert.KernelIdeal.Gen Cert.Hsic
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result buffer after the scalar host operations, from the exit contents of the four accumulator arrays. -/
theorem result_eq (c : Dev nD) (X : Fin 8192 → Fin 128 → ℝ)
    (hX : ∀ (i : Fin 8192) (d : Fin 128), V m c main_arg0 (ix2 i d) = ((X i d : ℝ) : EReal)) :
    StableHlo.after ([hostOps1] : List (List (HloOp τ sig (Elt Ideal)))).flatten (Wx m c) (Proc.devRef .tc main_v24)
      = fun _ => ((refK Consts.labelWeight (gk X) : ℝ) : EReal) := by
  have e2 : Wx m c (Proc.devRef .tc main_v0_0) = (dats m 0 c).arrAt 2 cfg0.N := Wx_arr m c 2
  have e3 : Wx m c (Proc.devRef .tc main_v0_1) = (dats m 0 c).arrAt 3 cfg0.N := Wx_arr m c 3
  have e4 : Wx m c (Proc.devRef .tc main_v0_2) = (dats m 0 c).arrAt 4 cfg0.N := Wx_arr m c 4
  have e5 : Wx m c (Proc.devRef .tc main_v0_3) = (dats m 0 c).arrAt 5 cfg0.N := Wx_arr m c 5
  rw [List.flatten_cons, List.flatten_nil, List.append_nil, Tail.after_tail (Wx m c), e2, e3, e4, e5,
    Tail.tailE_real _ _ _ _ (rowSum (gk X)) (rowPos (gk X)) (rowOff (gk X)) (rowSq (gk X))
      (final2 m c X hX) (final3 m c X hX) (final4 m c X hX) (final5 m c X hX),
    tail_eq_ref Consts.labelWeight (gk X) (gk_symm X)]
  rfl

/-- The idealized kernel's run: it terminates, its result is the reference's scalar of the argument's reals, and the
    argument array ends unchanged. -/
theorem value_run (X : Dev nD → Fin 8192 → Fin 128 → ℝ)
    (hX : ∀ (c : Dev nD) (i : Fin 8192) (d : Fin 128), m ((c.tc : Thread nD τ).loc main_arg0) (ix2 i d) = ((X c i d : ℝ) : EReal)) :
    θ_run defs (onTc (τ := τ) (main (F := Ideal))) ⟨m, fun _ => 0, ρ⟩ (fun r => ∀ c : Dev nD,
      r.2.mem ((c.tc : Thread nD τ).loc main_v24) = (fun _ => ((refK Consts.labelWeight (gk (X c)) : ℝ) : EReal))
      ∧ r.2.mem ((c.tc : Thread nD τ).loc main_arg0) = m ((c.tc : Thread nD τ).loc main_arg0)) :=
  (θ_run defs _ _).mono (fun _ h c =>
      ⟨((h c).2 main_v24 (Pipeline.mem_restRefs_of main_v24 rfl (by decide))).trans (result_eq m c (X c) (hX c)),
        ((h c).1 0).trans (((arrAt_arg m c cfg0.N).1).trans (V_main_arg0 m c))⟩)
    (run_main m ρ)

end Cert.KernelIdeal.Hand

end
-- ==== Proof.HsicRef.lean ====
/-
  The reference program read at an index, stage by stage, at an input whose entries are reals: the row sums of squares,
  the matrix of inner products, the Gaussian kernel matrix, the two 0/1 masks (equal labels, the diagonal), the masked
  totals, the column sums, the row sums and the total of the kernel matrix, the doubly centred matrix and the sum of its
  squares, and the closing scalar formula. Every stage is the coercion of a real formula, and the last one is `refK`.
-/
import proofs.«138724_j84550726189308_2_alg».proof.Proof.Gen.ReferenceIdeal.Read
import proofs.«138724_j84550726189308_2_alg».proof.Proof.HsicSpec
import proofs.«138724_j84550726189308_2_alg».proof.Proof.HsicConsts

noncomputable section

open scoped BigOperators

namespace Cert.Hsic.Ref

open Idealize.ShloMosaic Idealize.ShloMosaic.ValueIdx Cert.ReferenceIdeal Cert.ReferenceIdeal.Read

variable [Cert.ReferenceIdeal.Facts]

/-- The coercion of the reals into the extended reals passes through a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ix_v1 (i : Fin 8192) (k : Fin 128) : idx_main_v1 (ix1 i) k = ix2 i k :=
  funext fun a => by match a with | ⟨0, _⟩ => rfl | ⟨1, _⟩ => rfl

/-- The first row sums of squares. -/
theorem v1_value (x0 : FVec Ideal S8192x128 .f32) (X : Fin 8192 → Fin 128 → ℝ)
    (hx : ∀ (i : Fin 8192) (d : Fin 128), x0 (ix2 i d) = ((X i d : ℝ) : EReal)) (i : Fin 8192) :
    val_main_v1 (F := Ideal) x0 (ix1 i) = ((sqn X i : ℝ) : EReal) := by
  rw [val_main_v1_apply, val_main_cst_apply, Ideal.ofBits_def, Consts.ofBits_zero, zero_add]
  unfold sqn
  rw [coe_sum]
  refine Finset.sum_congr rfl fun k _ => ?_
  rw [val_main_v0_apply, ix_v1, hx, Ideal.mulf_def, ← EReal.coe_mul]

theorem v4_value (x0 : FVec Ideal S8192x128 .f32) (X : Fin 8192 → Fin 128 → ℝ)
    (hx : ∀ (i : Fin 8192) (d : Fin 128), x0 (ix2 i d) = ((X i d : ℝ) : EReal)) (i : Fin 8192) :
    val_main_v4 (F := Ideal) x0 (ix1 i) = ((sqn X i : ℝ) : EReal) := by
  rw [val_main_v4_apply, val_main_cst_0_apply, Ideal.ofBits_def, Consts.ofBits_zero, zero_add]
  unfold sqn
  rw [coe_sum]
  refine Finset.sum_congr rfl fun k _ => ?_
  rw [val_main_v3_apply, show idx_main_v4 (ix1 i) k = ix2 i k from ix_v1 i k, hx, Ideal.mulf_def, ← EReal.coe_mul]

theorem ix_l10 (i j : Fin 8192) (k : Fin 128) : lidx_main_v10 (ix2 i j) k = ix2 i k :=
  funext fun a => by match a with | ⟨0, _⟩ => rfl | ⟨1, _⟩ => rfl
theorem ix_r10 (i j : Fin 8192) (k : Fin 128) : idx_main_v9 (ridx_main_v10 (ix2 i j) k) = ix2 j k :=
  funext fun a => by match a with | ⟨0, _⟩ => rfl | ⟨1, _⟩ => rfl

/-- The matrix of inner products. -/
theorem v10_value (x0 : FVec Ideal S8192x128 .f32) (X : Fin 8192 → Fin 128 → ℝ)
    (hx : ∀ (i : Fin 8192) (d : Fin 128), x0 (ix2 i d) = ((X i d : ℝ) : EReal)) (i j : Fin 8192) :
    val_main_v10 (F := Ideal) x0 (ix2 i j) = ((gram X i j : ℝ) : EReal) := by
  rw [val_main_v10_apply]
  unfold gram
  rw [coe_sum]
  refine Finset.sum_congr rfl fun k _ => ?_
  rw [val_main_v9_apply, ix_l10, ix_r10, hx, hx, ← EReal.coe_mul]

theorem ix_v6 (i j : Fin 8192) : idx_main_v2 (idx_main_v6 (ix2 i j)) = ix1 i :=
  funext fun a => by match a with | ⟨0, _⟩ => rfl
theorem ix_v7 (i j : Fin 8192) : idx_main_v5 (idx_main_v7 (ix2 i j)) = ix1 j :=
  funext fun a => by match a with | ⟨0, _⟩ => rfl

/-- The squared distance by the expansion of the square. -/
theorem v13_value (x0 : FVec Ideal S8192x128 .f32) (X : Fin 8192 → Fin 128 → ℝ)
    (hx : ∀ (i : Fin 8192) (d : Fin 128), x0 (ix2 i d) = ((X i d : ℝ) : EReal)) (i j : Fin 8192) :
    val_main_v13 (F := Ideal) x0 (ix2 i j) = ((sqn X i + sqn X j - 2 * gram X i j : ℝ) : EReal) := by
  rw [val_main_v13_apply, val_main_v8_apply, val_main_v6_apply, val_main_v2_apply, ix_v6, v1_value x0 X hx,
    val_main_v7_apply, val_main_v5_apply, ix_v7, v4_value x0 X hx, val_main_v12_apply, val_main_v11_apply,
    val_main_cst_1_apply, v10_value x0 X hx, Ideal.ofBits_def, Consts.ofBits_two, Ideal.subf_def, Ideal.addf_def,
    Ideal.mulf_def, ← EReal.coe_add, ← EReal.coe_mul, ← EReal.coe_sub]

/-- Division of a real by a nonzero real, in the extended reals. -/
theorem div_real (a y : ℝ) (hy : y ≠ 0) : Ideal.div (a : EReal) (y : EReal) = ((a / y : ℝ) : EReal) := by
  rw [Ideal.div_coe hy, ← EReal.coe_mul, mul_one_div]

/-- The coercion of the reals into the extended reals passes through a maximum. -/
theorem coe_max (a b : ℝ) : ((max a b : ℝ) : EReal) = max (a : EReal) (b : EReal) :=
  EReal.coe_strictMono.monotone.map_max

/-- The Gaussian kernel matrix. -/
theorem v19_value (x0 : FVec Ideal S8192x128 .f32) (X : Fin 8192 → Fin 128 → ℝ)
    (hx : ∀ (i : Fin 8192) (d : Fin 128), x0 (ix2 i d) = ((X i d : ℝ) : EReal)) (i j : Fin 8192) :
    val_main_v19 (F := Ideal) x0 (ix2 i j) = ((gk X i j : ℝ) : EReal) := by
  rw [val_main_v19_apply, val_main_v18_apply, val_main_v16_apply, val_main_v15_apply, v13_value x0 X hx,
    val_main_v14_apply, val_main_cst_2_apply, val_main_v17_apply, val_main_cst_3_apply, Ideal.ofBits_def,
    Ideal.ofBits_def, Consts.ofBits_zero, Consts.ofBits_two, Ideal.maximumf_def, Ideal.hostNegf_def, Ideal.negf_def,
    Ideal.hostDivf_def, Ideal.hostUnary_exp_def, ← EReal.coe_zero, ← coe_max, ← EReal.coe_neg,
    div_real _ _ two_ne_zero, Ideal.exp_coe]
  rfl

/-- The conversion of the equality bit of two small naturals is the indicator of their equality. -/
theorem uitofp_cmpi_eq (a b : Nat) (ha : a < 2 ^ 32) (hb : b < 2 ^ 32) :
    FloatOps.uitofp (F := Ideal) .f32 (IntOp.cmpi .eq (BitVec.ofNat 32 a) (BitVec.ofNat 32 b))
      = (((if a = b then 1 else 0 : ℝ)) : EReal) := by
  show (((IntOp.cmpi .eq (BitVec.ofNat 32 a) (BitVec.ofNat 32 b)).toNat : ℝ) : EReal) = _
  by_cases h : a = b
  · rw [if_pos h, IntOp.cmpi_eq.mpr (by rw [h])]
    norm_num
  · have hz : IntOp.cmpi .eq (BitVec.ofNat 32 a) (BitVec.ofNat 32 b) = 0#1 :=
      eq_zero_of_ne_one (fun hc => h (by
        have h2 := congrArg BitVec.toNat (IntOp.cmpi_eq.mp hc)
        rw [BitVec.toNat_ofNat, BitVec.toNat_ofNat, Nat.mod_eq_of_lt ha, Nat.mod_eq_of_lt hb] at h2
        exact h2))
    rw [if_neg h, hz]
    norm_num

/-- The label of row `i` is `i mod 4096`. -/
theorem v23_value (i : Fin 8192) :
    val_main_v23 (F := Ideal) (ix1 i) = BitVec.ofNat 32 (i.val % 4096) := by
  rw [val_main_v23_apply, val_main_v22_apply, val_main_v21_apply, val_main_v20_apply]
  refine congrArg (BitVec.ofNat 32) ?_
  show 0 * 4096 + i.val % 4096 = i.val % 4096
  omega

theorem ix_v26 (i j : Fin 8192) : idx_main_v24 (idx_main_v26 (ix2 i j)) = ix1 i :=
  funext fun a => by match a with | ⟨0, _⟩ => rfl
theorem ix_v27 (i j : Fin 8192) : idx_main_v25 (idx_main_v27 (ix2 i j)) = ix1 j :=
  funext fun a => by match a with | ⟨0, _⟩ => rfl

/-- The indicator of equal labels. -/
theorem v29_value (i j : Fin 8192) :
    val_main_v29 (F := Ideal) (ix2 i j) = ((labEq i j : ℝ) : EReal) := by
  rw [val_main_v29_apply, val_main_v28_apply, val_main_v26_apply, val_main_v24_apply, ix_v26, v23_value,
    val_main_v27_apply, val_main_v25_apply, ix_v27, v23_value,
    uitofp_cmpi_eq _ _ (by have := i.isLt; omega) (by have := j.isLt; omega)]
  rfl

/-- The indicator of the diagonal. -/
theorem v35_value (i j : Fin 8192) :
    val_main_v35 (F := Ideal) (ix2 i j) = ((diag i j : ℝ) : EReal) := by
  rw [val_main_v35_apply, val_main_v34_apply, val_main_v33_apply, val_main_v30_apply, val_main_v32_apply,
    val_main_c_apply, val_main_v31_apply]
  show FloatOps.uitofp (F := Ideal) .f32 (IntOp.cmpi .eq (BitVec.ofNat 32 i.val + 0#32) (BitVec.ofNat 32 j.val)) = _
  rw [BitVec.add_zero, uitofp_cmpi_eq _ _ (by have := i.isLt; omega) (by have := j.isLt; omega)]
  rfl

/-- The equal-label off-diagonal entries. -/
theorem v39_value (x0 : FVec Ideal S8192x128 .f32) (X : Fin 8192 → Fin 128 → ℝ)
    (hx : ∀ (i : Fin 8192) (d : Fin 128), x0 (ix2 i d) = ((X i d : ℝ) : EReal)) (i j : Fin 8192) :
    val_main_v39 (F := Ideal) x0 (ix2 i j) = (((gk X i j * labEq i j) * (1 - diag i j) : ℝ) : EReal) := by
  rw [val_main_v39_apply, val_main_v38_apply, v19_value x0 X hx, v29_value, val_main_v37_apply, val_main_v36_apply,
    val_main_cst_4_apply, v35_value, Ideal.ofBits_def, Consts.ofBits_one, Ideal.mulf_def, Ideal.mulf_def,
    Ideal.subf_def, ← EReal.coe_mul, ← EReal.coe_sub, ← EReal.coe_mul]

/-- The unequal-label off-diagonal entries. -/
theorem v44_value (x0 : FVec Ideal S8192x128 .f32) (X : Fin 8192 → Fin 128 → ℝ)
    (hx : ∀ (i : Fin 8192) (d : Fin 128), x0 (ix2 i d) = ((X i d : ℝ) : EReal)) (i j : Fin 8192) :
    val_main_v44 (F := Ideal) x0 (ix2 i j) = (((gk X i j * (1 - labEq i j)) * (1 - diag i j) : ℝ) : EReal) := by
  rw [val_main_v44_apply, val_main_v43_apply, v19_value x0 X hx, val_main_v42_apply, val_main_v41_apply,
    val_main_cst_6_apply, v29_value, val_main_v37_apply, val_main_v36_apply,
    val_main_cst_4_apply, v35_value, Ideal.ofBits_def, Consts.ofBits_one, Ideal.mulf_def, Ideal.mulf_def,
    Ideal.subf_def, Ideal.subf_def, ← EReal.coe_sub, ← EReal.coe_mul, ← EReal.coe_sub, ← EReal.coe_mul]

/-- A sum over all the entries of a matrix of reals is the double sum. -/
theorem total_value (y : S8192x8192.Idx → EReal) (g : Fin 8192 → Fin 8192 → ℝ)
    (hy : ∀ i j, y (ix2 i j) = ((g i j : ℝ) : EReal)) :
    ∑ j : S8192x8192.Idx, y j = ((∑ i, ∑ j, g i j : ℝ) : EReal) := by
  rw [sum_idx2, coe_sum]
  refine Finset.sum_congr rfl fun a _ => ?_
  rw [coe_sum]
  exact Finset.sum_congr rfl fun b _ => hy a b

theorem v40_value (x0 : FVec Ideal S8192x128 .f32) (X : Fin 8192 → Fin 128 → ℝ)
    (hx : ∀ (i : Fin 8192) (d : Fin 128), x0 (ix2 i d) = ((X i d : ℝ) : EReal)) (i : S_.Idx) :
    val_main_v40 (F := Ideal) x0 i = ((∑ i, ∑ j, (gk X i j * labEq i j) * (1 - diag i j) : ℝ) : EReal) := by
  rw [val_main_v40_apply, val_main_cst_5_apply, Ideal.ofBits_def, Consts.ofBits_zero, zero_add]
  exact total_value _ _ (v39_value x0 X hx)

theorem v45_value (x0 : FVec Ideal S8192x128 .f32) (X : Fin 8192 → Fin 128 → ℝ)
    (hx : ∀ (i : Fin 8192) (d : Fin 128), x0 (ix2 i d) = ((X i d : ℝ) : EReal)) (i : S_.Idx) :
    val_main_v45 (F := Ideal) x0 i = ((∑ i, ∑ j, (gk X i j * (1 - labEq i j)) * (1 - diag i j) : ℝ) : EReal) := by
  rw [val_main_v45_apply, val_main_cst_7_apply, Ideal.ofBits_def, Consts.ofBits_zero, zero_add]
  exact total_value _ _ (v44_value x0 X hx)

theorem v59_value (x0 : FVec Ideal S8192x128 .f32) (X : Fin 8192 → Fin 128 → ℝ)
    (hx : ∀ (i : Fin 8192) (d : Fin 128), x0 (ix2 i d) = ((X i d : ℝ) : EReal)) (i : S_.Idx) :
    val_main_v59 (F := Ideal) x0 i = ((∑ i, ∑ j, gk X i j : ℝ) : EReal) := by
  rw [val_main_v59_apply, val_main_cst_16_apply, Ideal.ofBits_def, Consts.ofBits_zero, zero_add]
  exact total_value _ _ (v19_value x0 X hx)

theorem ix_v51 (j : Fin 8192) (k : Fin 8192) : idx_main_v51 (ix1 j) k = ix2 k j :=
  funext fun a => by match a with | ⟨0, _⟩ => rfl | ⟨1, _⟩ => rfl
theorem ix_v55 (i : Fin 8192) (k : Fin 8192) : idx_main_v55 (ix1 i) k = ix2 i k :=
  funext fun a => by match a with | ⟨0, _⟩ => rfl | ⟨1, _⟩ => rfl

/-- The column sums. -/
theorem v51_value (x0 : FVec Ideal S8192x128 .f32) (X : Fin 8192 → Fin 128 → ℝ)
    (hx : ∀ (i : Fin 8192) (d : Fin 128), x0 (ix2 i d) = ((X i d : ℝ) : EReal)) (j : Fin 8192) :
    val_main_v51 (F := Ideal) x0 (ix1 j) = ((∑ i', gk X i' j : ℝ) : EReal) := by
  rw [val_main_v51_apply, val_main_cst_12_apply, Ideal.ofBits_def, Consts.ofBits_zero, zero_add, coe_sum]
  refine Finset.sum_congr rfl fun k _ => ?_
  rw [ix_v51, v19_value x0 X hx]

/-- The row sums. -/
theorem v55_value (x0 : FVec Ideal S8192x128 .f32) (X : Fin 8192 → Fin 128 → ℝ)
    (hx : ∀ (i : Fin 8192) (d : Fin 128), x0 (ix2 i d) = ((X i d : ℝ) : EReal)) (i : Fin 8192) :
    val_main_v55 (F := Ideal) x0 (ix1 i) = ((∑ j', gk X i j' : ℝ) : EReal) := by
  rw [val_main_v55_apply, val_main_cst_14_apply, Ideal.ofBits_def, Consts.ofBits_zero, zero_add, coe_sum]
  refine Finset.sum_congr rfl fun k _ => ?_
  rw [ix_v55, v19_value x0 X hx]

theorem ix_v61 (i j : Fin 8192) : idx_main_v52 (idx_main_v61 (ix2 i j)) = ix1 j :=
  funext fun a => by match a with | ⟨0, _⟩ => rfl
theorem ix_v63 (i j : Fin 8192) : idx_main_v56 (idx_main_v63 (ix2 i j)) = ix1 i :=
  funext fun a => by match a with | ⟨0, _⟩ => rfl

/-- The doubly centred matrix. -/
theorem v66_value (x0 : FVec Ideal S8192x128 .f32) (X : Fin 8192 → Fin 128 → ℝ)
    (hx : ∀ (i : Fin 8192) (d : Fin 128), x0 (ix2 i d) = ((X i d : ℝ) : EReal)) (i j : Fin 8192) :
    val_main_v66 (F := Ideal) x0 (ix2 i j) = ((centred (gk X) i j : ℝ) : EReal) := by
  rw [val_main_v66_apply, val_main_v64_apply, val_main_v62_apply, v19_value x0 X hx,
    val_main_v61_apply, val_main_v54_apply, val_main_v52_apply, ix_v61, v51_value x0 X hx, val_main_v53_apply,
    val_main_cst_13_apply,
    val_main_v63_apply, val_main_v58_apply, val_main_v56_apply, ix_v63, v55_value x0 X hx, val_main_v57_apply,
    val_main_cst_15_apply,
    val_main_v65_apply, val_main_v60_apply, v59_value x0 X hx, val_main_cst_17_apply,
    Ideal.ofBits_def, Ideal.ofBits_def, Consts.ofBits_8192, Consts.ofBits_2p26,
    Ideal.hostDivf_def, Ideal.hostDivf_def, Ideal.hostDivf_def,
    div_real _ _ (by norm_num), div_real _ _ (by norm_num), div_real _ _ (by norm_num),
    Ideal.subf_def, Ideal.subf_def, Ideal.addf_def, ← EReal.coe_sub, ← EReal.coe_sub, ← EReal.coe_add]
  rfl

theorem v68_value (x0 : FVec Ideal S8192x128 .f32) (X : Fin 8192 → Fin 128 → ℝ)
    (hx : ∀ (i : Fin 8192) (d : Fin 128), x0 (ix2 i d) = ((X i d : ℝ) : EReal)) (i : S_.Idx) :
    val_main_v68 (F := Ideal) x0 i = ((∑ i, ∑ j, centred (gk X) i j * centred (gk X) i j : ℝ) : EReal) := by
  rw [val_main_v68_apply, val_main_cst_18_apply, Ideal.ofBits_def, Consts.ofBits_zero, zero_add]
  refine total_value _ _ fun a b => ?_
  rw [val_main_v67_apply, v66_value x0 X hx, Ideal.mulf_def, ← EReal.coe_mul]

/-- The reference program's result is the scalar `refK` of the Gaussian kernel matrix. -/
theorem ref_value (x0 : FVec Ideal Cert.ReferenceIdeal.S8192x128 .f32) (X : Fin 8192 → Fin 128 → ℝ)
    (hx : ∀ (i : Fin 8192) (d : Fin 128), x0 (ix2 i d) = ((X i d : ℝ) : EReal)) :
    Cert.ReferenceIdeal.Read.val_main_v73 (F := Ideal) x0 = fun _ => ((refK Consts.labelWeight (gk X) : ℝ) : EReal) := by
  funext i
  have hnn : ¬ (∑ i, ∑ j, centred (gk X) i j * centred (gk X) i j) / 67108864 < 0 :=
    not_lt.mpr (div_nonneg (Finset.sum_nonneg fun i _ => Finset.sum_nonneg fun j _ => mul_self_nonneg _) (by norm_num))
  rw [val_main_v73_apply, val_main_v70_apply, val_main_v50_apply, val_main_cst_11_apply, val_main_v49_apply,
    val_main_v48_apply, val_main_v46_apply, v40_value x0 X hx, val_main_cst_8_apply, val_main_v47_apply,
    v45_value x0 X hx, val_main_cst_9_apply, val_main_cst_10_apply,
    val_main_v72_apply, val_main_cst_20_apply, val_main_v71_apply, val_main_v69_apply, v68_value x0 X hx,
    val_main_cst_19_apply,
    Ideal.ofBits_def, Ideal.ofBits_def, Ideal.ofBits_def, Ideal.ofBits_def, Ideal.ofBits_def,
    Consts.ofBits_labelWeight, Consts.ofBits_8192, Consts.ofBits_2p26, Consts.ofBits_one, Consts.ofBits_three,
    Ideal.hostDivf_def, Ideal.hostDivf_def, Ideal.hostDivf_def,
    div_real _ _ (by norm_num), div_real _ _ (by norm_num), div_real _ _ (by norm_num),
    Ideal.hostUnary_sqrt_def, Ideal.sqrt_coe, if_neg hnn,
    Ideal.hostNegf_def, Ideal.negf_def, Ideal.subf_def, Ideal.subf_def, Ideal.mulf_def, Ideal.mulf_def, Ideal.addf_def,
    ← EReal.coe_sub, ← EReal.coe_sub, ← EReal.coe_mul, ← EReal.coe_neg, ← EReal.coe_mul, ← EReal.coe_add]
  rfl

end Cert.Hsic.Ref

end
-- ==== Proof.HsicFinite.lean ====
/-
  From the precondition "every entry of the input has absolute value below +∞" to "every entry is a real".
-/
import Idealize.ShloMosaic.Lib.ReduceAll
import Idealize.ShloMosaic.Lib.IdealHost
import Idealize.ShloMosaic.Lib.KernelVsHost
import proofs.«138724_j84550726189308_2_alg».proof.Pre_finite_inputs

noncomputable section

namespace Cert.Hsic

open Idealize.ShloMosaic Idealize.ShloMosaic.ValueIdx

/-- The rank-0 shape has one index. -/
instance : Subsingleton Cert.Pre_finite_inputs.S_.Idx := ⟨fun a b => funext fun d => d.elim0⟩

/-- An extended real that is neither infinity is a real. -/
theorem exists_real_of_finite (x : EReal) (h : ¬ (x = ⊤ ∨ x = ⊥)) : ∃ r : ℝ, x = ((r : ℝ) : EReal) := by
  exact ⟨x.toReal, (EReal.coe_toReal (fun e => h (Or.inl e)) (fun e => h (Or.inr e))).symm⟩

/-- Under the precondition every entry of the input is a real. -/
theorem entry_real [Cert.Pre_finite_inputs.Facts] (x : FVec Ideal Cert.Pre_finite_inputs.S8192x128 .f32)
    (h : Cert.Pre_finite_inputs.fn (F := Ideal) x = fun _ => 1#1) (j : Cert.Pre_finite_inputs.S8192x128.Idx) :
    ∃ r : ℝ, x j = ((r : ℝ) : EReal) := by
  have h0 := congrFun h ix0
  dsimp only [Cert.Pre_finite_inputs.fn] at h0
  have h1 := Host.reduce_andi_all _ _ _ _ _ h0 j
  rw [cmpf_apply, broadcastInDim_scalar_apply, constant_apply] at h1
  have h2 : IntOp.xori (FloatOps.weird (x j)) 1#1 = 1#1 :=
    (Ideal.xori_weird_eq_hostAbsf_olt_inf (x j)).trans h1
  have h3 : IntOp.xori (BitVec.ofBool (decide ((x j : EReal) = ⊤ ∨ (x j : EReal) = ⊥))) 1#1 = 1#1 := h2
  refine exists_real_of_finite (x j) fun hx => ?_
  simp [hx, IntOp.xori] at h3

theorem real_of_pre [Cert.Pre_finite_inputs.Facts] (x : FVec Ideal Cert.Pre_finite_inputs.S8192x128 .f32)
    (h : Cert.Pre_finite_inputs.fn (F := Ideal) x = fun _ => 1#1) :
    ∃ X : Fin 8192 → Fin 128 → ℝ, ∀ (i : Fin 8192) (d : Fin 128), x (ix2 i d) = ((X i d : ℝ) : EReal) := by
  choose X hX using fun (i : Fin 8192) (d : Fin 128) => entry_real x h (ix2 i d)
  exact ⟨X, hX⟩

end Cert.Hsic

end
-- ==== Proof.lean ====
/-
  The certificate's five claims.

  Both idealized programs compute, at a matrix `X` of 8192 rows of 128 finite reals, one scalar of the Gaussian kernel
  matrix `K i j = exp (-(max (|X i|² + |X j|² - 2⟨X i, X j⟩) 0) / 2)`: a label-weighted difference of masked sums of `K`
  plus three times the square root of the mean square of the doubly centred `K`. The reference forms the centred matrix
  entry by entry. The kernel streams the 8 × 8 tiles of `K` once, keeps four row statistics per row (sum, sum over the
  off-diagonal entries with equal labels, sum over the off-diagonal entries, sum of squares), accumulated over the tiles
  of a row, and finishes with the closed form `Σ Kc² = Σ K² - (2/N) Σ rᵢ² + N² t²` of the centred sum of squares
  (`rᵢ` the row sums, `t` the mean), which holds because `K` is symmetric. Finiteness of the input is what lets every
  extended-real operation be read as the real one. The three frames: each program runs to its end, nothing faulting, and
  leaves the argument array unchanged (the kernel's two input windows read the one argument array and never write it).
-/
import proofs.«138724_j84550726189308_2_alg».proof.Defs
import proofs.«138724_j84550726189308_2_alg».proof.Proof.Gen.Kernel
import proofs.«138724_j84550726189308_2_alg».proof.Proof.Gen.KernelIdeal
import proofs.«138724_j84550726189308_2_alg».proof.Proof.Gen.ReferenceIdeal
import proofs.«138724_j84550726189308_2_alg».proof.Proof.Gen.Pre_finite_inputs
import proofs.«138724_j84550726189308_2_alg».proof.Proof.Gen.ReferenceIdeal.Run
import proofs.«138724_j84550726189308_2_alg».proof.Proof.Gen.ReferenceIdeal.Read
import proofs.«138724_j84550726189308_2_alg».proof.Proof.FrameB_Kernel
import proofs.«138724_j84550726189308_2_alg».proof.Proof.KernelValue
import proofs.«138724_j84550726189308_2_alg».proof.Proof.HsicRef
import proofs.«138724_j84550726189308_2_alg».proof.Proof.HsicFinite

noncomputable section

namespace Cert.Proof

open Idealize.ShloMosaic Idealize.ShloMosaic.ValueIdx Idealize.SL.Sem Cert.Hsic

namespace Claims

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- The ideal pass rewrote nothing: the idealization is the kernel's own text read on the extended reals. -/
theorem preserves : Cert.preserves_Kernel_KernelIdeal := trivial

/-- From memories agreeing on the argument, whose entries are finite, both idealized programs end at the same scalar:
    the reference's formula of the argument's reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal : ∀ c : Dev Cert.KernelIdeal.nD, ∃ X : Fin 8192 → Fin 128 → ℝ, ∀ (i : Fin 8192) (d : Fin 128),
      m ((c.tc : Thread Cert.KernelIdeal.nD Cert.KernelIdeal.τ).loc Cert.KernelIdeal.main_arg0) (ix2 i d) = ((X i d : ℝ) : EReal) :=
    fun c => real_of_pre _ (hpre c)
  choose X hX using hreal
  refine ⟨fun c => fun _ => ((refK Consts.labelWeight (gk (X c)) : ℝ) : EReal), Cert.KernelIdeal.Hand.value_run m ρ X hX, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq]
  exact Cert.Hsic.Ref.ref_value _ (X c) (fun i d => by rw [hagree c]; exact hX c i d)

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
